-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S27x64x64 : Shape := ⟨3, ![27, 64, 64]⟩
abbrev S64 : Shape := ⟨1, ![64]⟩
abbrev S27x65536 : Shape := ⟨2, ![27, 65536]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S27x64x64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S27x64x64 .f32 := Host.absf main_arg4
  let main_cst_6 : FVec F S_ .f32 := constant S_ .f32 0x7F800000#32
  let main_v20 : FVec F S27x64x64 .f32 := broadcastInDim S27x64x64 ![] bcast_S_S27x64x64 main_cst_6
  let main_v21 : IVec S27x64x64 1 := cmpf .olt main_v19 main_v20
  let main_c_7 : IVec S_ 1 := constantI S_ 1 1#1
  let main_v22 : IVec S_ 1 := (fun x v => Host.reduce IntOp.andi x v reducesTo_S27x64x64_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S65536x64 .f32) (main_arg1 : FVec F S27x64x64 .f32) (main_arg2 : FVec F S64 .f32) (main_arg3 : FVec F S64 .f32) (main_arg4 : FVec F S27x64x64 .f32) (main_arg5 : FVec F S64 .f32) (main_arg6 : FVec F S64 .f32) (main_arg7 : IVec S27x65536 32) (main_arg8 : IVec S27x65536 32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S65536x64 : Shape := ⟨2, ![65536, 64]⟩
abbrev S27x64x64 : Shape := ⟨3, ![27, 64, 64]⟩
abbrev S64 : Shape := ⟨1, ![64]⟩
abbrev S27x65536 : Shape := ⟨2, ![27, 65536]⟩
abbrev S1x64 : Shape := ⟨2, ![1, 64]⟩
abbrev S_ : Shape := ⟨0, ![]⟩
abbrev S27x65536x1 : Shape := ⟨3, ![27, 65536, 1]⟩
abbrev S27x65536x64 : Shape := ⟨3, ![27, 65536, 64]⟩
abbrev S1x16384x64 : Shape := ⟨3, ![1, 16384, 64]⟩
abbrev S1x64x64 : Shape := ⟨3, ![1, 64, 64]⟩
abbrev S16384x64 : Shape := ⟨2, ![16384, 64]⟩
abbrev S64x64 : Shape := ⟨2, ![64, 64]⟩
abbrev S1769472x64 : Shape := ⟨2, ![1769472, 64]⟩
abbrev S1769472 : Shape := ⟨1, ![1769472]⟩
abbrev S1769472x1 : Shape := ⟨2, ![1769472, 1]⟩
abbrev S8192x64 : Shape := ⟨2, ![8192, 64]⟩

abbrev nBuf : Space → Nat
  | .hbm => 71
  | .vmem => 38
  | .smem => 0
  | _ => 0

abbrev bufTy : (tb : Table) → Fin (tcTables nBuf tb) → BufTy
  | .hbm, ⟨0, _⟩ => ⟨S65536x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S27x64x64, .f32⟩
  | .hbm, ⟨5, _⟩ => ⟨S64, .f32⟩
  | .hbm, ⟨6, _⟩ => ⟨S64, .f32⟩
  | .hbm, ⟨7, _⟩ => ⟨S27x65536, .i32⟩
  | .hbm, ⟨8, _⟩ => ⟨S27x65536, .i32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S65536x64, .bf16⟩
  | .hbm, ⟨14, _⟩ => ⟨S_, .i32⟩
  | .hbm, ⟨15, _⟩ => ⟨S27x65536, .i32⟩
  | .hbm, ⟨16, _⟩ => ⟨S27x65536, .i1⟩
  | .hbm, ⟨17, _⟩ => ⟨S_, .i32⟩
  | .hbm, ⟨18, _⟩ => ⟨S27x65536, .i32⟩
  | .hbm, ⟨19, _⟩ => ⟨S27x65536, .i32⟩
  | .hbm, ⟨20, _⟩ => ⟨S27x65536, .i32⟩
  | .hbm, ⟨21, _⟩ => ⟨S27x65536x1, .i32⟩
  | .hbm, ⟨22, _⟩ => ⟨S27x65536x64, .bf16⟩
  | .hbm, ⟨23, _⟩ => ⟨S27x64x64, .bf16⟩
  | .hbm, ⟨24, _⟩ => ⟨S27x65536x64, .f32⟩
  | .hbm, ⟨25, _⟩ => ⟨S1769472x64, .f32⟩
  | .hbm, ⟨26, _⟩ => ⟨S1769472, .i32⟩
  | .hbm, ⟨27, _⟩ => ⟨S_, .f32⟩
  | .hbm, ⟨28, _⟩ => ⟨S65536x64, .f32⟩
  | .hbm, ⟨29, _⟩ => ⟨S1769472x1, .i32⟩
  | .hbm, ⟨30, _⟩ => ⟨S65536x64, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S65536x64, .f32⟩
  | .hbm, ⟨42, _⟩ => ⟨S65536x64, .bf16⟩
  | .hbm, ⟨43, _⟩ => ⟨S_, .i32⟩
  | .hbm, ⟨44, _⟩ => ⟨S27x65536, .i32⟩
  | .hbm, ⟨45, _⟩ => ⟨S27x65536, .i1⟩
  | .hbm, ⟨46, _⟩ => ⟨S_, .i32⟩
  | .hbm, ⟨47, _⟩ => ⟨S27x65536, .i32⟩
  | .hbm, ⟨48, _⟩ => ⟨S27x65536, .i32⟩
  | .hbm, ⟨49, _⟩ => ⟨S27x65536, .i32⟩
  | .hbm, ⟨50, _⟩ => ⟨S27x65536x1, .i32⟩
  | .hbm, ⟨51, _⟩ => ⟨S27x65536x64, .bf16⟩
  | .hbm, ⟨52, _⟩ => ⟨S27x64x64, .bf16⟩
  | .hbm, ⟨53, _⟩ => ⟨S27x65536x64, .f32⟩
  | .hbm, ⟨54, _⟩ => ⟨S1769472x64, .f32⟩
  | .hbm, ⟨55, _⟩ => ⟨S1769472, .i32⟩
  | .hbm, ⟨56, _⟩ => ⟨S_, .f32⟩
  | .hbm, ⟨57, _⟩ => ⟨S65536x64, .f32⟩
  | .hbm, ⟨58, _⟩ => ⟨S1769472x1, .i32⟩
  | .hbm, ⟨59, _⟩ => ⟨S65536x64, .f32⟩
  | .hbm, ⟨60, _⟩ => ⟨S1x64, .f32⟩
  | .hbm, ⟨61, _⟩ => ⟨S1x64, .f32⟩
  | .hbm, ⟨62, _⟩ => ⟨S_, .f32⟩
  | .hbm, ⟨63, _⟩ => ⟨S1x64, .f32⟩
  | .hbm, ⟨64, _⟩ => ⟨S1x64, .f32⟩
  | .hbm, ⟨65, _⟩ => ⟨S_, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S65536x64, .f32⟩
  | .local _ .vmem, ⟨0, _⟩ => ⟨S1x16384x64, .bf16⟩
  | .local _ .vmem, ⟨1, _⟩ => ⟨S1x16384x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x16384x64, .f32⟩
  | .local _ .vmem, ⟨5, _⟩ => ⟨S1x16384x64, .f32⟩
  | .local _ .vmem, ⟨6, _⟩ => ⟨S8192x64, .f32⟩
  | .local _ .vmem, ⟨7, _⟩ => ⟨S8192x64, .f32⟩
  | .local _ .vmem, ⟨8, _⟩ => ⟨S1x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S8192x64, .f32⟩
  | .local _ .vmem, ⟨17, _⟩ => ⟨S8192x64, .f32⟩
  | .local _ .vmem, ⟨18, _⟩ => ⟨S1x16384x64, .bf16⟩
  | .local _ .vmem, ⟨19, _⟩ => ⟨S1x16384x64, .bf16⟩
  | .local _ .vmem, ⟨20, _⟩ => ⟨S1x64x64, .bf16⟩
  | .local _ .vmem, ⟨21, _⟩ => ⟨S1x64x64, .bf16⟩
  | .local _ .vmem, ⟨22, _⟩ => ⟨S1x16384x64, .f32⟩
  | .local _ .vmem, ⟨23, _⟩ => ⟨S1x16384x64, .f32⟩
  | .local _ .vmem, ⟨24, _⟩ => ⟨S8192x64, .f32⟩
  | .local _ .vmem, ⟨25, _⟩ => ⟨S8192x64, .f32⟩
  | .local _ .vmem, ⟨26, _⟩ => ⟨S1x64, .f32⟩
  | .local _ .vmem, ⟨27, _⟩ => ⟨S1x64, .f32⟩
  | .local _ .vmem, ⟨28, _⟩ => ⟨S8192x64, .f32⟩
  | .local _ .vmem, ⟨29, _⟩ => ⟨S8192x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S8192x64, .f32⟩
  | .local _ .vmem, ⟨35, _⟩ => ⟨S8192x64, .f32⟩
  | .local _ .vmem, ⟨36, _⟩ => ⟨S8192x64, .f32⟩
  | .local _ .vmem, ⟨37, _⟩ => ⟨S8192x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc5_stg6_0 : Ref sig .tc := ⟨.vmem, 36, rfl⟩
abbrev cc5_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc5_sem6_0 : DmaSem sig := 36
abbrev cc5_sem6_1 : DmaSem sig := 37

abbrev nD : Nat := 1
abbrev τ : Topo := Topo.v7x

variable {F : FTy → Type} [FloatOps F]

abbrev grid0 : Pipeline.Grid := ⟨2, ![27, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![27, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x16384x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x64x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x16384x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8192x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S8192x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  shapeCasts_S64_S1x64 : S64.ShapeCasts S1x64
  bitsLt_bf16_f32 : FTy.bits .bf16 < FTy.bits .f32
  bcast_S_S27x65536 : S_.BroadcastsInDim S27x65536 (![] : Fin 0 → Fin S27x65536.rank)
  bcast_S27x65536_S27x65536x1_0_1 : S27x65536.BroadcastsInDim S27x65536x1 (![0, 1] : Fin 2 → Fin S27x65536x1.rank)
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S16384x64_S1x16384x64 : S16384x64.ShapeCasts S1x16384x64
  shapeCasts_S27x65536x64_S1769472x64 : S27x65536x64.ShapeCasts S1769472x64
  shapeCasts_S27x65536_S1769472 : S27x65536.ShapeCasts S1769472
  bcast_S_S65536x64 : S_.BroadcastsInDim S65536x64 (![] : Fin 0 → Fin S65536x64.rank)
  bcast_S1769472_S1769472x1_0 : S1769472.BroadcastsInDim S1769472x1 (![0] : Fin 1 → Fin S1769472x1.rank)
  inb_S1x64_S1x64_0_0 : ∀ a, (![0, 0] : Fin 2 → Nat) a + S1x64.size a ≤ S1x64.size a
  h_S1x64 : 0 < S1x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  shapeCasts_S1x64_S1x64 : S1x64.ShapeCasts S1x64
  reduces_S8192x64_S64 : S8192x64.Reduces [0] S64
  bcast_S_S1x64 : S_.BroadcastsInDim S1x64 (![] : Fin 0 → Fin S1x64.rank)
  broadcasts_S1x64_S8192x64 : S1x64.Broadcasts S8192x64
  gather_S65536x64_S27x65536x1_S27x65536x64_2_0_n_n_0_2_164_wf : GatherDims.WF S65536x64 S27x65536x1 S27x65536x64 [2] [0] [] [0] [] 2 ![1, 64]
  dot_S16384x64_S64x64_S16384x64_1_0_0_1_n_n_wf : DotDims.WF S16384x64 S64x64 S16384x64 [1] [0] [0] [1] [] []
  scatter_S65536x64_S1769472x1_S1769472x64_1_0_0_1_wf : ScatterDims.WF S65536x64 S1769472x1 S1769472x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x64.size a ≤ S27x65536x64.size a
  hwx0_0 : ∀ i : grid0.Coords, EltTy.bits .bf16 = 32 ∨ (Rect.block (s := S27x65536x64) S1x16384x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x64.size a ≤ S27x65536x64.size a
  hwx0_2 : ∀ i : grid0.Coords, EltTy.bits .f32 = 32 ∨ (Rect.block (s := S27x65536x64) S1x16384x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S65536x64.size a
  hwx1_0 : ∀ i : grid1.Coords, EltTy.bits .f32 = 32 ∨ (Rect.block (s := S65536x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S65536x64.size a
  hwx2_0 : ∀ i : grid2.Coords, EltTy.bits .f32 = 32 ∨ (Rect.block (s := S65536x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x64.size a ≤ S65536x64.size a
  hwx2_5 : ∀ i : grid2.Coords, EltTy.bits .f32 = 32 ∨ (Rect.block (s := S65536x64) S8192x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16384x64.size a ≤ S27x65536x64.size a
  hwx3_0 : ∀ i : grid3.Coords, EltTy.bits .bf16 = 32 ∨ (Rect.block (s := S27x65536x64) S1x16384x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x64x64.size a ≤ S27x64x64.size a
  hwx3_1 : ∀ i : grid3.Coords, EltTy.bits .bf16 = 32 ∨ (Rect.block (s := S27x64x64) S1x64x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x16384x64.size a ≤ S27x65536x64.size a
  hwx3_2 : ∀ i : grid3.Coords, EltTy.bits .f32 = 32 ∨ (Rect.block (s := S27x65536x64) S1x16384x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S65536x64.size a
  hwx4_0 : ∀ i : grid4.Coords, EltTy.bits .f32 = 32 ∨ (Rect.block (s := S65536x64) S8192x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S65536x64.size a
  hwx5_0 : ∀ i : grid5.Coords, EltTy.bits .f32 = 32 ∨ (Rect.block (s := S65536x64) S8192x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8192x64.size a ≤ S65536x64.size a
  hwx5_5 : ∀ i : grid5.Coords, EltTy.bits .f32 = 32 ∨ (Rect.block (s := S65536x64) S8192x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8192x64.size a ≤ S65536x64.size a
  hwx5_6 : ∀ i : grid5.Coords, EltTy.bits .f32 = 32 ∨ (Rect.block (s := S65536x64) S8192x64.size (cc5_transform_6 i) (hinb5_6 i)).WholeWords (EltTy.packing .f32)

variable [Facts₀]

def gather_S65536x64_S27x65536x1_S27x65536x64_2_0_n_n_0_2_164 : GatherDims S65536x64 S27x65536x1 S27x65536x64 where
  offsetDims := [2]
  collapsedSliceDims := [0]
  operandBatchingDims := []
  startIndicesBatchingDims := []
  startIndexMap := [0]
  indexVectorDim := 2
  sliceSizes := ![1, 64]
  wf := gather_S65536x64_S27x65536x1_S27x65536x64_2_0_n_n_0_2_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def scatter_S65536x64_S1769472x1_S1769472x64_1_0_0_1 : ScatterDims S65536x64 S1769472x1 S1769472x64 where
  updateWindowDims := [1]
  insertedWindowDims := [0]
  scatterDimsToOperandDims := [0]
  indexVectorDim := 1
  wf := scatter_S65536x64_S1769472x1_S1769472x64_1_0_0_1_wf

abbrev win0_0 : Pipeline.Window sig grid0 :=
  Pipeline.Window.ofSpec (Memref.whole main_v11) S1x16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S8192x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v34) S1x16384x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x64x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x16384x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v41) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v2) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v3) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg0) S8192x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v49) S8192x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S65536x64 : Shape := ⟨2, ![65536, 64]⟩
abbrev S27x64x64 : Shape := ⟨3, ![27, 64, 64]⟩
abbrev S64 : Shape := ⟨1, ![64]⟩
abbrev S27x65536 : Shape := ⟨2, ![27, 65536]⟩
abbrev S_ : Shape := ⟨0, ![]⟩
abbrev S27x65536x1 : Shape := ⟨3, ![27, 65536, 1]⟩
abbrev S27x65536x64 : Shape := ⟨3, ![27, 65536, 64]⟩
abbrev S1769472x64 : Shape := ⟨2, ![1769472, 64]⟩
abbrev S1769472 : Shape := ⟨1, ![1769472]⟩
abbrev S1769472x1 : Shape := ⟨2, ![1769472, 1]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S27x64x64, .f32⟩
  | .hbm, ⟨5, _⟩ => ⟨S64, .f32⟩
  | .hbm, ⟨6, _⟩ => ⟨S64, .f32⟩
  | .hbm, ⟨7, _⟩ => ⟨S27x65536, .i32⟩
  | .hbm, ⟨8, _⟩ => ⟨S27x65536, .i32⟩
  | .hbm, ⟨9, _⟩ => ⟨S_, .i32⟩
  | .hbm, ⟨10, _⟩ => ⟨S27x65536, .i32⟩
  | .hbm, ⟨11, _⟩ => ⟨S27x65536, .i1⟩
  | .hbm, ⟨12, _⟩ => ⟨S_, .i32⟩
  | .hbm, ⟨13, _⟩ => ⟨S27x65536, .i32⟩
  | .hbm, ⟨14, _⟩ => ⟨S27x65536, .i32⟩
  | .hbm, ⟨15, _⟩ => ⟨S27x65536, .i32⟩
  | .hbm, ⟨16, _⟩ => ⟨S27x65536x1, .i32⟩
  | .hbm, ⟨17, _⟩ => ⟨S27x65536x64, .f32⟩
  | .hbm, ⟨18, _⟩ => ⟨S27x65536x64, .f32⟩
  | .hbm, ⟨19, _⟩ => ⟨S1769472x64, .f32⟩
  | .hbm, ⟨20, _⟩ => ⟨S1769472, .i32⟩
  | .hbm, ⟨21, _⟩ => ⟨S_, .f32⟩
  | .hbm, ⟨22, _⟩ => ⟨S65536x64, .f32⟩
  | .hbm, ⟨23, _⟩ => ⟨S1769472x1, .i32⟩
  | .hbm, ⟨24, _⟩ => ⟨S65536x64, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S1x64, .f32⟩
  | .hbm, ⟨31, _⟩ => ⟨S65536x64, .f32⟩
  | .hbm, ⟨32, _⟩ => ⟨S65536x64, .f32⟩
  | .hbm, ⟨33, _⟩ => ⟨S65536x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S65536x64, .f32⟩
  | .hbm, ⟨41, _⟩ => ⟨S65536x64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S65536x64, .f32⟩
  | .hbm, ⟨49, _⟩ => ⟨S65536x64, .f32⟩
  | .hbm, ⟨50, _⟩ => ⟨S1x64, .f32⟩
  | .hbm, ⟨51, _⟩ => ⟨S65536x64, .f32⟩
  | .hbm, ⟨52, _⟩ => ⟨S65536x64, .f32⟩
  | .hbm, ⟨53, _⟩ => ⟨S_, .f32⟩
  | .hbm, ⟨54, _⟩ => ⟨S65536x64, .f32⟩
  | .hbm, ⟨55, _⟩ => ⟨S65536x64, .f32⟩
  | .hbm, ⟨56, _⟩ => ⟨S_, .i32⟩
  | .hbm, ⟨57, _⟩ => ⟨S27x65536, .i32⟩
  | .hbm, ⟨58, _⟩ => ⟨S27x65536, .i1⟩
  | .hbm, ⟨59, _⟩ => ⟨S_, .i32⟩
  | .hbm, ⟨60, _⟩ => ⟨S27x65536, .i32⟩
  | .hbm, ⟨61, _⟩ => ⟨S27x65536, .i32⟩
  | .hbm, ⟨62, _⟩ => ⟨S27x65536, .i32⟩
  | .hbm, ⟨63, _⟩ => ⟨S27x65536x1, .i32⟩
  | .hbm, ⟨64, _⟩ => ⟨S27x65536x64, .f32⟩
  | .hbm, ⟨65, _⟩ => ⟨S27x65536x64, .f32⟩
  | .hbm, ⟨66, _⟩ => ⟨S1769472x64, .f32⟩
  | .hbm, ⟨67, _⟩ => ⟨S1769472, .i32⟩
  | .hbm, ⟨68, _⟩ => ⟨S_, .f32⟩
  | .hbm, ⟨69, _⟩ => ⟨S65536x64, .f32⟩
  | .hbm, ⟨70, _⟩ => ⟨S1769472x1, .i32⟩
  | .hbm, ⟨71, _⟩ => ⟨S65536x64, .f32⟩
  | .hbm, ⟨72, _⟩ => ⟨S_, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S1x64, .f32⟩
  | .hbm, ⟨78, _⟩ => ⟨S65536x64, .f32⟩
  | .hbm, ⟨79, _⟩ => ⟨S65536x64, .f32⟩
  | .hbm, ⟨80, _⟩ => ⟨S65536x64, .f32⟩
  | .hbm, ⟨81, _⟩ => ⟨S_, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S1x64, .f32⟩
  | .hbm, ⟨87, _⟩ => ⟨S65536x64, .f32⟩
  | .hbm, ⟨88, _⟩ => ⟨S65536x64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S1x64, .f32⟩
  | .hbm, ⟨95, _⟩ => ⟨S65536x64, .f32⟩
  | .hbm, ⟨96, _⟩ => ⟨S65536x64, .f32⟩
  | .hbm, ⟨97, _⟩ => ⟨S1x64, .f32⟩
  | .hbm, ⟨98, _⟩ => ⟨S65536x64, .f32⟩
  | .hbm, ⟨99, _⟩ => ⟨S65536x64, .f32⟩
  | .hbm, ⟨100, _⟩ => ⟨S65536x64, .f32⟩
  | .hbm, ⟨101, _⟩ => ⟨S_, .f32⟩
  | .hbm, ⟨102, _⟩ => ⟨S65536x64, .f32⟩
  | .hbm, ⟨103, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call1_cst : Ref sig .tc := ⟨.hbm, 101, rfl⟩
abbrev main_call1_v0 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  bcast_S_S27x65536 : S_.BroadcastsInDim S27x65536 (![] : Fin 0 → Fin S27x65536.rank)
  bcast_S27x65536_S27x65536x1_0_1 : S27x65536.BroadcastsInDim S27x65536x1 (![0, 1] : Fin 2 → Fin S27x65536x1.rank)
  shapeCasts_S27x65536x64_S1769472x64 : S27x65536x64.ShapeCasts S1769472x64
  shapeCasts_S27x65536_S1769472 : S27x65536.ShapeCasts S1769472
  bcast_S_S65536x64 : S_.BroadcastsInDim S65536x64 (![] : Fin 0 → Fin S65536x64.rank)
  bcast_S1769472_S1769472x1_0 : S1769472.BroadcastsInDim S1769472x1 (![0] : Fin 1 → Fin S1769472x1.rank)
  reducesTo_S65536x64_S64_d0 : S65536x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  gather_S65536x64_S27x65536x1_S27x65536x64_2_0_n_n_0_2_164_wf : GatherDims.WF S65536x64 S27x65536x1 S27x65536x64 [2] [0] [] [0] [] 2 ![1, 64]
  dot_S27x65536x64_S27x64x64_S27x65536x64_2_1_1_2_0_0_wf : DotDims.WF S27x65536x64 S27x64x64 S27x65536x64 [2] [1] [1] [2] [0] [0]
  scatter_S65536x64_S1769472x1_S1769472x64_1_0_0_1_wf : ScatterDims.WF S65536x64 S1769472x1 S1769472x64 [1] [0] [0] 1

variable [Facts₀]

def gather_S65536x64_S27x65536x1_S27x65536x64_2_0_n_n_0_2_164 : GatherDims S65536x64 S27x65536x1 S27x65536x64 where
  offsetDims := [2]
  collapsedSliceDims := [0]
  operandBatchingDims := []
  startIndicesBatchingDims := []
  startIndexMap := [0]
  indexVectorDim := 2
  sliceSizes := ![1, 64]
  wf := gather_S65536x64_S27x65536x1_S27x65536x64_2_0_n_n_0_2_164_wf
def dot_S27x65536x64_S27x64x64_S27x65536x64_2_1_1_2_0_0 : DotDims S27x65536x64 S27x64x64 S27x65536x64 where
  lhsContracting := [2]
  rhsContracting := [1]
  lhsNonContracting := [1]
  rhsNonContracting := [2]
  lhsBatch := [0]
  rhsBatch := [0]
  wf := dot_S27x65536x64_S27x64x64_S27x65536x64_2_1_1_2_0_0_wf
def scatter_S65536x64_S1769472x1_S1769472x64_1_0_0_1 : ScatterDims S65536x64 S1769472x1 S1769472x64 where
  updateWindowDims := [1]
  insertedWindowDims := [0]
  scatterDimsToOperandDims := [0]
  indexVectorDim := 1
  wf := scatter_S65536x64_S1769472x1_S1769472x64_1_0_0_1_wf

class Facts : Prop extends Facts₀ where

variable [Facts]
-- ==== Proof.KRun.lean ====
/-
  The idealised kernel program's run with its result named.  The program is twelve segments — six stretches of host
  operations and six kernel regions, alternating — and the buffer contents at each boundary are a fold from the launch
  memory: a stretch applies its operations, a region replaces its arrays by what its write-backs leave.  Every weakly
  fair execution ends, fault-free, with every unscoped buffer at the last boundary's contents; here the result buffer
  is read off that state beside the nine arguments.
-/
import proofs.«131612_j67276367725113_1_alg».proof.Proof.PatchKernelIdealFrame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealised kernel program terminates without a fault; at its end the result buffer
    holds what the last region's write-backs leave there, and the nine arguments are as launched. -/
theorem run : θ_run defs (onTc (τ := τ) (main (F := F))) ⟨m, fun _ => 0, ρ⟩ (fun r => ∀ c : Dev nD,
      r.2.mem ((c.tc : Thread nD τ).loc main_v49) = W12 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v49 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunVal

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.ChainA.lean ====
/-
  Which buffers keep their contents from one boundary of the program to a later one.  A stretch of host operations
  leaves every buffer none of its operations writes; a kernel region leaves every buffer that is not one of its arrays,
  and its input arrays as well (only output windows are written back).  Composing these steps carries an argument, or an
  intermediate result, from the boundary where it was produced to the boundary where it is read.
-/
import proofs.«131612_j67276367725113_1_alg».proof.Proof.PatchKernelIdealFrame
import proofs.«131612_j67276367725113_1_alg».proof.Proof.LibStretch

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem arg8_at2 (c : Dev nD) : W2 m ρ c (Proc.devRef .tc main_arg8) = W0 m ρ c (Proc.devRef .tc main_arg8) :=
  (W2_of_ne m ρ c main_arg8 (by decide)).trans <|
    (show W1 m ρ c (Proc.devRef .tc main_arg8) = W0 m ρ c (Proc.devRef .tc main_arg8) by unwritten hostOps0)

theorem v18_at5 (c : Dev nD) : W5 m ρ c (Proc.devRef .tc main_v18) = W3 m ρ c (Proc.devRef .tc main_v18) :=
  (show W5 m ρ c (Proc.devRef .tc main_v18) = W4 m ρ c (Proc.devRef .tc main_v18) by unwritten hostOps2).trans <|
    (show W4 m ρ c (Proc.devRef .tc main_v18) = W3 m ρ c (Proc.devRef .tc main_v18) from (W4_arr m ρ c 0).trans (((dat1 (V3 m ρ) c).arrAt_in 0 rfl _).trans (A_eq1 (V3 m ρ) c 0)))

theorem v0_at5 (c : Dev nD) : W5 m ρ c (Proc.devRef .tc main_v0) = W1 m ρ c (Proc.devRef .tc main_v0) :=
  (show W5 m ρ c (Proc.devRef .tc main_v0) = W4 m ρ c (Proc.devRef .tc main_v0) by unwritten hostOps2).trans <|
    (W4_of_ne m ρ c main_v0 (by decide)).trans <|
    (show W3 m ρ c (Proc.devRef .tc main_v0) = W2 m ρ c (Proc.devRef .tc main_v0) by unwritten hostOps1).trans <|
    (W2_of_ne m ρ c main_v0 (by decide))

theorem v1_at5 (c : Dev nD) : W5 m ρ c (Proc.devRef .tc main_v1) = W1 m ρ c (Proc.devRef .tc main_v1) :=
  (show W5 m ρ c (Proc.devRef .tc main_v1) = W4 m ρ c (Proc.devRef .tc main_v1) by unwritten hostOps2).trans <|
    (W4_of_ne m ρ c main_v1 (by decide)).trans <|
    (show W3 m ρ c (Proc.devRef .tc main_v1) = W2 m ρ c (Proc.devRef .tc main_v1) by unwritten hostOps1).trans <|
    (W2_of_ne m ρ c main_v1 (by decide))

theorem arg7_at6 (c : Dev nD) : W6 m ρ c (Proc.devRef .tc main_arg7) = W0 m ρ c (Proc.devRef .tc main_arg7) :=
  (W6_of_ne m ρ c main_arg7 (by decide)).trans <|
    (show W5 m ρ c (Proc.devRef .tc main_arg7) = W4 m ρ c (Proc.devRef .tc main_arg7) by unwritten hostOps2).trans <|
    (W4_of_ne m ρ c main_arg7 (by decide)).trans <|
    (show W3 m ρ c (Proc.devRef .tc main_arg7) = W2 m ρ c (Proc.devRef .tc main_arg7) by unwritten hostOps1).trans <|
    (W2_of_ne m ρ c main_arg7 (by decide)).trans <|
    (show W1 m ρ c (Proc.devRef .tc main_arg7) = W0 m ρ c (Proc.devRef .tc main_arg7) by unwritten hostOps0)

theorem arg4_at6 (c : Dev nD) : W6 m ρ c (Proc.devRef .tc main_arg4) = W0 m ρ c (Proc.devRef .tc main_arg4) :=
  (W6_of_ne m ρ c main_arg4 (by decide)).trans <|
    (show W5 m ρ c (Proc.devRef .tc main_arg4) = W4 m ρ c (Proc.devRef .tc main_arg4) by unwritten hostOps2).trans <|
    (W4_of_ne m ρ c main_arg4 (by decide)).trans <|
    (show W3 m ρ c (Proc.devRef .tc main_arg4) = W2 m ρ c (Proc.devRef .tc main_arg4) by unwritten hostOps1).trans <|
    (W2_of_ne m ρ c main_arg4 (by decide)).trans <|
    (show W1 m ρ c (Proc.devRef .tc main_arg4) = W0 m ρ c (Proc.devRef .tc main_arg4) by unwritten hostOps0)

theorem arg8_at8 (c : Dev nD) : W8 m ρ c (Proc.devRef .tc main_arg8) = W0 m ρ c (Proc.devRef .tc main_arg8) :=
  (W8_of_ne m ρ c main_arg8 (by decide)).trans <|
    (show W7 m ρ c (Proc.devRef .tc main_arg8) = W6 m ρ c (Proc.devRef .tc main_arg8) by unwritten hostOps3).trans <|
    (W6_of_ne m ρ c main_arg8 (by decide)).trans <|
    (show W5 m ρ c (Proc.devRef .tc main_arg8) = W4 m ρ c (Proc.devRef .tc main_arg8) by unwritten hostOps2).trans <|
    (W4_of_ne m ρ c main_arg8 (by decide)).trans <|
    (show W3 m ρ c (Proc.devRef .tc main_arg8) = W2 m ρ c (Proc.devRef .tc main_arg8) by unwritten hostOps1).trans <|
    (W2_of_ne m ρ c main_arg8 (by decide)).trans <|
    (show W1 m ρ c (Proc.devRef .tc main_arg8) = W0 m ρ c (Proc.devRef .tc main_arg8) by unwritten hostOps0)

theorem v41_at11 (c : Dev nD) : W11 m ρ c (Proc.devRef .tc main_v41) = W9 m ρ c (Proc.devRef .tc main_v41) :=
  (show W11 m ρ c (Proc.devRef .tc main_v41) = W10 m ρ c (Proc.devRef .tc main_v41) by unwritten hostOps5).trans <|
    (show W10 m ρ c (Proc.devRef .tc main_v41) = W9 m ρ c (Proc.devRef .tc main_v41) from (W10_arr m ρ c 0).trans (((dat4 (V9 m ρ) c).arrAt_in 0 rfl _).trans (A_eq4 (V9 m ρ) c 0)))

theorem v2_at11 (c : Dev nD) : W11 m ρ c (Proc.devRef .tc main_v2) = W1 m ρ c (Proc.devRef .tc main_v2) :=
  (show W11 m ρ c (Proc.devRef .tc main_v2) = W10 m ρ c (Proc.devRef .tc main_v2) by unwritten hostOps5).trans <|
    (W10_of_ne m ρ c main_v2 (by decide)).trans <|
    (show W9 m ρ c (Proc.devRef .tc main_v2) = W8 m ρ c (Proc.devRef .tc main_v2) by unwritten hostOps4).trans <|
    (W8_of_ne m ρ c main_v2 (by decide)).trans <|
    (show W7 m ρ c (Proc.devRef .tc main_v2) = W6 m ρ c (Proc.devRef .tc main_v2) by unwritten hostOps3).trans <|
    (W6_of_ne m ρ c main_v2 (by decide)).trans <|
    (show W5 m ρ c (Proc.devRef .tc main_v2) = W4 m ρ c (Proc.devRef .tc main_v2) by unwritten hostOps2).trans <|
    (W4_of_ne m ρ c main_v2 (by decide)).trans <|
    (show W3 m ρ c (Proc.devRef .tc main_v2) = W2 m ρ c (Proc.devRef .tc main_v2) by unwritten hostOps1).trans <|
    (W2_of_ne m ρ c main_v2 (by decide))

theorem v3_at11 (c : Dev nD) : W11 m ρ c (Proc.devRef .tc main_v3) = W1 m ρ c (Proc.devRef .tc main_v3) :=
  (show W11 m ρ c (Proc.devRef .tc main_v3) = W10 m ρ c (Proc.devRef .tc main_v3) by unwritten hostOps5).trans <|
    (W10_of_ne m ρ c main_v3 (by decide)).trans <|
    (show W9 m ρ c (Proc.devRef .tc main_v3) = W8 m ρ c (Proc.devRef .tc main_v3) by unwritten hostOps4).trans <|
    (W8_of_ne m ρ c main_v3 (by decide)).trans <|
    (show W7 m ρ c (Proc.devRef .tc main_v3) = W6 m ρ c (Proc.devRef .tc main_v3) by unwritten hostOps3).trans <|
    (W6_of_ne m ρ c main_v3 (by decide)).trans <|
    (show W5 m ρ c (Proc.devRef .tc main_v3) = W4 m ρ c (Proc.devRef .tc main_v3) by unwritten hostOps2).trans <|
    (W4_of_ne m ρ c main_v3 (by decide)).trans <|
    (show W3 m ρ c (Proc.devRef .tc main_v3) = W2 m ρ c (Proc.devRef .tc main_v3) by unwritten hostOps1).trans <|
    (W2_of_ne m ρ c main_v3 (by decide))

theorem arg0_at11 (c : Dev nD) : W11 m ρ c (Proc.devRef .tc main_arg0) = W0 m ρ c (Proc.devRef .tc main_arg0) :=
  (show W11 m ρ c (Proc.devRef .tc main_arg0) = W10 m ρ c (Proc.devRef .tc main_arg0) by unwritten hostOps5).trans <|
    (W10_of_ne m ρ c main_arg0 (by decide)).trans <|
    (show W9 m ρ c (Proc.devRef .tc main_arg0) = W8 m ρ c (Proc.devRef .tc main_arg0) by unwritten hostOps4).trans <|
    (W8_of_ne m ρ c main_arg0 (by decide)).trans <|
    (show W7 m ρ c (Proc.devRef .tc main_arg0) = W6 m ρ c (Proc.devRef .tc main_arg0) by unwritten hostOps3).trans <|
    (W6_of_ne m ρ c main_arg0 (by decide)).trans <|
    (show W5 m ρ c (Proc.devRef .tc main_arg0) = W4 m ρ c (Proc.devRef .tc main_arg0) by unwritten hostOps2).trans <|
    (W4_of_ne m ρ c main_arg0 (by decide)).trans <|
    (show W3 m ρ c (Proc.devRef .tc main_arg0) = W2 m ρ c (Proc.devRef .tc main_arg0) by unwritten hostOps1).trans <|
    (W2_of_ne m ρ c main_arg0 (by decide)).trans <|
    (show W1 m ρ c (Proc.devRef .tc main_arg0) = W0 m ρ c (Proc.devRef .tc main_arg0) by unwritten hostOps0)

end Cert.KernelIdeal.Carry

end
-- ==== Proof.Spec.lean ====
/-
  The functions the two programs compute, stage by stage, on whole arrays of extended reals.

  A sparse convolution is: gather rows of the feature table, multiply the gathered rows of each of the 27 offsets
  by that offset's 64×64 weight (`mm`), and add the products into the output rows.  The gather and the scatter-add
  are the same host operations in both programs, so only `mm` is spelt out here.  Batch normalisation needs the
  column sums of a 65536×64 table and of its squares (`colSum`, `colSumSq`); the normalised, shifted and clamped
  table is `bnRelu` (and `bnReluRes` with the residual added before the clamp), stated over the mean, the
  variance, the scale and the shift given as 1×64 rows.
-/
import Idealize.ShloMosaic.Lib.ValueIdx

noncomputable section

open scoped BigOperators

namespace Cert.Spec

open Idealize.ShloMosaic Idealize.ShloMosaic.ValueIdx

/-- a 65536×64 table -/
abbrev SN : Shape := ⟨2, ![65536, 64]⟩
/-- 27 stacked 65536×64 tables -/
abbrev SG : Shape := ⟨3, ![27, 65536, 64]⟩
/-- 27 stacked 64×64 weights -/
abbrev SW : Shape := ⟨3, ![27, 64, 64]⟩
/-- a 1×64 row -/
abbrev SR : Shape := ⟨2, ![1, 64]⟩

/-- The stabiliser added to the variance: the single-precision number nearest to 1e-5. -/
def eps : EReal := Ideal.ofBits .f32 0x3727C5AC#32

/-- The batched product: entry (b, n, d) is the sum over k of g(b, n, k) · w(b, k, d). -/
def mm (g : SG.Idx → EReal) (w : SW.Idx → EReal) : SG.Idx → EReal :=
  fun i => ∑ k : Fin 64, g (ix3 (i 0) (i 1) k) * w (ix3 (i 0) k (i 2))

theorem mm_apply (g : SG.Idx → EReal) (w : SW.Idx → EReal) (b : Fin 27) (n : Fin 65536) (d : Fin 64) :
    mm g w (ix3 b n d) = ∑ k : Fin 64, g (ix3 b n k) * w (ix3 b k d) := rfl

/-- The column sums of a table, as a 1×64 row. -/
def colSum (h : SN.Idx → EReal) : SR.Idx → EReal :=
  fun j => ∑ n : Fin 65536, h (ix2 n (j 1))

theorem colSum_apply (h : SN.Idx → EReal) (z : Fin 1) (d : Fin 64) :
    colSum h (ix2 z d) = ∑ n : Fin 65536, h (ix2 n d) := rfl

/-- The column sums of the squares of a table, as a 1×64 row. -/
def colSumSq (h : SN.Idx → EReal) : SR.Idx → EReal :=
  fun j => ∑ n : Fin 65536, h (ix2 n (j 1)) * h (ix2 n (j 1))

theorem colSumSq_apply (h : SN.Idx → EReal) (z : Fin 1) (d : Fin 64) :
    colSumSq h (ix2 z d) = ∑ n : Fin 65536, h (ix2 n d) * h (ix2 n d) := rfl

/-- Normalise each column by the given mean and variance, scale, shift, clamp at zero:
    max ((h − mean) · (γ · (var + ε)^(−1/2)) + β, 0). -/
def bnRelu (h : SN.Idx → EReal) (mean var gamma beta : SR.Idx → EReal) : SN.Idx → EReal :=
  fun i => max ((h i - mean (ix2 0 (i 1))) * (gamma (ix2 0 (i 1)) * Ideal.rsqrt (var (ix2 0 (i 1)) + eps))
    + beta (ix2 0 (i 1))) 0

theorem bnRelu_apply (h : SN.Idx → EReal) (mean var gamma beta : SR.Idx → EReal) (n : Fin 65536) (d : Fin 64) :
    bnRelu h mean var gamma beta (ix2 n d)
      = max ((h (ix2 n d) - mean (ix2 0 d)) * (gamma (ix2 0 d) * Ideal.rsqrt (var (ix2 0 d) + eps)) + beta (ix2 0 d)) 0 := rfl

/-- The same with a residual table added before the clamp. -/
def bnReluRes (h : SN.Idx → EReal) (mean var gamma beta : SR.Idx → EReal) (idn : SN.Idx → EReal) : SN.Idx → EReal :=
  fun i => max ((h i - mean (ix2 0 (i 1))) * (gamma (ix2 0 (i 1)) * Ideal.rsqrt (var (ix2 0 (i 1)) + eps))
    + beta (ix2 0 (i 1)) + idn i) 0

theorem bnReluRes_apply (h : SN.Idx → EReal) (mean var gamma beta : SR.Idx → EReal) (idn : SN.Idx → EReal)
    (n : Fin 65536) (d : Fin 64) :
    bnReluRes h mean var gamma beta idn (ix2 n d)
      = max ((h (ix2 n d) - mean (ix2 0 d)) * (gamma (ix2 0 d) * Ideal.rsqrt (var (ix2 0 d) + eps)) + beta (ix2 0 d)
          + idn (ix2 n d)) 0 := rfl

end Cert.Spec

end
-- ==== Proof.SpecRef.lean ====
/-
  Batch normalisation as the plain formula states it: per column, the mean is the column sum divided by the number of
  rows, the variance is the mean of the squared deviations from that mean, and every entry is centred, scaled by
  γ · (variance + ε)^(−1/2), shifted by β and clamped at zero (after adding a residual table, in the second form).
  The scale γ and the shift β are vectors of 64 entries here.
-/
import proofs.«131612_j67276367725113_1_alg».proof.Proof.Spec

noncomputable section

open scoped BigOperators

namespace Cert.SpecRef

open Idealize.ShloMosaic Idealize.ShloMosaic.ValueIdx Cert.Spec

/-- a vector of 64 entries -/
abbrev SC : Shape := ⟨1, ![64]⟩

/-- The number of rows, 65536, as the single-precision constant both programs divide by. -/
def nPts : EReal := Ideal.ofBits .f32 0x47800000#32

/-- The mean of column d: the column's sum divided by the number of rows. -/
def meanR (h : SN.Idx → EReal) (d : Fin 64) : EReal :=
  Ideal.div (∑ n : Fin 65536, h (ix2 n d)) nPts

/-- The variance of column d: the mean of the squared deviations from the column's mean. -/
def varR (h : SN.Idx → EReal) (d : Fin 64) : EReal :=
  Ideal.div (∑ n : Fin 65536, (h (ix2 n d) - meanR h d) * (h (ix2 n d) - meanR h d)) nPts

/-- Centre, scale and shift: (h − mean) · (γ · (var + ε)^(−1/2)) + β. -/
def bnR (h : SN.Idx → EReal) (gamma beta : SC.Idx → EReal) : SN.Idx → EReal :=
  fun i => (h i - meanR h (i 1)) * (gamma (ix1 (i 1)) * Ideal.rsqrt (varR h (i 1) + eps)) + beta (ix1 (i 1))

theorem bnR_apply (h : SN.Idx → EReal) (gamma beta : SC.Idx → EReal) (n : Fin 65536) (d : Fin 64) :
    bnR h gamma beta (ix2 n d)
      = (h (ix2 n d) - meanR h d) * (gamma (ix1 d) * Ideal.rsqrt (varR h d + eps)) + beta (ix1 d) := rfl

/-- Normalise and clamp at zero. -/
def bnReluR (h : SN.Idx → EReal) (gamma beta : SC.Idx → EReal) : SN.Idx → EReal :=
  fun i => max (bnR h gamma beta i) 0

/-- Normalise, add the residual table, clamp at zero. -/
def bnReluResR (h : SN.Idx → EReal) (gamma beta : SC.Idx → EReal) (idn : SN.Idx → EReal) : SN.Idx → EReal :=
  fun i => max (bnR h gamma beta i + idn i) 0

end Cert.SpecRef

end
-- ==== Proof.RefRead.lean ====
/-
  The reference program's stages as the plain formulas: each batched product is the sum over the contracted channel,
  and each normalisation stage is the centred, scaled, shifted and clamped table with the mean and the variance taken
  over the 65536 rows.  The gathered tables and the scatter-added tables stay unopened: every statement holds for
  whatever table stands there.
-/
import proofs.«131612_j67276367725113_1_alg».proof.Proof.Gen.ReferenceIdeal.Read
import proofs.«131612_j67276367725113_1_alg».proof.Proof.SpecRef

noncomputable section

open scoped BigOperators

namespace Cert.ReferenceIdeal.RefVal

open Cert.ReferenceIdeal Cert.ReferenceIdeal.Gen Idealize.ShloMosaic Idealize.ShloMosaic.TcCoe Idealize.SL.Sem
  Idealize.ShloMosaic.StableHlo Idealize.ShloMosaic.ValueIdx

/-- The first batched product, entry by entry: the sum over the contracted channel k of the gathered table at
    (b, n, k) times the first weight at (b, k, d). -/
theorem ref_mm1 (x0 : (⟨S65536x64, .f32⟩ : BufTy).Contents (Elt Ideal)) (x1 : (⟨S27x64x64, .f32⟩ : BufTy).Contents (Elt Ideal))
    (x7 : (⟨S27x65536, .i32⟩ : BufTy).Contents (Elt Ideal)) :
    Read.val_main_v7 (F := Ideal) x0 x1 x7 = Cert.Spec.mm (Read.val_main_v6 (F := Ideal) x0 x7) x1 := by
  funext i
  obtain ⟨b, n, d, rfl⟩ : ∃ (b : Fin 27) (n : Fin 65536) (d : Fin 64), i = ix3 b n d := ⟨i 0, i 1, i 2, eq_ix3 i⟩
  rw [Read.val_main_v7_apply, Cert.Spec.mm_apply]
  refine Finset.sum_congr rfl fun k _ => ?_
  have el : Read.lidx_main_v7 (ix3 b n d) k = ix3 b n k :=
    funext fun a => Fin.ext (by match a with | ⟨0, _⟩ => rfl | ⟨1, _⟩ => rfl | ⟨2, _⟩ => rfl)
  have er : Read.ridx_main_v7 (ix3 b n d) k = ix3 b k d :=
    funext fun a => Fin.ext (by match a with | ⟨0, _⟩ => rfl | ⟨1, _⟩ => rfl | ⟨2, _⟩ => rfl)
  rw [el, er]

/-- The second batched product, entry by entry: the sum over the contracted channel k of the second gathered table at
    (b, n, k) times the second weight at (b, k, d). -/
theorem ref_mm2 (x0 : (⟨S65536x64, .f32⟩ : BufTy).Contents (Elt Ideal)) (x1 : (⟨S27x64x64, .f32⟩ : BufTy).Contents (Elt Ideal))
    (x2 x3 : (⟨S64, .f32⟩ : BufTy).Contents (Elt Ideal)) (x4 : (⟨S27x64x64, .f32⟩ : BufTy).Contents (Elt Ideal))
    (x7 x8 : (⟨S27x65536, .i32⟩ : BufTy).Contents (Elt Ideal)) :
    Read.val_main_v44 (F := Ideal) x0 x1 x2 x3 x4 x7 x8
      = Cert.Spec.mm (Read.val_main_v43 (F := Ideal) x0 x1 x2 x3 x7 x8) x4 := by
  funext i
  obtain ⟨b, n, d, rfl⟩ : ∃ (b : Fin 27) (n : Fin 65536) (d : Fin 64), i = ix3 b n d := ⟨i 0, i 1, i 2, eq_ix3 i⟩
  rw [Read.val_main_v44_apply, Cert.Spec.mm_apply]
  refine Finset.sum_congr rfl fun k _ => ?_
  have el : Read.lidx_main_v44 (ix3 b n d) k = ix3 b n k :=
    funext fun a => Fin.ext (by match a with | ⟨0, _⟩ => rfl | ⟨1, _⟩ => rfl | ⟨2, _⟩ => rfl)
  have er : Read.ridx_main_v44 (ix3 b n d) k = ix3 b k d :=
    funext fun a => Fin.ext (by match a with | ⟨0, _⟩ => rfl | ⟨1, _⟩ => rfl | ⟨2, _⟩ => rfl)
  rw [el, er]

section first

variable (x0 : (⟨S65536x64, .f32⟩ : BufTy).Contents (Elt Ideal)) (x1 : (⟨S27x64x64, .f32⟩ : BufTy).Contents (Elt Ideal))
  (x2 x3 : (⟨S64, .f32⟩ : BufTy).Contents (Elt Ideal)) (x7 x8 : (⟨S27x65536, .i32⟩ : BufTy).Contents (Elt Ideal))

/-- The first round's mean row at column d is the column sum of the scatter-added table divided by the number of rows. -/
theorem ref_mean1 (d : Fin 64) :
    Read.val_main_v15 (F := Ideal) x0 x1 x7 x8 (ix1 d) = Cert.SpecRef.meanR (Read.val_main_v12 (F := Ideal) x0 x1 x7 x8) d := by
  rw [Read.val_main_v15_apply, Read.val_main_v13_apply, Read.val_main_v14_apply, Read.val_main_cst_2_apply, Read.val_main_cst_1_apply]
  simp only [Ideal.hostDivf_def, Ideal.ofBits_def, Ideal.ofBits_zero_f32, zero_add]
  unfold Cert.SpecRef.meanR Cert.SpecRef.nPts
  refine congrArg (fun s => Ideal.div s (Ideal.ofBits .f32 0x47800000#32)) (Finset.sum_congr rfl fun k _ => ?_)
  exact congrArg _ (funext fun a => Fin.ext (by match a with | ⟨0, _⟩ => rfl | ⟨1, _⟩ => rfl))

/-- The first round's variance row at column d is the mean of the squared deviations from the column's mean. -/
theorem ref_var1 (d : Fin 64) :
    Read.val_main_v22 (F := Ideal) x0 x1 x7 x8 (ix1 d) = Cert.SpecRef.varR (Read.val_main_v12 (F := Ideal) x0 x1 x7 x8) d := by
  rw [Read.val_main_v22_apply, Read.val_main_v20_apply, Read.val_main_v21_apply, Read.val_main_cst_4_apply, Read.val_main_cst_3_apply]
  simp only [Ideal.hostDivf_def, Ideal.ofBits_def, Ideal.ofBits_zero_f32, zero_add]
  unfold Cert.SpecRef.varR Cert.SpecRef.nPts
  refine congrArg (fun s => Ideal.div s (Ideal.ofBits .f32 0x47800000#32)) (Finset.sum_congr rfl fun k _ => ?_)
  have e20 : Read.idx_main_v20 (ix1 d) k = ix2 k d := funext fun a => Fin.ext (by match a with | ⟨0, _⟩ => rfl | ⟨1, _⟩ => rfl)
  have e17 : Read.idx_main_v17 (ix2 k d) = ix2 (0 : Fin 1) d := funext fun a => Fin.ext (by match a with | ⟨0, _⟩ => rfl | ⟨1, _⟩ => rfl)
  have e16 : Read.idx_main_v16 (ix2 (0 : Fin 1) d) = ix1 d := funext fun a => Fin.ext (by match a with | ⟨0, _⟩ => rfl)
  rw [e20, Read.val_main_v19_apply, Read.val_main_v18_apply, Read.val_main_v17_apply, e17, Read.val_main_v16_apply, e16, ref_mean1]
  simp only [Ideal.mulf_def, Ideal.subf_def]

/-- The first normalisation stage, entry by entry. -/
theorem ref_bn1 :
    Read.val_main_v36 (F := Ideal) x0 x1 x2 x3 x7 x8 = Cert.SpecRef.bnReluR (Read.val_main_v12 (F := Ideal) x0 x1 x7 x8) x2 x3 := by
  funext i
  obtain ⟨n, d, rfl⟩ : ∃ (n : Fin 65536) (d : Fin 64), i = ix2 n d := ⟨i 0, i 1, eq_ix2 i⟩
  have e24 : Read.idx_main_v24 (ix2 n d) = ix2 (0 : Fin 1) d := funext fun a => Fin.ext (by match a with | ⟨0, _⟩ => rfl | ⟨1, _⟩ => rfl)
  have e23 : Read.idx_main_v23 (ix2 (0 : Fin 1) d) = ix1 d := funext fun a => Fin.ext (by match a with | ⟨0, _⟩ => rfl)
  have e31 : Read.idx_main_v31 (ix2 n d) = ix2 (0 : Fin 1) d := funext fun a => Fin.ext (by match a with | ⟨0, _⟩ => rfl | ⟨1, _⟩ => rfl)
  have e30 : Read.idx_main_v30 (ix2 (0 : Fin 1) d) = ix1 d := funext fun a => Fin.ext (by match a with | ⟨0, _⟩ => rfl)
  have e34 : Read.idx_main_v34 (ix2 n d) = ix2 (0 : Fin 1) d := funext fun a => Fin.ext (by match a with | ⟨0, _⟩ => rfl | ⟨1, _⟩ => rfl)
  have e33 : Read.idx_main_v33 (ix2 (0 : Fin 1) d) = ix1 d := funext fun a => Fin.ext (by match a with | ⟨0, _⟩ => rfl)
  rw [Read.val_main_v36_apply, Read.val_main_v35_apply, Read.val_main_v32_apply, Read.val_main_v25_apply,
    Read.val_main_v24_apply, e24, Read.val_main_v23_apply, e23, ref_mean1,
    Read.val_main_v31_apply, e31, Read.val_main_v30_apply, e30, Read.val_main_v29_apply, Read.val_main_v28_apply, Read.val_main_v27_apply, ref_var1,
    Read.val_main_v26_apply, Read.val_main_cst_5_apply,
    Read.val_main_v34_apply, e34, Read.val_main_v33_apply, e33,
    Read.val_main_call0_v0_apply, Read.val_main_call0_cst_apply]
  simp only [Ideal.maximumf_def, Ideal.addf_def, Ideal.mulf_def, Ideal.subf_def, Ideal.hostUnary_rsqrt_def, Ideal.ofBits_def,
    Ideal.ofBits_zero_f32]
  rfl

end first

section second

variable (x0 : (⟨S65536x64, .f32⟩ : BufTy).Contents (Elt Ideal)) (x1 : (⟨S27x64x64, .f32⟩ : BufTy).Contents (Elt Ideal))
  (x2 x3 : (⟨S64, .f32⟩ : BufTy).Contents (Elt Ideal)) (x4 : (⟨S27x64x64, .f32⟩ : BufTy).Contents (Elt Ideal))
  (x5 x6 : (⟨S64, .f32⟩ : BufTy).Contents (Elt Ideal)) (x7 x8 : (⟨S27x65536, .i32⟩ : BufTy).Contents (Elt Ideal))

/-- The second round's mean row at column d is the column sum of the scatter-added table divided by the number of rows. -/
theorem ref_mean2 (d : Fin 64) :
    Read.val_main_v52 (F := Ideal) x0 x1 x2 x3 x4 x7 x8 (ix1 d) = Cert.SpecRef.meanR (Read.val_main_v49 (F := Ideal) x0 x1 x2 x3 x4 x7 x8) d := by
  rw [Read.val_main_v52_apply, Read.val_main_v50_apply, Read.val_main_v51_apply, Read.val_main_cst_10_apply, Read.val_main_cst_9_apply]
  simp only [Ideal.hostDivf_def, Ideal.ofBits_def, Ideal.ofBits_zero_f32, zero_add]
  unfold Cert.SpecRef.meanR Cert.SpecRef.nPts
  refine congrArg (fun s => Ideal.div s (Ideal.ofBits .f32 0x47800000#32)) (Finset.sum_congr rfl fun k _ => ?_)
  exact congrArg _ (funext fun a => Fin.ext (by match a with | ⟨0, _⟩ => rfl | ⟨1, _⟩ => rfl))

/-- The second round's variance row at column d is the mean of the squared deviations from the column's mean. -/
theorem ref_var2 (d : Fin 64) :
    Read.val_main_v59 (F := Ideal) x0 x1 x2 x3 x4 x7 x8 (ix1 d) = Cert.SpecRef.varR (Read.val_main_v49 (F := Ideal) x0 x1 x2 x3 x4 x7 x8) d := by
  rw [Read.val_main_v59_apply, Read.val_main_v57_apply, Read.val_main_v58_apply, Read.val_main_cst_12_apply, Read.val_main_cst_11_apply]
  simp only [Ideal.hostDivf_def, Ideal.ofBits_def, Ideal.ofBits_zero_f32, zero_add]
  unfold Cert.SpecRef.varR Cert.SpecRef.nPts
  refine congrArg (fun s => Ideal.div s (Ideal.ofBits .f32 0x47800000#32)) (Finset.sum_congr rfl fun k _ => ?_)
  have e20 : Read.idx_main_v57 (ix1 d) k = ix2 k d := funext fun a => Fin.ext (by match a with | ⟨0, _⟩ => rfl | ⟨1, _⟩ => rfl)
  have e17 : Read.idx_main_v54 (ix2 k d) = ix2 (0 : Fin 1) d := funext fun a => Fin.ext (by match a with | ⟨0, _⟩ => rfl | ⟨1, _⟩ => rfl)
  have e16 : Read.idx_main_v53 (ix2 (0 : Fin 1) d) = ix1 d := funext fun a => Fin.ext (by match a with | ⟨0, _⟩ => rfl)
  rw [e20, Read.val_main_v56_apply, Read.val_main_v55_apply, Read.val_main_v54_apply, e17, Read.val_main_v53_apply, e16, ref_mean2]
  simp only [Ideal.mulf_def, Ideal.subf_def]

/-- The second normalisation stage, entry by entry. -/
theorem ref_bn2 :
    Read.val_main_v74 (F := Ideal) x0 x1 x2 x3 x4 x5 x6 x7 x8 = Cert.SpecRef.bnReluResR (Read.val_main_v49 (F := Ideal) x0 x1 x2 x3 x4 x7 x8) x5 x6 x0 := by
  funext i
  obtain ⟨n, d, rfl⟩ : ∃ (n : Fin 65536) (d : Fin 64), i = ix2 n d := ⟨i 0, i 1, eq_ix2 i⟩
  have e24 : Read.idx_main_v61 (ix2 n d) = ix2 (0 : Fin 1) d := funext fun a => Fin.ext (by match a with | ⟨0, _⟩ => rfl | ⟨1, _⟩ => rfl)
  have e23 : Read.idx_main_v60 (ix2 (0 : Fin 1) d) = ix1 d := funext fun a => Fin.ext (by match a with | ⟨0, _⟩ => rfl)
  have e31 : Read.idx_main_v68 (ix2 n d) = ix2 (0 : Fin 1) d := funext fun a => Fin.ext (by match a with | ⟨0, _⟩ => rfl | ⟨1, _⟩ => rfl)
  have e30 : Read.idx_main_v67 (ix2 (0 : Fin 1) d) = ix1 d := funext fun a => Fin.ext (by match a with | ⟨0, _⟩ => rfl)
  have e34 : Read.idx_main_v71 (ix2 n d) = ix2 (0 : Fin 1) d := funext fun a => Fin.ext (by match a with | ⟨0, _⟩ => rfl | ⟨1, _⟩ => rfl)
  have e33 : Read.idx_main_v70 (ix2 (0 : Fin 1) d) = ix1 d := funext fun a => Fin.ext (by match a with | ⟨0, _⟩ => rfl)
  rw [Read.val_main_v74_apply, Read.val_main_v73_apply, Read.val_main_v72_apply, Read.val_main_v69_apply, Read.val_main_v62_apply,
    Read.val_main_v61_apply, e24, Read.val_main_v60_apply, e23, ref_mean2,
    Read.val_main_v68_apply, e31, Read.val_main_v67_apply, e30, Read.val_main_v66_apply, Read.val_main_v65_apply, Read.val_main_v64_apply, ref_var2,
    Read.val_main_v63_apply, Read.val_main_cst_13_apply,
    Read.val_main_v71_apply, e34, Read.val_main_v70_apply, e33,
    Read.val_main_call1_v0_apply, Read.val_main_call1_cst_apply]
  simp only [Ideal.maximumf_def, Ideal.addf_def, Ideal.mulf_def, Ideal.subf_def, Ideal.hostUnary_rsqrt_def, Ideal.ofBits_def,
    Ideal.ofBits_zero_f32]
  rfl

end second

end Cert.ReferenceIdeal.RefVal

end
-- ==== Proof.LibRealSums.lean ====
import Mathlib.Data.EReal.Operations
import Mathlib.Algebra.BigOperators.Ring.Finset
import Mathlib.Tactic.Ring

/-!
# Finite sums of extended reals that are all real numbers

Multiplication of extended reals does not distribute over addition when
infinities are present, so the usual algebra of finite sums (pulling a constant
factor out of a sum, reassociating products under a sum) is not available in
general.  When every term is a genuine real number, each identity can be moved
to the field of real numbers through the coercion, proved there by ring
algebra, and moved back.  This file collects the small amount of that
machinery needed to rescale contractions and aggregations by a real constant.
-/

namespace Cert.RealSums

open scoped BigOperators

/-- An extended real that is a real number. -/
def IsReal (x : EReal) : Prop := ∃ r : ℝ, x = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem IsReal.max {x y : EReal} (hx : IsReal x) (hy : IsReal y) : IsReal (max x y) := by
  rcases max_choice x y with h | h
  · rw [h]; exact hx
  · rw [h]; exact hy

/-- The coercion from the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A family of extended reals that are real on a finite set is, on that set,
the coercion of a real-valued family (take the real part of each term). -/
theorem exists_real_fun {ι : Type*} (s : Finset ι) (f : ι → EReal)
    (h : ∀ i ∈ s, IsReal (f i)) : ∃ g : ι → ℝ, ∀ i ∈ s, f i = (g i : EReal) := by
  refine ⟨fun i => (f i).toReal, fun i hi => ?_⟩
  obtain ⟨r, hr⟩ := h i hi
  show f i = (((f i).toReal : ℝ) : EReal)
  rw [hr, EReal.toReal_coe]

/-- A finite sum of real numbers is a real number. -/
theorem IsReal.sum {ι : Type*} (s : Finset ι) (f : ι → EReal)
    (h : ∀ i ∈ s, IsReal (f i)) : IsReal (∑ i ∈ s, f i) := by
  obtain ⟨g, hg⟩ := exists_real_fun s f h
  refine ⟨∑ i ∈ s, g i, ?_⟩
  rw [coe_sum]
  exact Finset.sum_congr rfl hg

/-- Scaling every left factor of a contraction by one real D scales the
contraction: Σ_k (a k · D) · w k = (Σ_k a k · w k) · D. -/
theorem sum_mul_scale {κ : Type*} (s : Finset κ) (a w : κ → EReal) (D : EReal)
    (ha : ∀ k ∈ s, IsReal (a k)) (hw : ∀ k ∈ s, IsReal (w k)) (hD : IsReal D) :
    ∑ k ∈ s, (a k * D) * w k = (∑ k ∈ s, a k * w k) * D := by
  obtain ⟨a', ha'⟩ := exists_real_fun s a ha
  obtain ⟨w', hw'⟩ := exists_real_fun s w hw
  obtain ⟨d, rfl⟩ := hD
  -- both sides are coercions of real sums
  have h1 : ∑ k ∈ s, (a k * (d : EReal)) * w k
      = ((∑ k ∈ s, (a' k * d) * w' k : ℝ) : EReal) := by
    rw [coe_sum]
    refine Finset.sum_congr rfl fun k hk => ?_
    rw [ha' k hk, hw' k hk, EReal.coe_mul, EReal.coe_mul]
  have h2 : ∑ k ∈ s, a k * w k = ((∑ k ∈ s, a' k * w' k : ℝ) : EReal) := by
    rw [coe_sum]
    refine Finset.sum_congr rfl fun k hk => ?_
    rw [ha' k hk, hw' k hk, EReal.coe_mul]
  -- in the reals: pull the constant out of the sum, term by term
  have h3 : (∑ k ∈ s, (a' k * d) * w' k : ℝ) = (∑ k ∈ s, a' k * w' k) * d := by
    rw [Finset.sum_mul]
    refine Finset.sum_congr rfl fun k _ => ?_
    ring
  rw [h1, h2, h3, EReal.coe_mul]

/-- The aggregation law: if every summand P u is Q u scaled by ds u, and dd is
the constant D on the set, then scaling the sum of the P's by D gives the sum of
the Q's scaled by ds·dd.  (The leading 0 + is how the sums arrive: an
accumulation into zero.) -/
theorem agg_scale {U : Type*} (A : Finset U) (P Q ds dd : U → EReal) (D : EReal)
    (hQ : ∀ u ∈ A, IsReal (Q u)) (hds : ∀ u ∈ A, IsReal (ds u)) (hD : IsReal D)
    (hP : ∀ u ∈ A, P u = Q u * ds u) (hdd : ∀ u ∈ A, dd u = D) :
    (0 + ∑ u ∈ A, P u) * D = 0 + ∑ u ∈ A, Q u * (ds u * dd u) := by
  obtain ⟨q, hq⟩ := exists_real_fun A Q hQ
  obtain ⟨e, he⟩ := exists_real_fun A ds hds
  obtain ⟨d, rfl⟩ := hD
  have h1 : ∑ u ∈ A, P u = ((∑ u ∈ A, q u * e u : ℝ) : EReal) := by
    rw [coe_sum]
    refine Finset.sum_congr rfl fun u hu => ?_
    rw [hP u hu, hq u hu, he u hu, EReal.coe_mul]
  have h2 : ∑ u ∈ A, Q u * (ds u * dd u)
      = ((∑ u ∈ A, q u * (e u * d) : ℝ) : EReal) := by
    rw [coe_sum]
    refine Finset.sum_congr rfl fun u hu => ?_
    rw [hq u hu, he u hu, hdd u hu, EReal.coe_mul, EReal.coe_mul]
  -- in the reals: (Σ q·e)·d = Σ q·(e·d)
  have h3 : (∑ u ∈ A, q u * e u : ℝ) * d = ∑ u ∈ A, q u * (e u * d) := by
    rw [Finset.sum_mul]
    refine Finset.sum_congr rfl fun u _ => ?_
    ring
  rw [zero_add, zero_add, h1, h2, ← EReal.coe_mul, h3]

/-- and the same sum is a real number -/
theorem agg_isReal {U : Type*} (A : Finset U) (Q ds dd : U → EReal) (D : EReal)
    (hQ : ∀ u ∈ A, IsReal (Q u)) (hds : ∀ u ∈ A, IsReal (ds u)) (hD : IsReal D)
    (hdd : ∀ u ∈ A, dd u = D) :
    IsReal (0 + ∑ u ∈ A, Q u * (ds u * dd u)) := by
  rw [zero_add]
  refine IsReal.sum A _ fun u hu => ?_
  rw [hdd u hu]
  exact (hQ u hu).mul ((hds u hu).mul hD)

end Cert.RealSums
-- ==== Proof.Algebra.lean ====
/-
  The algebra that joins the two programs' batch normalisations.

  One program computes a column's variance as the mean of the squares minus the square of the mean, the other as the
  mean of the squared deviations from the mean.  Over the real numbers these agree:
      (Σ a²)/N − ((Σ a)/N)² = (Σ (a − (Σ a)/N)²)/N.
  Over the extended reals the identity needs every entry of the column to be a real number (with an infinite entry
  both sides are differences of infinities), so it is proved on the reals and carried across the coercion.  The same
  passage shows that the variance is a non-negative real, hence that (variance + ε)^(−1/2) is a real number, and that the
  normalised table is again real-valued — which the second layer needs in its turn.
-/
import proofs.«131612_j67276367725113_1_alg».proof.Proof.SpecRef
import proofs.«131612_j67276367725113_1_alg».proof.Proof.LibRealSums
import Mathlib.Tactic.LinearCombination
import Mathlib.Tactic.Positivity
import Mathlib.Analysis.SpecialFunctions.Pow.Real

noncomputable section

open scoped BigOperators

namespace Cert.Algebra

open Idealize.ShloMosaic Idealize.ShloMosaic.ValueIdx Cert.Spec Cert.SpecRef Cert.RealSums

/-- The divisor both programs spell, 65536.0, is the real number 65536. -/
theorem nPts_eq : nPts = ((65536 : ℝ) : EReal) := by
  unfold nPts
  simp [Ideal.ofBits, Ideal.ieee, -EReal.coe_mul]; norm_num

/-- The stabiliser is a positive real number. -/
theorem eps_pos : ∃ e : ℝ, 0 < e ∧ eps = (e : EReal) := by
  unfold eps
  simp [Ideal.ofBits, Ideal.ieee, -EReal.coe_mul]

/-- Dividing by the number of rows is multiplying by its reciprocal, on every extended real. -/
theorem div_nPts (x : EReal) : Ideal.div x nPts = x * ((1 / 65536 : ℝ) : EReal) := by
  rw [nPts_eq]; exact Ideal.div_coe (by norm_num) x

/-- The difference of two real numbers is a real number. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- Over the reals, with c the reciprocal of the number of terms: the mean of the squares minus the square of the
    mean is the mean of the squared deviations from the mean. -/
theorem var_identity {ι : Type} [Fintype ι] (a : ι → ℝ) (c : ℝ) (hc : (Fintype.card ι : ℝ) * c = 1) :
    (∑ i, a i * a i) * c - ((∑ i, a i) * c) * ((∑ i, a i) * c)
      = (∑ i, (a i - (∑ j, a j) * c) * (a i - (∑ j, a j) * c)) * c := by
  set s : ℝ := ∑ j, a j with hs
  have h : ∀ i, (a i - s * c) * (a i - s * c) = a i * a i - 2 * (s * c) * a i + (s * c) * (s * c) := fun i => by ring
  rw [Finset.sum_congr rfl (fun i _ => h i), Finset.sum_add_distrib, Finset.sum_sub_distrib, ← Finset.mul_sum,
    Finset.sum_const, Finset.card_univ, nsmul_eq_mul, ← hs]
  linear_combination (-(s * c * (s * c))) * hc

/-- The mean of squared deviations is not negative. -/
theorem var_nonneg {ι : Type} [Fintype ι] (a : ι → ℝ) (μ c : ℝ) (hc : 0 ≤ c) :
    0 ≤ (∑ i, (a i - μ) * (a i - μ)) * c :=
  mul_nonneg (Finset.sum_nonneg fun i _ => mul_self_nonneg _) hc

/-- The same on the extended reals, for a family of real numbers: the identity, the mean as a real, and the mean of
    squared deviations as a non-negative real. -/
theorem var_bridge_gen {ι : Type} [Fintype ι] (a : ι → EReal) (ha : ∀ i, IsReal (a i)) (c : ℝ) (hc0 : 0 ≤ c)
    (hc : (Fintype.card ι : ℝ) * c = 1) :
    ((∑ i, a i * a i) * (c : EReal) - ((∑ i, a i) * (c : EReal)) * ((∑ i, a i) * (c : EReal))
        = (∑ i, (a i - (∑ j, a j) * (c : EReal)) * (a i - (∑ j, a j) * (c : EReal))) * (c : EReal))
      ∧ IsReal ((∑ i, a i) * (c : EReal))
      ∧ ∃ v : ℝ, 0 ≤ v ∧ (∑ i, (a i - (∑ j, a j) * (c : EReal)) * (a i - (∑ j, a j) * (c : EReal))) * (c : EReal) = (v : EReal) := by
  obtain ⟨g, hg⟩ := exists_real_fun Finset.univ a (fun i _ => ha i)
  obtain rfl : a = fun i => (g i : EReal) := funext fun i => hg i (Finset.mem_univ i)
  have hs : (∑ i, (g i : EReal)) = ((∑ i, g i : ℝ) : EReal) := (coe_sum _ _).symm
  have hsq : (∑ i, (g i : EReal) * (g i : EReal)) = ((∑ i, g i * g i : ℝ) : EReal) := by
    rw [coe_sum]; exact Finset.sum_congr rfl fun i _ => (EReal.coe_mul _ _).symm
  have hdev : (∑ i, ((g i : EReal) - (∑ j, (g j : EReal)) * (c : EReal)) * ((g i : EReal) - (∑ j, (g j : EReal)) * (c : EReal)))
      = ((∑ i, (g i - (∑ j, g j) * c) * (g i - (∑ j, g j) * c) : ℝ) : EReal) := by
    rw [coe_sum, hs]
    exact Finset.sum_congr rfl fun i _ => by rw [← EReal.coe_mul, ← EReal.coe_sub, ← EReal.coe_mul]
  refine ⟨?_, ⟨_, by rw [hs, ← EReal.coe_mul]⟩, _, var_nonneg g _ c hc0, by rw [hdev, ← EReal.coe_mul]⟩
  rw [hdev, hsq, hs, ← EReal.coe_mul, ← EReal.coe_mul, ← EReal.coe_mul, ← EReal.coe_sub, ← EReal.coe_mul, var_identity g c hc]

/-- The reciprocal of the number of rows times the number of rows is one. -/
theorem card_rows : (Fintype.card (Fin 65536) : ℝ) * (1 / 65536) = 1 := by
  rw [Fintype.card_fin]; norm_num

section Column

variable (h : SN.Idx → EReal) (d : Fin 64) (hh : ∀ n : Fin 65536, IsReal (h (ix2 n d)))
include hh

/-- The column's mean is a real number. -/
theorem meanR_real : IsReal (meanR h d) := by
  unfold meanR
  rw [div_nPts]
  exact (var_bridge_gen (fun n : Fin 65536 => h (ix2 n d)) hh (1 / 65536) (by norm_num) card_rows).2.1

/-- THE BRIDGE for one column: the mean of the squares minus the square of the mean is the mean of the squared
    deviations, and it is a non-negative real number. -/
theorem var_bridge : Ideal.div (colSumSq h (ix2 0 d)) nPts - meanR h d * meanR h d = varR h d
    ∧ ∃ v : ℝ, 0 ≤ v ∧ varR h d = (v : EReal) := by
  have key := var_bridge_gen (fun n : Fin 65536 => h (ix2 n d)) hh (1 / 65536) (by norm_num) card_rows
  unfold varR meanR
  rw [colSumSq_apply, div_nPts, div_nPts, div_nPts]
  exact ⟨key.1, key.2.2⟩

/-- (variance + ε)^(−1/2) is a real number: the variance is a non-negative real and ε a positive one. -/
theorem rsqrt_real : IsReal (Ideal.rsqrt (varR h d + eps)) := by
  obtain ⟨v, hv, hve⟩ := (var_bridge h d hh).2
  obtain ⟨e, he, hee⟩ := eps_pos
  rw [hve, hee, ← EReal.coe_add, Ideal.rsqrt_coe]
  have hpos : 0 < v + e := by linarith
  rw [if_neg (not_lt.mpr hpos.le), if_neg hpos.ne']
  exact ⟨_, rfl⟩

end Column

section Table

variable (h : SN.Idx → EReal) (gamma beta : SC.Idx → EReal)
  (hh : ∀ i, IsReal (h i)) (hgam : ∀ i, IsReal (gamma i)) (hbet : ∀ i, IsReal (beta i))
include hh hgam hbet

/-- The normalised table is real-valued. -/
theorem bnR_real (i : SN.Idx) : IsReal (bnR h gamma beta i) := by
  obtain ⟨n, d, rfl⟩ : ∃ (n : Fin 65536) (d : Fin 64), i = ix2 n d := ⟨i 0, i 1, eq_ix2 i⟩
  rw [bnR_apply]
  exact IsReal.add (IsReal.mul (IsReal.sub (hh _) (meanR_real h d (fun n => hh _)))
    (IsReal.mul (hgam _) (rsqrt_real h d (fun n => hh _)))) (hbet _)

theorem bnReluR_real (i : SN.Idx) : IsReal (bnReluR h gamma beta i) :=
  IsReal.max (bnR_real h gamma beta hh hgam hbet i) IsReal.zero

theorem bnReluResR_real (idn : SN.Idx → EReal) (hid : ∀ i, IsReal (idn i)) (i : SN.Idx) :
    IsReal (bnReluResR h gamma beta idn i) :=
  IsReal.max (IsReal.add (bnR_real h gamma beta hh hgam hbet i) (hid i)) IsReal.zero

end Table

section Join

variable (h : SN.Idx → EReal) (gamma beta : SC.Idx → EReal) (mean var grow brow : SR.Idx → EReal)
  (hh : ∀ i, IsReal (h i))
  (hm : ∀ d : Fin 64, mean (ix2 0 d) = Ideal.div (colSum h (ix2 0 d)) nPts)
  (hv : ∀ d : Fin 64, var (ix2 0 d) = Ideal.div (colSumSq h (ix2 0 d)) nPts - mean (ix2 0 d) * mean (ix2 0 d))
  (hg : ∀ d : Fin 64, grow (ix2 0 d) = gamma (ix1 d)) (hb : ∀ d : Fin 64, brow (ix2 0 d) = beta (ix1 d))
include hh hm hv hg hb

/-- One entry: the row-form normalisation over the sums-of-squares variance is the plain formula. -/
theorem bn_entry (n : Fin 65536) (d : Fin 64) :
    (h (ix2 n d) - mean (ix2 0 d)) * (grow (ix2 0 d) * Ideal.rsqrt (var (ix2 0 d) + eps)) + brow (ix2 0 d)
      = bnR h gamma beta (ix2 n d) := by
  have hmd : mean (ix2 0 d) = meanR h d := (hm d).trans rfl
  rw [bnR_apply, hv d, hmd, (var_bridge h d (fun n => hh _)).1, hg d, hb d]

/-- THE JOIN, first layer: normalise-and-clamp with the mean, the variance (mean of squares minus squared mean), the
    scale and the shift handed over as rows is the plain batch normalisation followed by the clamp. -/
theorem bnRelu_join : bnRelu h mean var grow brow = bnReluR h gamma beta := by
  funext i
  obtain ⟨n, d, rfl⟩ : ∃ (n : Fin 65536) (d : Fin 64), i = ix2 n d := ⟨i 0, i 1, eq_ix2 i⟩
  rw [bnRelu_apply, bn_entry h gamma beta mean var grow brow hh hm hv hg hb n d]
  rfl

/-- THE JOIN, second layer: the same with the residual table added before the clamp. -/
theorem bnReluRes_join (idn : SN.Idx → EReal) : bnReluRes h mean var grow brow idn = bnReluResR h gamma beta idn := by
  funext i
  obtain ⟨n, d, rfl⟩ : ∃ (n : Fin 65536) (d : Fin 64), i = ix2 n d := ⟨i 0, i 1, eq_ix2 i⟩
  rw [bnReluRes_apply, bn_entry h gamma beta mean var grow brow hh hm hv hg hb n d]
  rfl

end Join

/-- The batched product of real-valued operands is real-valued. -/
theorem mm_real (g : SG.Idx → EReal) (w : SW.Idx → EReal) (hg : ∀ i, IsReal (g i)) (hw : ∀ i, IsReal (w i))
    (i : SG.Idx) : IsReal (mm g w i) :=
  IsReal.sum _ _ fun k _ => IsReal.mul (hg _) (hw _)

end Cert.Algebra

end
-- ==== Proof.Shared.lean ====
/-
  What the two programs share, and the reference as a composition of it.

  Both programs gather rows with the same host operation (`gth`) and add rows into a zero table with the same host
  operation (`sca`); between the two sits the batched product `mm`.  A sparse convolution is `conv` = scatter-add ∘
  product ∘ gather.  The gather only copies entries of its table and the scatter-add only adds entries of its
  updates to zeros, so both keep a real-valued table real-valued — that is all that is ever used of them.
  The reference program is, in these words: convolve, batch-normalise and clamp, convolve again, batch-normalise,
  add x, clamp.
-/
import proofs.«131612_j67276367725113_1_alg».proof.Proof.RefRead
import proofs.«131612_j67276367725113_1_alg».proof.Proof.Algebra

set_option maxRecDepth 16384

noncomputable section

namespace Cert.Chain

open Idealize.ShloMosaic Idealize.ShloMosaic.ValueIdx
open Cert.Spec Cert.SpecRef Cert.RealSums Cert.ReferenceIdeal Cert.ReferenceIdeal.Gen Cert.ReferenceIdeal.Read

/-- Gather rows of a 65536×64 table at the 27×65536 row numbers (negative numbers wrapped once, then clamped):
    the host operation both programs apply, kept whole. -/
def gth (f : (⟨S65536x64, .f32⟩ : BufTy).Contents (Elt Ideal)) (i7 : (⟨S27x65536, .i32⟩ : BufTy).Contents (Elt Ideal)) :
    (⟨S27x65536x64, .f32⟩ : BufTy).Contents (Elt Ideal) :=
  Host.gather gather_S65536x64_S27x65536x1_S27x65536x64_2_0_n_n_0_2_164 f (val_main_v5 (F := Ideal) i7)

/-- Add the 27·65536 rows of a stacked table into the rows of a zero 65536×64 table that the row numbers name:
    the host operation both programs apply, kept whole. -/
def sca (y : (⟨S27x65536x64, .f32⟩ : BufTy).Contents (Elt Ideal)) (i8 : (⟨S27x65536, .i32⟩ : BufTy).Contents (Elt Ideal)) :
    (⟨S65536x64, .f32⟩ : BufTy).Contents (Elt Ideal) :=
  Host.scatterAdd (F := Ideal) (φ := .f32) scatter_S65536x64_S1769472x1_S1769472x64_1_0_0_1 (val_main_v10 (F := Ideal)) (val_main_v11 (F := Ideal) i8)
    (shapeCast _ y shapeCasts_S27x65536x64_S1769472x64)

/-- One sparse convolution: gather, multiply by the weights offset by offset, scatter-add. -/
def conv (f : (⟨S65536x64, .f32⟩ : BufTy).Contents (Elt Ideal)) (w : (⟨S27x64x64, .f32⟩ : BufTy).Contents (Elt Ideal))
    (i7 i8 : (⟨S27x65536, .i32⟩ : BufTy).Contents (Elt Ideal)) : (⟨S65536x64, .f32⟩ : BufTy).Contents (Elt Ideal) :=
  sca (mm (gth f i7) w) i8

/-- A gathered entry is an entry of the table. -/
theorem gth_real (f : (⟨S65536x64, .f32⟩ : BufTy).Contents (Elt Ideal)) (i7 : (⟨S27x65536, .i32⟩ : BufTy).Contents (Elt Ideal))
    (hf : ∀ i, IsReal (f i)) (i : S27x65536x64.Idx) : IsReal (gth f i7 i) := hf _

/-- The zero table is zero everywhere. -/
theorem zeros_apply (i : S65536x64.Idx) : val_main_v10 (F := Ideal) i = 0 := by
  show Ideal.ofBits .f32 0x00000000#32 = 0
  exact Ideal.ofBits_zero_f32

/-- The host's accumulating scatter of real-valued updates into a real-valued table is real-valued: each entry is the
    table's entry plus a finite sum of update entries. -/
theorem scatterAdd_real {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  unfold Host.scatterAdd
  rw [Ideal.hostScatterAdd_def]
  unfold Ideal.hostScatterAdd
  exact IsReal.add (hx i) (IsReal.sum _ _ fun j _ => hu j)

/-- An entry of the scatter-add is zero plus a finite sum of entries of the updates. -/
theorem sca_real (y : (⟨S27x65536x64, .f32⟩ : BufTy).Contents (Elt Ideal)) (i8 : (⟨S27x65536, .i32⟩ : BufTy).Contents (Elt Ideal))
    (hy : ∀ i, IsReal (y i)) (i : S65536x64.Idx) : IsReal (sca y i8 i) :=
  scatterAdd_real _ _ _ _ (fun i => by rw [zeros_apply]; exact IsReal.zero) (fun j => hy _) i

/-- A convolution of real-valued operands is real-valued. -/
theorem conv_real (f : (⟨S65536x64, .f32⟩ : BufTy).Contents (Elt Ideal)) (w : (⟨S27x64x64, .f32⟩ : BufTy).Contents (Elt Ideal))
    (i7 i8 : (⟨S27x65536, .i32⟩ : BufTy).Contents (Elt Ideal)) (hf : ∀ i, IsReal (f i)) (hw : ∀ i, IsReal (w i))
    (i : S65536x64.Idx) : IsReal (conv f w i7 i8 i) :=
  sca_real _ _ (Cert.Algebra.mm_real _ _ (gth_real f i7 hf) hw) i

/-- The reference's result in these words. -/
def refVal (x0 : (⟨S65536x64, .f32⟩ : BufTy).Contents (Elt Ideal)) (x1 : (⟨S27x64x64, .f32⟩ : BufTy).Contents (Elt Ideal))
    (x2 x3 : (⟨S64, .f32⟩ : BufTy).Contents (Elt Ideal)) (x4 : (⟨S27x64x64, .f32⟩ : BufTy).Contents (Elt Ideal))
    (x5 x6 : (⟨S64, .f32⟩ : BufTy).Contents (Elt Ideal)) (x7 x8 : (⟨S27x65536, .i32⟩ : BufTy).Contents (Elt Ideal)) :
    (⟨S65536x64, .f32⟩ : BufTy).Contents (Elt Ideal) :=
  bnReluResR (conv (bnReluR (conv x0 x1 x7 x8) x2 x3) x4 x7 x8) x5 x6 x0

/-- THE REFERENCE IS `refVal`: its two products are `mm`, its two normalisations the plain formula, and around them
    sit the shared gather and scatter-add. -/
theorem ref_is_refVal (x0 : (⟨S65536x64, .f32⟩ : BufTy).Contents (Elt Ideal)) (x1 : (⟨S27x64x64, .f32⟩ : BufTy).Contents (Elt Ideal))
    (x2 x3 : (⟨S64, .f32⟩ : BufTy).Contents (Elt Ideal)) (x4 : (⟨S27x64x64, .f32⟩ : BufTy).Contents (Elt Ideal))
    (x5 x6 : (⟨S64, .f32⟩ : BufTy).Contents (Elt Ideal)) (x7 x8 : (⟨S27x65536, .i32⟩ : BufTy).Contents (Elt Ideal)) :
    val_main_v74 (F := Ideal) x0 x1 x2 x3 x4 x5 x6 x7 x8 = refVal x0 x1 x2 x3 x4 x5 x6 x7 x8 := by
  have e1 : val_main_v12 (F := Ideal) x0 x1 x7 x8 = conv x0 x1 x7 x8 := by
    unfold val_main_v12 val_main_v8 conv sca gth
    rw [Cert.ReferenceIdeal.RefVal.ref_mm1]
    unfold val_main_v6
    rfl
  have e2 : val_main_v49 (F := Ideal) x0 x1 x2 x3 x4 x7 x8 = conv (val_main_v36 (F := Ideal) x0 x1 x2 x3 x7 x8) x4 x7 x8 := by
    unfold val_main_v49 val_main_v45 conv sca gth
    rw [Cert.ReferenceIdeal.RefVal.ref_mm2]
    unfold val_main_v43
    rfl
  unfold refVal
  rw [Cert.ReferenceIdeal.RefVal.ref_bn2, e2, Cert.ReferenceIdeal.RefVal.ref_bn1, e1]

end Cert.Chain

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibUnitAxisIx.lean ====
/-
  A block with a leading unit axis and the matrix it holds: the shape cast that drops the leading unit axis of a
  `[1, a, b]` block reads the entry `(p, q)` of the matrix at the entry `(0, p, q)` of the block (`dropUnit_ix`), and the
  shape cast that adds a leading unit axis to an `[a, b]` matrix reads the entry `(0, p, q)` of the block at the entry
  `(p, q)` of the matrix (`addUnit_ix`). Both are stated at `ix2` / `ix3` coordinates, the unit coordinate being any
  `z : Fin 1`.
-/
import Idealize.ShloMosaic.Lib.Pipeline.Value
import Idealize.ShloMosaic.Lib.ValueIdx

namespace UnitAxisIx

open Idealize.ShloMosaic Idealize.ShloMosaic.ValueIdx

variable {α : Type} {n0 n1 : ℕ}

/-- Dropping the leading unit axis of a block: the entry (p, q) of the matrix is the entry (z, p, q) of the block. -/
theorem dropUnit_ix (v : (⟨3, ![1, n0, n1]⟩ : Shape).Idx → α)
    (h : (⟨3, ![1, n0, n1]⟩ : Shape).ShapeCasts ⟨2, ![n0, n1]⟩) (z : Fin 1) (p : Fin n0) (q : Fin n1) :
    shapeCast ⟨2, ![n0, n1]⟩ v h (ix2 p q) = v (ix3 z p q) := by
  refine (shapeCast_dropUnit_apply ![n0, n1] v h (ix2 p q)).trans (congrArg v ?_)
  funext a
  match a with
  | ⟨0, _⟩ => exact Fin.ext (by show (0 : ℕ) = z.val; have := z.isLt; omega)
  | ⟨1, _⟩ => rfl
  | ⟨2, _⟩ => rfl

/-- Adding a leading unit axis to a matrix: the entry (z, p, q) of the block is the entry (p, q) of the matrix. -/
theorem addUnit_ix (v : (⟨2, ![n0, n1]⟩ : Shape).Idx → α)
    (h : (⟨2, ![n0, n1]⟩ : Shape).ShapeCasts ⟨3, ![1, n0, n1]⟩) (z : Fin 1) (p : Fin n0) (q : Fin n1) :
    shapeCast ⟨3, ![1, n0, n1]⟩ v h (ix3 z p q) = v (ix2 p q) := by
  refine (shapeCast_addUnit_apply ![n0, n1] v h (ix3 z p q)).trans (congrArg v ?_)
  funext a
  match a with
  | ⟨0, _⟩ => rfl
  | ⟨1, _⟩ => rfl

end UnitAxisIx
-- ==== Proof.Matmul0.lean ====
/-
  Region 0 (a batched matrix product): the output array after all grid points, as one function of the region's two
  input arrays.

  The grid has 27 × 4 points; the point with coordinates (b, n) multiplies rows 16384·n … 16384·n + 16383 of the b-th
  65536×64 table by the b-th 64×64 weight and stores the 16384×64 product as the same rows of the b-th output table.
  So the entry (b, r, d) of the output is written once, by the point (b, r / 16384), and holds
  ∑ k, g(b, r, k) · w(b, k, d): the function `Cert.Spec.mm` of the two input arrays.

  The steps: the body's payload at an entry (`pay_ix`: the two casts between a [1, a, b] block and its matrix, and the
  product into the zero splat as a sum over the contracted coordinate); the relations between the three windows' block
  indices, decided over the grid (`idx_facts`, `idx_onto`); each input block read entry by entry off its array
  (`iblk_lhs_apply`, `iblk_rhs_apply`); what a point writes back is its block of the product (`point_eq`,
  `flushed_eq`); every entry of the output lies in some point's block (`mem_blk`, `cover`); the array (`final0`).
-/
import proofs.«131612_j67276367725113_1_alg».proof.Proof.PatchKernelIdealFrame
import proofs.«131612_j67276367725113_1_alg».proof.Proof.Spec
import proofs.«131612_j67276367725113_1_alg».proof.Proof.LibMatmulIx
import proofs.«131612_j67276367725113_1_alg».proof.Proof.LibUnitAxisIx
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Matmul0

open Cert.KernelIdeal Cert.KernelIdeal.Gen Idealize.ShloMosaic Idealize.ShloMosaic.TcCoe Idealize.SL.Sem Idealize.ShloMosaic.ValueIdx
open Idealize.ShloMosaic.Pipeline (Dat Cfg Window)

/-- The body's payload at an entry: the row of the left block times the column of the right block. -/
theorem pay_ix (x0 : Vec Ideal S1x16384x64 .bf16) (x1 : Vec Ideal S1x64x64 .bf16) (z : Fin 1) (r : Fin 16384) (d : Fin 64) :
    k0_pay1 (F := Ideal) x0 x1 (ix3 z r d) = ∑ k : Fin 64, x0 (ix3 z r k) * x1 (ix3 z k d) := by
  unfold k0_pay1
  refine (UnitAxisIx.addUnit_ix _ _ z r d).trans ?_
  refine (MatmulIx.matmul_zero_ix2 dot_S16384x64_S64x64_S16384x64_1_0_0_1_n_n rfl rfl (fun _ _ => rfl) (fun _ _ => rfl)
    (fun _ _ => rfl) (fun _ _ => rfl) none _ _ r d).trans ?_
  refine Finset.sum_congr rfl fun k _ => ?_
  exact congrArg₂ (· * ·) (UnitAxisIx.dropUnit_ix x0 _ z r k) (UnitAxisIx.dropUnit_ix x1 _ z k d)

theorem hz3 : (![0, 0, 0] : Fin 3 → Nat) = fun _ => 0 := funext fun a => by fin_cases a <;> rfl

/-- The printed index maps over the grid: the left operand's block moves with the output's, the right operand's block
    follows the output's first coordinate only, and the output's block indices stay in range. -/
theorem idx_facts : ∀ t : Fin cfg0.N,
      win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 26
    ∧ win0_2.index t (1 : Fin 3) ≤ 3
    ∧ win0_2.index t (2 : Fin 3) = 0 :=
  (by decide +kernel : ∀ t : Fin grid0.N, _)

/-- Every block of the output is some point's. -/
theorem idx_onto : ∀ (q0 : Fin 27) (q1 : Fin 4), ∃ t : Fin cfg0.N, win0_2.index t = ![q0.val, q1.val, 0] :=
  (by decide +kernel : ∀ (q0 : Fin 27) (q1 : Fin 4), ∃ t : Fin grid0.N, win0_2.index t = ![q0.val, q1.val, 0])

variable (V : (c : Dev nD) → (b : Ref sig .tc) → Buf (Elt Ideal) ((c : Thread nD τ).loc b))

/-- The left operand's block at a point, entry by entry: rows of the gathered table at the output block's offset and row range. -/
theorem iblk_lhs_apply (c : Dev nD) (t : Fin cfg0.N) (x : S1x16384x64.Idx) (k : S27x65536x64.Idx)
    (hk0 : (k 0).val = win0_2.index t (0 : Fin 3)) (hk1 : (k 1).val = win0_2.index t (1 : Fin 3) * 16384 + (x 1).val)
    (hk2 : (k 2).val = (x 2).val) :
    (iblk0 (F := Ideal) V c 0 t : Vec Ideal S1x16384x64 .bf16) x = (V c main_v11 : S27x65536x64.Idx → EReal) k := by
  obtain ⟨e0, e1, e2, e3, e4, e5, e6, e7, e8⟩ := idx_facts t
  unfold iblk0
  rw [View.read_apply]
  show V c main_v11 _ = V c main_v11 _
  congr 1
  funext a
  apply Fin.ext
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 16384 + 1 * (x 1).val = (k 1).val; omega
  | ⟨2, _⟩ => show win0_0.index t (2 : Fin 3) * 64 + 1 * (x 2).val = (k 2).val; omega

/-- The right operand's block at a point, entry by entry: the weight of the output block's offset. -/
theorem iblk_rhs_apply (c : Dev nD) (t : Fin cfg0.N) (x : S1x64x64.Idx) (k : S27x64x64.Idx)
    (hk0 : (k 0).val = win0_2.index t (0 : Fin 3)) (hk1 : (k 1).val = (x 1).val) (hk2 : (k 2).val = (x 2).val) :
    (iblk0 (F := Ideal) V c 1 t : Vec Ideal S1x64x64 .bf16) x = (V c main_v12 : S27x64x64.Idx → EReal) k := by
  obtain ⟨e0, e1, e2, e3, e4, e5, e6, e7, e8⟩ := idx_facts t
  unfold iblk0
  rw [View.read_apply]
  show V c main_v12 _ = V c main_v12 _
  congr 1
  funext a
  apply Fin.ext
  have hx0 : (x 0).val < 1 := (x 0).isLt
  match a with
  | ⟨0, _⟩ => show win0_1.index t (0 : Fin 3) * 1 + 1 * (x 0).val = (k 0).val; omega
  | ⟨1, _⟩ => show win0_1.index t (1 : Fin 3) * 64 + 1 * (x 1).val = (k 1).val; omega
  | ⟨2, _⟩ => show win0_1.index t (2 : Fin 3) * 64 + 1 * (x 2).val = (k 2).val; omega

/-- One entry of what a point's body stores: the entry of the product at the array index the output block puts it at. -/
theorem point_eq (c : Dev nD) (t : Fin cfg0.N) (j : S1x16384x64.Idx) (i : S27x65536x64.Idx)
    (hi0 : (i 0).val = win0_2.index t (0 : Fin 3)) (hi1 : (i 1).val = win0_2.index t (1 : Fin 3) * 16384 + (j 1).val)
    (hi2 : (i 2).val = (j 2).val) :
    k0_pay1 (F := Ideal) (iblk0 V c 0 t) (iblk0 V c 1 t) j = Cert.Spec.mm (V c main_v11) (V c main_v12) i := by
  obtain ⟨z, r, d, rfl⟩ : ∃ (z : Fin 1) (r : Fin 16384) (d : Fin 64), j = ix3 z r d := ⟨j 0, j 1, j 2, eq_ix3 j⟩
  obtain ⟨b, n, d', rfl⟩ : ∃ (b : Fin 27) (n : Fin 65536) (d' : Fin 64), i = ix3 b n d' := ⟨i 0, i 1, i 2, eq_ix3 i⟩
  refine (pay_ix (iblk0 V c 0 t) (iblk0 V c 1 t) z r d).trans ?_
  rw [Cert.Spec.mm_apply]
  refine Finset.sum_congr rfl fun k _ => ?_
  exact congrArg₂ (· * ·) (iblk_lhs_apply V c t (ix3 z r k) (ix3 b n k) hi0 hi1 rfl)
    (iblk_rhs_apply V c t (ix3 z k d) (ix3 b k d') hi0 rfl hi2)

/-- What a point writes back is its block of the product. -/
theorem flushed_eq (c : Dev nD) (t : Fin cfg0.N) :
    (dat0 (F := Ideal) V c).flushed 2 t
      = ((cfg0.win 2).blk t).view.read (Elt Ideal) (Cert.Spec.mm (V c main_v11) (V c main_v12)) := by
  show (cfg0.win 2).cut (grid0.coords t) ((dat0 (F := Ideal) V c).after 2 t) = _
  rw [after0_2]
  unfold out0_2
  rw [View.canon_unit_zero hz3]
  simp only [View.ld_unit_zero (S := S1x16384x64) hz3, View.ld_unit_zero (S := S1x64x64) hz3]
  funext j
  show k0_pay1 (F := Ideal) (iblk0 V c 0 t) (iblk0 V c 1 t) j
    = Cert.Spec.mm (V c main_v11) (V c main_v12) (((cfg0.win 2).blk t).view.emb j)
  refine point_eq V c t j _ ?_ ?_ ?_
  · show win0_2.index t (0 : Fin 3) * 1 + 1 * (j 0).val = win0_2.index t (0 : Fin 3)
    have hj : (j 0).val < 1 := (j 0).isLt
    omega
  · show win0_2.index t (1 : Fin 3) * 16384 + 1 * (j 1).val = win0_2.index t (1 : Fin 3) * 16384 + (j 1).val
    omega
  · show win0_2.index t (2 : Fin 3) * 64 + 1 * (j 2).val = (j 2).val
    obtain ⟨e0, e1, e2, e3, e4, e5, e6, e7, e8⟩ := idx_facts t
    omega

/-- An index of the array is in a point's block iff each coordinate is in the block's range on its axis. -/
theorem mem_blk (t : Fin cfg0.N) (i : S27x65536x64.Idx) :
    i ∈ ((cfg0.win 2).blk t).view.set ↔ ∀ a : Fin 3, win0_2.index t a * S1x16384x64.size a ≤ (i a).val
      ∧ (i a).val < win0_2.index t a * S1x16384x64.size a + S1x16384x64.size a := by
  show i ∈ ((View.whole main_v13).slice (win0_2.rect t)).set ↔ _
  rw [View.set_slice_whole, Rect.mem_set_unit]
  exact Iff.rfl

/-- Every entry (b, n, d) of the output is in the block of the point with coordinates (b, n / 16384). -/
theorem cover (i : S27x65536x64.Idx) :
    ∃ t : Fin cfg0.N, (cfg0.win 2).flush t = true ∧ i ∈ ((cfg0.win 2).blk t).view.set := by
  have hi0 : (i 0).val < 27 := (i 0).isLt
  have hi1 : (i 1).val < 65536 := (i 1).isLt
  have hi2 : (i 2).val < 64 := (i 2).isLt
  obtain ⟨t, ht⟩ := idx_onto ⟨(i 0).val, hi0⟩ ⟨(i 1).val / 16384, by omega⟩
  have q0 : win0_2.index t (0 : Fin 3) = (i 0).val := congrFun ht 0
  have q1 : win0_2.index t (1 : Fin 3) = (i 1).val / 16384 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16384 ≤ (i 1).val ∧ (i 1).val < win0_2.index t (1 : Fin 3) * 16384 + 16384; omega
  | ⟨2, _⟩ => show win0_2.index t (2 : Fin 3) * 64 ≤ (i 2).val ∧ (i 2).val < win0_2.index t (2 : Fin 3) * 64 + 64; omega

/-- The output array after all grid points is the batched product of the two input arrays as the region finds them. -/
theorem final0 (c : Dev nD) :
    ((dat0 (F := Ideal) V c).arrAt 2 cfg0.N) = Cert.Spec.mm (V c main_v11) (V c main_v12) :=
  (dat0 (F := Ideal) V c).arrAt_eq_of_cover 2 (Cert.Spec.mm (V c main_v11) (V c main_v12))
    (fun t _ => flushed_eq V c t) cover

end Cert.KernelIdeal.Matmul0
end
-- ==== Proof.Matmul3.lean ====
/-
  Region 3 (a batched matrix product): the output array after all grid points, as one function of the region's two
  input arrays.

  The grid has 27 × 4 points; the point with coordinates (b, n) multiplies rows 16384·n … 16384·n + 16383 of the b-th
  65536×64 table by the b-th 64×64 weight and stores the 16384×64 product as the same rows of the b-th output table.
  So the entry (b, r, d) of the output is written once, by the point (b, r / 16384), and holds
  ∑ k, g(b, r, k) · w(b, k, d): the function `Cert.Spec.mm` of the two input arrays.

  The steps: the body's payload at an entry (`pay_ix`: the two casts between a [1, a, b] block and its matrix, and the
  product into the zero splat as a sum over the contracted coordinate); the relations between the three windows' block
  indices, decided over the grid (`idx_facts`, `idx_onto`); each input block read entry by entry off its array
  (`iblk_lhs_apply`, `iblk_rhs_apply`); what a point writes back is its block of the product (`point_eq`,
  `flushed_eq`); every entry of the output lies in some point's block (`mem_blk`, `cover`); the array (`final3`).
-/
import proofs.«131612_j67276367725113_1_alg».proof.Proof.PatchKernelIdealFrame
import proofs.«131612_j67276367725113_1_alg».proof.Proof.Spec
import proofs.«131612_j67276367725113_1_alg».proof.Proof.LibMatmulIx
import proofs.«131612_j67276367725113_1_alg».proof.Proof.LibUnitAxisIx
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Matmul3

open Cert.KernelIdeal Cert.KernelIdeal.Gen Idealize.ShloMosaic Idealize.ShloMosaic.TcCoe Idealize.SL.Sem Idealize.ShloMosaic.ValueIdx
open Idealize.ShloMosaic.Pipeline (Dat Cfg Window)

/-- The body's payload at an entry: the row of the left block times the column of the right block. -/
theorem pay_ix (x0 : Vec Ideal S1x16384x64 .bf16) (x1 : Vec Ideal S1x64x64 .bf16) (z : Fin 1) (r : Fin 16384) (d : Fin 64) :
    k3_pay1 (F := Ideal) x0 x1 (ix3 z r d) = ∑ k : Fin 64, x0 (ix3 z r k) * x1 (ix3 z k d) := by
  unfold k3_pay1
  refine (UnitAxisIx.addUnit_ix _ _ z r d).trans ?_
  refine (MatmulIx.matmul_zero_ix2 dot_S16384x64_S64x64_S16384x64_1_0_0_1_n_n rfl rfl (fun _ _ => rfl) (fun _ _ => rfl)
    (fun _ _ => rfl) (fun _ _ => rfl) none _ _ r d).trans ?_
  refine Finset.sum_congr rfl fun k _ => ?_
  exact congrArg₂ (· * ·) (UnitAxisIx.dropUnit_ix x0 _ z r k) (UnitAxisIx.dropUnit_ix x1 _ z k d)

theorem hz3 : (![0, 0, 0] : Fin 3 → Nat) = fun _ => 0 := funext fun a => by fin_cases a <;> rfl

/-- The printed index maps over the grid: the left operand's block moves with the output's, the right operand's block
    follows the output's first coordinate only, and the output's block indices stay in range. -/
theorem idx_facts : ∀ t : Fin cfg3.N,
      win3_0.index t (0 : Fin 3) = win3_2.index t (0 : Fin 3)
    ∧ win3_0.index t (1 : Fin 3) = win3_2.index t (1 : Fin 3)
    ∧ win3_0.index t (2 : Fin 3) = 0
    ∧ win3_1.index t (0 : Fin 3) = win3_2.index t (0 : Fin 3)
    ∧ win3_1.index t (1 : Fin 3) = 0
    ∧ win3_1.index t (2 : Fin 3) = 0
    ∧ win3_2.index t (0 : Fin 3) ≤ 26
    ∧ win3_2.index t (1 : Fin 3) ≤ 3
    ∧ win3_2.index t (2 : Fin 3) = 0 :=
  (by decide +kernel : ∀ t : Fin grid3.N, _)

/-- Every block of the output is some point's. -/
theorem idx_onto : ∀ (q0 : Fin 27) (q1 : Fin 4), ∃ t : Fin cfg3.N, win3_2.index t = ![q0.val, q1.val, 0] :=
  (by decide +kernel : ∀ (q0 : Fin 27) (q1 : Fin 4), ∃ t : Fin grid3.N, win3_2.index t = ![q0.val, q1.val, 0])

variable (V : (c : Dev nD) → (b : Ref sig .tc) → Buf (Elt Ideal) ((c : Thread nD τ).loc b))

/-- The left operand's block at a point, entry by entry: rows of the gathered table at the output block's offset and row range. -/
theorem iblk_lhs_apply (c : Dev nD) (t : Fin cfg3.N) (x : S1x16384x64.Idx) (k : S27x65536x64.Idx)
    (hk0 : (k 0).val = win3_2.index t (0 : Fin 3)) (hk1 : (k 1).val = win3_2.index t (1 : Fin 3) * 16384 + (x 1).val)
    (hk2 : (k 2).val = (x 2).val) :
    (iblk3 (F := Ideal) V c 0 t : Vec Ideal S1x16384x64 .bf16) x = (V c main_v34 : S27x65536x64.Idx → EReal) k := by
  obtain ⟨e0, e1, e2, e3, e4, e5, e6, e7, e8⟩ := idx_facts t
  unfold iblk3
  rw [View.read_apply]
  show V c main_v34 _ = V c main_v34 _
  congr 1
  funext a
  apply Fin.ext
  have hx0 : (x 0).val < 1 := (x 0).isLt
  match a with
  | ⟨0, _⟩ => show win3_0.index t (0 : Fin 3) * 1 + 1 * (x 0).val = (k 0).val; omega
  | ⟨1, _⟩ => show win3_0.index t (1 : Fin 3) * 16384 + 1 * (x 1).val = (k 1).val; omega
  | ⟨2, _⟩ => show win3_0.index t (2 : Fin 3) * 64 + 1 * (x 2).val = (k 2).val; omega

/-- The right operand's block at a point, entry by entry: the weight of the output block's offset. -/
theorem iblk_rhs_apply (c : Dev nD) (t : Fin cfg3.N) (x : S1x64x64.Idx) (k : S27x64x64.Idx)
    (hk0 : (k 0).val = win3_2.index t (0 : Fin 3)) (hk1 : (k 1).val = (x 1).val) (hk2 : (k 2).val = (x 2).val) :
    (iblk3 (F := Ideal) V c 1 t : Vec Ideal S1x64x64 .bf16) x = (V c main_v35 : S27x64x64.Idx → EReal) k := by
  obtain ⟨e0, e1, e2, e3, e4, e5, e6, e7, e8⟩ := idx_facts t
  unfold iblk3
  rw [View.read_apply]
  show V c main_v35 _ = V c main_v35 _
  congr 1
  funext a
  apply Fin.ext
  have hx0 : (x 0).val < 1 := (x 0).isLt
  match a with
  | ⟨0, _⟩ => show win3_1.index t (0 : Fin 3) * 1 + 1 * (x 0).val = (k 0).val; omega
  | ⟨1, _⟩ => show win3_1.index t (1 : Fin 3) * 64 + 1 * (x 1).val = (k 1).val; omega
  | ⟨2, _⟩ => show win3_1.index t (2 : Fin 3) * 64 + 1 * (x 2).val = (k 2).val; omega

/-- One entry of what a point's body stores: the entry of the product at the array index the output block puts it at. -/
theorem point_eq (c : Dev nD) (t : Fin cfg3.N) (j : S1x16384x64.Idx) (i : S27x65536x64.Idx)
    (hi0 : (i 0).val = win3_2.index t (0 : Fin 3)) (hi1 : (i 1).val = win3_2.index t (1 : Fin 3) * 16384 + (j 1).val)
    (hi2 : (i 2).val = (j 2).val) :
    k3_pay1 (F := Ideal) (iblk3 V c 0 t) (iblk3 V c 1 t) j = Cert.Spec.mm (V c main_v34) (V c main_v35) i := by
  obtain ⟨z, r, d, rfl⟩ : ∃ (z : Fin 1) (r : Fin 16384) (d : Fin 64), j = ix3 z r d := ⟨j 0, j 1, j 2, eq_ix3 j⟩
  obtain ⟨b, n, d', rfl⟩ : ∃ (b : Fin 27) (n : Fin 65536) (d' : Fin 64), i = ix3 b n d' := ⟨i 0, i 1, i 2, eq_ix3 i⟩
  refine (pay_ix (iblk3 V c 0 t) (iblk3 V c 1 t) z r d).trans ?_
  rw [Cert.Spec.mm_apply]
  refine Finset.sum_congr rfl fun k _ => ?_
  exact congrArg₂ (· * ·) (iblk_lhs_apply V c t (ix3 z r k) (ix3 b n k) hi0 hi1 rfl)
    (iblk_rhs_apply V c t (ix3 z k d) (ix3 b k d') hi0 rfl hi2)

/-- What a point writes back is its block of the product. -/
theorem flushed_eq (c : Dev nD) (t : Fin cfg3.N) :
    (dat3 (F := Ideal) V c).flushed 2 t
      = ((cfg3.win 2).blk t).view.read (Elt Ideal) (Cert.Spec.mm (V c main_v34) (V c main_v35)) := by
  show (cfg3.win 2).cut (grid3.coords t) ((dat3 (F := Ideal) V c).after 2 t) = _
  rw [after3_2]
  unfold out3_2
  rw [View.canon_unit_zero hz3]
  simp only [View.ld_unit_zero (S := S1x16384x64) hz3, View.ld_unit_zero (S := S1x64x64) hz3]
  funext j
  show k3_pay1 (F := Ideal) (iblk3 V c 0 t) (iblk3 V c 1 t) j
    = Cert.Spec.mm (V c main_v34) (V c main_v35) (((cfg3.win 2).blk t).view.emb j)
  refine point_eq V c t j _ ?_ ?_ ?_
  · show win3_2.index t (0 : Fin 3) * 1 + 1 * (j 0).val = win3_2.index t (0 : Fin 3)
    have hj : (j 0).val < 1 := (j 0).isLt
    omega
  · show win3_2.index t (1 : Fin 3) * 16384 + 1 * (j 1).val = win3_2.index t (1 : Fin 3) * 16384 + (j 1).val
    omega
  · show win3_2.index t (2 : Fin 3) * 64 + 1 * (j 2).val = (j 2).val
    obtain ⟨e0, e1, e2, e3, e4, e5, e6, e7, e8⟩ := idx_facts t
    omega

/-- An index of the array is in a point's block iff each coordinate is in the block's range on its axis. -/
theorem mem_blk (t : Fin cfg3.N) (i : S27x65536x64.Idx) :
    i ∈ ((cfg3.win 2).blk t).view.set ↔ ∀ a : Fin 3, win3_2.index t a * S1x16384x64.size a ≤ (i a).val
      ∧ (i a).val < win3_2.index t a * S1x16384x64.size a + S1x16384x64.size a := by
  show i ∈ ((View.whole main_v36).slice (win3_2.rect t)).set ↔ _
  rw [View.set_slice_whole, Rect.mem_set_unit]
  exact Iff.rfl

/-- Every entry (b, n, d) of the output is in the block of the point with coordinates (b, n / 16384). -/
theorem cover (i : S27x65536x64.Idx) :
    ∃ t : Fin cfg3.N, (cfg3.win 2).flush t = true ∧ i ∈ ((cfg3.win 2).blk t).view.set := by
  have hi0 : (i 0).val < 27 := (i 0).isLt
  have hi1 : (i 1).val < 65536 := (i 1).isLt
  have hi2 : (i 2).val < 64 := (i 2).isLt
  obtain ⟨t, ht⟩ := idx_onto ⟨(i 0).val, hi0⟩ ⟨(i 1).val / 16384, by omega⟩
  have q0 : win3_2.index t (0 : Fin 3) = (i 0).val := congrFun ht 0
  have q1 : win3_2.index t (1 : Fin 3) = (i 1).val / 16384 := congrFun ht 1
  have q2 : win3_2.index t (2 : Fin 3) = 0 := congrFun ht 2
  refine ⟨t, flush3_2 t, ?_⟩
  rw [mem_blk]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 16384 ≤ (i 1).val ∧ (i 1).val < win3_2.index t (1 : Fin 3) * 16384 + 16384; omega
  | ⟨2, _⟩ => show win3_2.index t (2 : Fin 3) * 64 ≤ (i 2).val ∧ (i 2).val < win3_2.index t (2 : Fin 3) * 64 + 64; omega

/-- The output array after all grid points is the batched product of the two input arrays as the region finds them. -/
theorem final3 (c : Dev nD) :
    ((dat3 (F := Ideal) V c).arrAt 2 cfg3.N) = Cert.Spec.mm (V c main_v34) (V c main_v35) :=
  (dat3 (F := Ideal) V c).arrAt_eq_of_cover 2 (Cert.Spec.mm (V c main_v34) (V c main_v35))
    (fun t _ => flushed_eq V c t) cover

end Cert.KernelIdeal.Matmul3
end
-- ==== Proof.LibSweepSum.lean ====
/-
  Sums taken block by block, in sweeps that restart.

  A sum over N = B · S consecutive rows is the sum, over the B blocks, of each block's S rows (`sum_blocks`). A running
  total that restarts from zero at every step whose number is a multiple of L, and otherwise adds the step's term to the
  previous total, holds at position k of a sweep the sum of the sweep's first k + 1 terms (`sweep_prefix`). Together:
  two sweeps of 32 steps, each step adding one block of 1024 consecutive rows, end with totals that add up to the sum
  over all 65536 rows (`sweep_total`). Only that addition is commutative and associative with neutral element 0 is
  used.
-/
import Mathlib.Algebra.BigOperators.Fin
import Mathlib.Algebra.BigOperators.Intervals
import Mathlib.Logic.Equiv.Fin.Basic

open scoped BigOperators

namespace Cert.LibSweepSum

/-- Row p of block n of size S lies below B · S. -/
theorem blk_lt {B S : ℕ} (n : Fin B) (p : Fin S) : S * n.val + p.val < B * S :=
  calc S * n.val + p.val < S * n.val + S := Nat.add_lt_add_left p.isLt _
    _ = S * (n.val + 1) := (Nat.mul_succ S n.val).symm
    _ ≤ S * B := Nat.mul_le_mul_left S n.isLt
    _ = B * S := Nat.mul_comm S B

/-- A sum over B · S consecutive rows is the sum over the B blocks of each block's S rows. -/
theorem sum_blocks {M : Type*} [AddCommMonoid M] (B S N : ℕ) (hN : N = B * S) (f : Fin N → M) :
    ∑ r : Fin N, f r = ∑ n : Fin B, ∑ p : Fin S, f ⟨S * n.val + p.val, hN ▸ blk_lt n p⟩ := by
  subst hN
  rw [← Equiv.sum_comp finProdFinEquiv f, Fintype.sum_prod_type]
  refine Finset.sum_congr rfl fun n _ => Finset.sum_congr rfl fun p _ => congrArg f (Fin.ext ?_)
  show (finProdFinEquiv (n, p)).val = S * n.val + p.val
  rw [finProdFinEquiv_apply_val, Nat.add_comm]

/-- A running total `A` that restarts at the multiples of `L` (there it is `0` plus the step's term `g`) and otherwise
    adds the step's term to the previous total: at position `k` of the sweep that starts at `a` it is the sum of that
    sweep's first `k + 1` terms. -/
theorem sweep_prefix {M : Type*} [AddCommMonoid M] (g A : ℕ → M) (L N : ℕ)
    (hfirst : ∀ n, n < N → n % L = 0 → A n = 0 + g n)
    (hnext : ∀ n, n < N → n % L ≠ 0 → A n = A (n - 1) + g n)
    (a : ℕ) (ha : a % L = 0) (k : ℕ) (hk : k < L) (h : a + k < N) :
    A (a + k) = ∑ m ∈ Finset.range (k + 1), g (a + m) := by
  induction k with
  | zero =>
    rw [Nat.add_zero, hfirst a (by omega) ha, zero_add, Finset.sum_range_one, Nat.add_zero]
  | succ k ih =>
    obtain ⟨c, rfl⟩ := Nat.dvd_of_mod_eq_zero ha
    have hne : (L * c + (k + 1)) % L ≠ 0 := by
      rw [Nat.mul_add_mod, Nat.mod_eq_of_lt hk]
      exact Nat.succ_ne_zero k
    rw [hnext _ h hne, show L * c + (k + 1) - 1 = L * c + k from by omega, ih (by omega) (by omega),
      Finset.sum_range_succ _ (k + 1)]

/-- Two sweeps of 32 steps over 64 blocks of 1024 consecutive rows: the running total restarts from zero at steps 0 and
    32 and each step adds its block's sum; the totals after steps 31 and 63 add up to the sum over all 65536 rows. -/
theorem sweep_total {M : Type*} [AddCommMonoid M] (f : Fin 65536 → M) (acc : (n : ℕ) → n < 64 → M)
    (hfirst : ∀ n (hn : n < 64), n % 32 = 0 → acc n hn = 0 + ∑ p : Fin 1024, f ⟨1024 * n + p.val, by omega⟩)
    (hnext : ∀ n (hn : n < 64), n % 32 ≠ 0 →
      acc n hn = acc (n - 1) (by omega) + ∑ p : Fin 1024, f ⟨1024 * n + p.val, by omega⟩) :
    acc 31 (by omega) + acc 63 (by omega) = ∑ r : Fin 65536, f r := by
  -- the step's term and the running total as functions of every natural number
  let g : ℕ → M := fun n => if hn : n < 64 then ∑ p : Fin 1024, f ⟨1024 * n + p.val, by omega⟩ else 0
  let A : ℕ → M := fun n => if hn : n < 64 then acc n hn else 0
  have hg : ∀ n (hn : n < 64), g n = ∑ p : Fin 1024, f ⟨1024 * n + p.val, by omega⟩ := fun n hn => dif_pos hn
  have hA : ∀ n (hn : n < 64), A n = acc n hn := fun n hn => dif_pos hn
  have h0 : ∀ n, n < 64 → n % 32 = 0 → A n = 0 + g n := fun n hn hz => by
    rw [hA n hn, hg n hn]; exact hfirst n hn hz
  have h1 : ∀ n, n < 64 → n % 32 ≠ 0 → A n = A (n - 1) + g n := fun n hn hz => by
    rw [hA n hn, hA (n - 1) (by omega), hg n hn]; exact hnext n hn hz
  have e1 : A 31 = ∑ m ∈ Finset.range 32, g (0 + m) := sweep_prefix g A 32 64 h0 h1 0 rfl 31 (by omega) (by omega)
  have e2 : A 63 = ∑ m ∈ Finset.range 32, g (32 + m) := sweep_prefix g A 32 64 h0 h1 32 rfl 31 (by omega) (by omega)
  rw [← hA 31 (by omega), ← hA 63 (by omega), e1, e2]
  simp only [Nat.zero_add]
  rw [← Finset.sum_range_add g 32 32, ← Fin.sum_univ_eq_sum_range g (32 + 32),
    sum_blocks 64 1024 65536 (by decide) f]
  exact Finset.sum_congr rfl fun n _ => hg n.val n.isLt

end Cert.LibSweepSum
-- ==== Proof.Stats1.lean ====
/-
  The two statistics the first batch normalisation needs, read off the kernel.

  The region walks the 65536×64 table in eight blocks of 8192 rows. At the first block it stores a zero row into each
  of its two 1×64 outputs; at every block it adds to the first output the block's column sums and to the second the
  column sums of the block's squares, each output keeping between blocks what the block before left. After block n
  the outputs therefore hold the sums over the first n + 1 blocks (induction on n), block n's row r being row
  8192·n + r of the table; after the last block they hold the sums over all 65536 rows, and the single write-back,
  whose block is the whole row, puts them into the output arrays.
-/
import proofs.«131612_j67276367725113_1_alg».proof.Proof.PatchKernelIdealFrame
import proofs.«131612_j67276367725113_1_alg».proof.Proof.Spec
import proofs.«131612_j67276367725113_1_alg».proof.Proof.LibSweepSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Stats1

open Cert.KernelIdeal Cert.KernelIdeal.Gen

variable {F : FTy → Type} [FloatOps F]

theorem hz : (![0, 0] : Fin 2 → Nat) = fun _ => 0 := funext fun a => by fin_cases a <;> rfl

/-! ## What each case of the body leaves in the two outputs, as payloads of the block and the running rows -/

/-- At a later point the first output holds the first payload of the block and of what it held before. -/
theorem out_B_1 (c : Dev nD) (i : grid1.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S8192x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S8192x64) hz,
    View.ld_unit_zero (S := S1x64) hz]

/-- At a later point the second output holds the second payload of the block and of what it held before. -/
theorem out_B_2 (c : Dev nD) (i : grid1.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S8192x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S8192x64) hz,
    View.ld_unit_zero (S := S1x64) hz]

/-- At the first point the first output is reset to the zero row and then holds the first payload of the block and
    of that row. -/
theorem out_A_1 (c : Dev nD) (i : grid1.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S8192x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S8192x64) hz]

/-- At the first point the second output is reset to the zero row and then holds the second payload of the block and
    of that row. -/
theorem out_A_2 (c : Dev nD) (i : grid1.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S8192x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S8192x64) hz]

/-! ## The payloads read at an index, over the extended reals -/

/-- The sum over the rows of an 8192×64 block, read at column d. -/
theorem colsum_apply (src : FVec Ideal S8192x64 .f32) (h : S8192x64.Reduces [0] S64) (hφ : FKind.Formats .f32)
    (hacc : (0x00000000#32 : BitVec 32) = 0x00000000#32) (d : Fin 64) :
    multiReduction .add [0] S64 src 0x00000000#32 h hφ hacc (ix1 d) = ∑ r : Fin 8192, src (ix2 r d) := by
  refine (Ideal.multiReduction_add_single src 0x00000000#32 h hφ hacc (ix1 d)).trans ?_
  refine Finset.sum_congr rfl fun r _ => congrArg src ?_
  funext a
  apply Fin.ext
  rw [h.lift_val]
  match a with
  | ⟨0, _⟩ => rfl
  | ⟨1, _⟩ => rfl

/-- The block passes through its identity reshape unchanged. -/
theorem pay3_eq (x : Vec Ideal S8192x64 .f32) : k1_pay3 (F := Ideal) x = x := by
  unfold k1_pay3
  exact shapeCast_self _ _

/-- The first store's payload: the running column sums plus the block's column sums. -/
theorem pay4_apply (x : Vec Ideal S8192x64 .f32) (acc : Vec Ideal S1x64 .f32) (z : Fin 1) (d : Fin 64) :
    k1_pay4 (F := Ideal) x acc (ix2 z d) = acc (ix2 z d) + ∑ r : Fin 8192, x (ix2 r d) := by
  unfold k1_pay4
  refine (addf_apply _ _ _).trans ?_
  refine congrArg₂ (· + ·) (congrFun (shapeCast_self _ _) _) ?_
  refine (shapeCast_a_1a_apply _ _ z d).trans ?_
  refine (colsum_apply _ _ _ _ d).trans ?_
  rw [pay3_eq]

/-- The second store's payload: the running column sums of squares plus the block's. -/
theorem pay5_apply (x : Vec Ideal S8192x64 .f32) (acc : Vec Ideal S1x64 .f32) (z : Fin 1) (d : Fin 64) :
    k1_pay5 (F := Ideal) x acc (ix2 z d) = acc (ix2 z d) + ∑ r : Fin 8192, x (ix2 r d) * x (ix2 r d) := by
  unfold k1_pay5
  refine (addf_apply _ _ _).trans ?_
  refine congrArg₂ (· + ·) (congrFun (shapeCast_self _ _) _) ?_
  refine (shapeCast_a_1a_apply _ _ z d).trans ?_
  refine (colsum_apply _ _ _ _ d).trans ?_
  rw [pay3_eq]
  rfl

/-- The reset stores the zero row. -/
theorem pay1_apply (j : S1x64.Idx) : k1_pay1 (F := Ideal) j = 0 := by
  unfold k1_pay1
  exact Ideal.ofBits_zero_f32

theorem pay2_apply (j : S1x64.Idx) : k1_pay2 (F := Ideal) j = 0 := by
  unfold k1_pay2
  exact Ideal.ofBits_zero_f32

/-! ## The outputs read at a column after either case -/

theorem step_A_1 (c : Dev nD) (i : grid1.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S8192x64 .f32) (d : Fin 64) :
    out1_A_1 (F := Ideal) c i a1 h1 a2 h2 a3 h3 hc x (ix2 0 d) = 0 + ∑ r : Fin 8192, x (ix2 r d) :=
  by
  refine (congrFun (out_A_1 c i a1 h1 a2 h2 a3 h3 hc x) (ix2 0 d)).trans ?_
  refine (pay4_apply x (k1_pay1 (F := Ideal)) 0 d).trans ?_
  rw [pay1_apply]

theorem step_A_2 (c : Dev nD) (i : grid1.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : cond1_0 i) (x : Vec Ideal S8192x64 .f32) (d : Fin 64) :
    out1_A_2 (F := Ideal) c i a1 h1 a2 h2 a3 h3 hc x (ix2 0 d) = 0 + ∑ r : Fin 8192, x (ix2 r d) * x (ix2 r d) :=
  by
  refine (congrFun (out_A_2 c i a1 h1 a2 h2 a3 h3 hc x) (ix2 0 d)).trans ?_
  refine (pay5_apply x (k1_pay2 (F := Ideal)) 0 d).trans ?_
  rw [pay2_apply]

theorem step_B_1 (c : Dev nD) (i : grid1.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S8192x64 .f32) (xo1 xo2 : Vec Ideal S1x64 .f32) (d : Fin 64) :
    out1_B_1 (F := Ideal) c i a1 h1 a2 h2 a3 h3 hc x xo1 xo2 (ix2 0 d) = xo1 (ix2 0 d) + ∑ r : Fin 8192, x (ix2 r d) :=
  (congrFun (out_B_1 c i a1 h1 a2 h2 a3 h3 hc x xo1 xo2) (ix2 0 d)).trans (pay4_apply x xo1 0 d)

theorem step_B_2 (c : Dev nD) (i : grid1.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec Ideal S8192x64 .f32) (xo1 xo2 : Vec Ideal S1x64 .f32) (d : Fin 64) :
    out1_B_2 (F := Ideal) c i a1 h1 a2 h2 a3 h3 hc x xo1 xo2 (ix2 0 d)
      = xo2 (ix2 0 d) + ∑ r : Fin 8192, x (ix2 r d) * x (ix2 r d) :=
  (congrFun (out_B_2 c i a1 h1 a2 h2 a3 h3 hc x xo1 xo2) (ix2 0 d)).trans (pay5_apply x xo2 0 d)

variable (V : (c : Dev nD) → (b : Ref sig .tc) → Buf (Elt Ideal) ((c : Thread nD τ).loc b))

/-! ## A block's rows in the table -/

/-- The table the region reads, as a function of (row, column). -/
abbrev tbl (c : Dev nD) : Cert.Spec.SN.Idx → EReal := V c main_v18

/-- The block of the table the region sees at point t. -/
abbrev blk (c : Dev nD) (t : Fin cfg1.N) : S8192x64.Idx → EReal := iblk1 (F := Ideal) V c 0 t

/-- The input window's block at point t is block (t, 0) of the table. -/
theorem idx_in : ∀ t : Fin cfg1.N, win1_0.index t (0 : Fin 2) = t.val ∧ win1_0.index t (1 : Fin 2) = 0 :=
  (by decide +kernel : ∀ t : Fin grid1.N, _)

/-- Row r of the block at point t is row 8192·t + r of the table. -/
theorem iblk_apply (c : Dev nD) (t : Fin cfg1.N) (r : Fin 8192) (d : Fin 64) (hr : 8192 * t.val + r.val < 65536) :
    blk V c t (ix2 r d)
      = tbl V c (ix2 ⟨8192 * t.val + r.val, hr⟩ d) := by
  obtain ⟨e0, e1⟩ := idx_in t
  unfold blk tbl iblk1
  rw [View.read_apply]
  show V c main_v18 (((cfg1.win 0).blk t).view.emb (ix2 r d)) = V c main_v18 _
  refine congrArg (V c main_v18) ?_
  funext a
  apply Fin.ext
  match a with
  | ⟨0, _⟩ => show win1_0.index t (0 : Fin 2) * 8192 + 1 * r.val = 8192 * t.val + r.val; omega
  | ⟨1, _⟩ => show win1_0.index t (1 : Fin 2) * 64 + 1 * d.val = d.val; omega

/-- Column d summed over the rows of block m of the table (zero past the last block). -/
def blockSum (c : Dev nD) (d : Fin 64) (m : ℕ) : EReal :=
  if hm : m < 8 then ∑ r : Fin 8192, tbl V c (ix2 ⟨8192 * m + r.val, by omega⟩ d) else 0

/-- The squares of column d summed over the rows of block m of the table (zero past the last block). -/
def blockSumSq (c : Dev nD) (d : Fin 64) (m : ℕ) : EReal :=
  if hm : m < 8 then ∑ r : Fin 8192, tbl V c (ix2 ⟨8192 * m + r.val, by omega⟩ d)
    * tbl V c (ix2 ⟨8192 * m + r.val, by omega⟩ d) else 0

/-- The column sums of the block at point t are those of block t of the table. -/
theorem blk_sum (c : Dev nD) (d : Fin 64) (t : Fin cfg1.N) :
    ∑ r : Fin 8192, blk V c t (ix2 r d) = blockSum V c d t.val := by
  have hN : cfg1.N = 8 := N_1
  have ht : t.val < 8 := by have := t.isLt; omega
  unfold blockSum
  rw [dif_pos ht]
  exact Finset.sum_congr rfl fun r _ => iblk_apply V c t r d (by omega)

theorem blk_sumSq (c : Dev nD) (d : Fin 64) (t : Fin cfg1.N) :
    ∑ r : Fin 8192, blk V c t (ix2 r d)
      * blk V c t (ix2 r d) = blockSumSq V c d t.val := by
  have hN : cfg1.N = 8 := N_1
  have ht : t.val < 8 := by have := t.isLt; omega
  unfold blockSumSq
  rw [dif_pos ht]
  exact Finset.sum_congr rfl fun r _ => congrArg₂ (· * ·) (iblk_apply V c t r d (by omega)) (iblk_apply V c t r d (by omega))

/-! ## The running totals -/

/-- After point n the two outputs hold, at column d, the sums over the first n + 1 blocks of the column and of its
    squares: the first point starts from the zero row, every later point adds its block to what the point before left. -/
theorem outs_eq (c : Dev nD) (d : Fin 64) : ∀ (n : ℕ) (hn : n < cfg1.N),
    (outsAt1 (F := Ideal) V c n hn).1 (ix2 0 d) = ∑ m ∈ Finset.range (n + 1), blockSum V c d m
    ∧ (outsAt1 (F := Ideal) V c n hn).2 (ix2 0 d) = ∑ m ∈ Finset.range (n + 1), blockSumSq V c d m
  | 0, hn => by
    have h1 := blk_sum V c d ⟨0, hn⟩
    have h2 := blk_sumSq V c d ⟨0, hn⟩
    rw [outsAt1_A V c ⟨0, hn⟩ rfl]
    dsimp only
    rw [Finset.sum_range_one, Finset.sum_range_one]
    constructor
    · refine (step_A_1 c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) _ (iblk1 V c 0 ⟨0, hn⟩) d).trans ?_
      rw [zero_add]; exact h1
    · refine (step_A_2 c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) _ (iblk1 V c 0 ⟨0, hn⟩) d).trans ?_
      rw [zero_add]; exact h2
  | n + 1, hn => by
    have hN : cfg1.N = 8 := N_1
    have hB : ¬(⟨n + 1, hn⟩ : Fin cfg1.N).val % 8 = 0 := by dsimp only; omega
    obtain ⟨ih1, ih2⟩ := outs_eq c d n (Nat.lt_of_succ_lt hn)
    have h1 := blk_sum V c d ⟨n + 1, hn⟩
    have h2 := blk_sumSq V c d ⟨n + 1, hn⟩
    rw [outsAt1_B V c ⟨n + 1, hn⟩ hB]
    dsimp only
    rw [Finset.sum_range_succ _ (n + 1), Finset.sum_range_succ _ (n + 1)]
    constructor
    · refine (step_B_1 c (grid1.coords ⟨n + 1, hn⟩) (ms1_0 ⟨n + 1, hn⟩) (hs1_0 ⟨n + 1, hn⟩) (ms1_1 ⟨n + 1, hn⟩)
        (hs1_1 ⟨n + 1, hn⟩) (ms1_2 ⟨n + 1, hn⟩) (hs1_2 ⟨n + 1, hn⟩) _ (iblk1 V c 0 ⟨n + 1, hn⟩) _ _ d).trans ?_
      exact congrArg₂ (· + ·) ih1 h1
    · refine (step_B_2 c (grid1.coords ⟨n + 1, hn⟩) (ms1_0 ⟨n + 1, hn⟩) (hs1_0 ⟨n + 1, hn⟩) (ms1_1 ⟨n + 1, hn⟩)
        (hs1_1 ⟨n + 1, hn⟩) (ms1_2 ⟨n + 1, hn⟩) (hs1_2 ⟨n + 1, hn⟩) _ (iblk1 V c 0 ⟨n + 1, hn⟩) _ _ d).trans ?_
      exact congrArg₂ (· + ·) ih2 h2

/-- The eight blocks' sums add up to the sum over all 65536 rows. -/
theorem total (c : Dev nD) (d : Fin 64) :
    ∑ m ∈ Finset.range 8, blockSum V c d m = Cert.Spec.colSum (V c main_v18) (ix2 0 d) := by
  rw [Cert.Spec.colSum_apply, Finset.sum_range,
    Cert.LibSweepSum.sum_blocks 8 8192 65536 (by decide) (fun n => tbl V c (ix2 n d))]
  exact Finset.sum_congr rfl fun m _ => by unfold blockSum; rw [dif_pos m.isLt]

theorem totalSq (c : Dev nD) (d : Fin 64) :
    ∑ m ∈ Finset.range 8, blockSumSq V c d m = Cert.Spec.colSumSq (V c main_v18) (ix2 0 d) := by
  rw [Cert.Spec.colSumSq_apply, Finset.sum_range,
    Cert.LibSweepSum.sum_blocks 8 8192 65536 (by decide) (fun n => tbl V c (ix2 n d)
      * tbl V c (ix2 n d))]
  exact Finset.sum_congr rfl fun m _ => by unfold blockSumSq; rw [dif_pos m.isLt]

/-- After the last point the first output is the row of column sums of the table, -/
theorem last_sum (c : Dev nD) (h7 : 7 < cfg1.N) :
    (outsAt1 (F := Ideal) V c 7 h7).1 = Cert.Spec.colSum (V c main_v18) := by
  funext j
  obtain ⟨z, d, rfl⟩ : ∃ (z : Fin 1) (d : Fin 64), j = ix2 z d := ⟨j 0, j 1, eq_ix2 j⟩
  obtain rfl : z = 0 := Subsingleton.elim _ _
  exact ((outs_eq V c d 7 h7).1).trans (total V c d)

/-- and the second the row of column sums of squares. -/
theorem last_sq (c : Dev nD) (h7 : 7 < cfg1.N) :
    (outsAt1 (F := Ideal) V c 7 h7).2 = Cert.Spec.colSumSq (V c main_v18) := by
  funext j
  obtain ⟨z, d, rfl⟩ : ∃ (z : Fin 1) (d : Fin 64), j = ix2 z d := ⟨j 0, j 1, eq_ix2 j⟩
  obtain rfl : z = 0 := Subsingleton.elim _ _
  exact ((outs_eq V c d 7 h7).2).trans (totalSq V c d)

/-! ## The output arrays after the region -/

/-- The one write-back of the first output, after the last point, writes the column sums: its block is the whole row. -/
theorem flushed_sum (c : Dev nD) (t : Fin cfg1.N) (hf : (cfg1.win 1).flush t = true) :
    (dat1 (F := Ideal) V c).flushed 1 t
      = ((cfg1.win 1).blk t).view.read (Elt Ideal) (Cert.Spec.colSum (V c main_v18)) := by
  have hN : cfg1.N = 8 := N_1
  have h7 : t.val = 7 := by have := (flush1_1 t).mp hf; have := t.isLt; omega
  obtain rfl : t = t1_7 := Fin.ext h7
  show (cfg1.win 1).cut (grid1.coords t1_7) ((dat1 V c).after 1 t1_7) = _
  rw [after1_1]
  have e : (outsAt1 (F := Ideal) V c t1_7.val t1_7.isLt).1 = Cert.Spec.colSum (V c main_v18) := last_sum V c _
  rw [e]
  have hz' : (fun a => win1_1.index t1_7 a * main_v19_0.ty.shape.size a) = fun _ => 0 :=
    funext fun a => by fin_cases a <;> decide
  exact (Memref.read_access_unit_zero (Elt Ideal) main_v19_0 hz' (fun a => by rw [congrFun hz' a]; simp)
    (Cert.Spec.colSum (V c main_v18))).symm

theorem flushed_sq (c : Dev nD) (t : Fin cfg1.N) (hf : (cfg1.win 2).flush t = true) :
    (dat1 (F := Ideal) V c).flushed 2 t
      = ((cfg1.win 2).blk t).view.read (Elt Ideal) (Cert.Spec.colSumSq (V c main_v18)) := by
  have hN : cfg1.N = 8 := N_1
  have h7 : t.val = 7 := by have := (flush1_2 t).mp hf; have := t.isLt; omega
  obtain rfl : t = t1_7 := Fin.ext h7
  show (cfg1.win 2).cut (grid1.coords t1_7) ((dat1 V c).after 2 t1_7) = _
  rw [after1_2]
  have e : (outsAt1 (F := Ideal) V c t1_7.val t1_7.isLt).2 = Cert.Spec.colSumSq (V c main_v18) := last_sq V c _
  rw [e]
  have hz' : (fun a => win1_2.index t1_7 a * main_v19_1.ty.shape.size a) = fun _ => 0 :=
    funext fun a => by fin_cases a <;> decide
  exact (Memref.read_access_unit_zero (Elt Ideal) main_v19_1 hz' (fun a => by rw [congrFun hz' a]; simp)
    (Cert.Spec.colSumSq (V c main_v18))).symm

/-- The first output array after the region is the row of column sums of the table the region found. -/
theorem final1_sum (c : Dev nD) :
    ((dat1 (F := Ideal) V c).arrAt 1 cfg1.N) = Cert.Spec.colSum (V c main_v18) :=
  (dat1 V c).arrAt_eq_of_cover 1 (Cert.Spec.colSum (V c main_v18)) (flushed_sum V c) fun i =>
    ⟨t1_7, (flush1_1 t1_7).mpr rfl, by
      show i ∈ ((View.whole main_v19_0).slice (win1_1.rect t1_7)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index t1_7 0 * win1_1.size 0 ≤ (i 0 : Nat)
          ∧ (i 0 : Nat) < win1_1.index t1_7 0 * win1_1.size 0 + win1_1.xsize (grid1.coords t1_7) 0
        rw [show win1_1.index t1_7 0 * win1_1.size 0 = 0 from by decide +kernel,
          show win1_1.xsize (grid1.coords t1_7) 0 = 1 from by decide +kernel]; omega
      | ⟨1, _⟩ =>
        show win1_1.index t1_7 1 * win1_1.size 1 ≤ (i 1 : Nat)
          ∧ (i 1 : Nat) < win1_1.index t1_7 1 * win1_1.size 1 + win1_1.xsize (grid1.coords t1_7) 1
        rw [show win1_1.index t1_7 1 * win1_1.size 1 = 0 from by decide +kernel,
          show win1_1.xsize (grid1.coords t1_7) 1 = 64 from by decide +kernel]; omega⟩

/-- The second output array after the region is the row of column sums of squares of that table. -/
theorem final1_sq (c : Dev nD) :
    ((dat1 (F := Ideal) V c).arrAt 2 cfg1.N) = Cert.Spec.colSumSq (V c main_v18) :=
  (dat1 V c).arrAt_eq_of_cover 2 (Cert.Spec.colSumSq (V c main_v18)) (flushed_sq V c) fun i =>
    ⟨t1_7, (flush1_2 t1_7).mpr rfl, by
      show i ∈ ((View.whole main_v19_1).slice (win1_2.rect t1_7)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index t1_7 0 * win1_2.size 0 ≤ (i 0 : Nat)
          ∧ (i 0 : Nat) < win1_2.index t1_7 0 * win1_2.size 0 + win1_2.xsize (grid1.coords t1_7) 0
        rw [show win1_2.index t1_7 0 * win1_2.size 0 = 0 from by decide +kernel,
          show win1_2.xsize (grid1.coords t1_7) 0 = 1 from by decide +kernel]; omega
      | ⟨1, _⟩ =>
        show win1_2.index t1_7 1 * win1_2.size 1 ≤ (i 1 : Nat)
          ∧ (i 1 : Nat) < win1_2.index t1_7 1 * win1_2.size 1 + win1_2.xsize (grid1.coords t1_7) 1
        rw [show win1_2.index t1_7 1 * win1_2.size 1 = 0 from by decide +kernel,
          show win1_2.xsize (grid1.coords t1_7) 1 = 64 from by decide +kernel]; omega⟩

end Cert.KernelIdeal.Stats1

end
-- ==== Proof.Stats4.lean ====
/-
  The two statistics the second batch normalisation needs, read off the kernel.

  The region walks the 65536×64 table in eight blocks of 8192 rows. At the first block it stores a zero row into each
  of its two 1×64 outputs; at every block it adds to the first output the block's column sums and to the second the
  column sums of the block's squares, each output keeping between blocks what the block before left. After block n
  the outputs therefore hold the sums over the first n + 1 blocks (induction on n), block n's row r being row
  8192·n + r of the table; after the last block they hold the sums over all 65536 rows, and the single write-back,
  whose block is the whole row, puts them into the output arrays.
-/
import proofs.«131612_j67276367725113_1_alg».proof.Proof.PatchKernelIdealFrame
import proofs.«131612_j67276367725113_1_alg».proof.Proof.Spec
import proofs.«131612_j67276367725113_1_alg».proof.Proof.LibSweepSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Stats4

open Cert.KernelIdeal Cert.KernelIdeal.Gen

variable {F : FTy → Type} [FloatOps F]

theorem hz : (![0, 0] : Fin 2 → Nat) = fun _ => 0 := funext fun a => by fin_cases a <;> rfl

/-! ## What each case of the body leaves in the two outputs, as payloads of the block and the running rows -/

/-- At a later point the first output holds the first payload of the block and of what it held before. -/
theorem out_B_1 (c : Dev nD) (i : grid4.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S8192x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S8192x64) hz,
    View.ld_unit_zero (S := S1x64) hz]

/-- At a later point the second output holds the second payload of the block and of what it held before. -/
theorem out_B_2 (c : Dev nD) (i : grid4.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S8192x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S8192x64) hz,
    View.ld_unit_zero (S := S1x64) hz]

/-- At the first point the first output is reset to the zero row and then holds the first payload of the block and
    of that row. -/
theorem out_A_1 (c : Dev nD) (i : grid4.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S8192x64 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S8192x64) hz]

/-- At the first point the second output is reset to the zero row and then holds the second payload of the block and
    of that row. -/
theorem out_A_2 (c : Dev nD) (i : grid4.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S8192x64 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S8192x64) hz]

/-! ## The payloads read at an index, over the extended reals -/

/-- The sum over the rows of an 8192×64 block, read at column d. -/
theorem colsum_apply (src : FVec Ideal S8192x64 .f32) (h : S8192x64.Reduces [0] S64) (hφ : FKind.Formats .f32)
    (hacc : (0x00000000#32 : BitVec 32) = 0x00000000#32) (d : Fin 64) :
    multiReduction .add [0] S64 src 0x00000000#32 h hφ hacc (ix1 d) = ∑ r : Fin 8192, src (ix2 r d) := by
  refine (Ideal.multiReduction_add_single src 0x00000000#32 h hφ hacc (ix1 d)).trans ?_
  refine Finset.sum_congr rfl fun r _ => congrArg src ?_
  funext a
  apply Fin.ext
  rw [h.lift_val]
  match a with
  | ⟨0, _⟩ => rfl
  | ⟨1, _⟩ => rfl

/-- The block passes through its identity reshape unchanged. -/
theorem pay3_eq (x : Vec Ideal S8192x64 .f32) : k4_pay3 (F := Ideal) x = x := by
  unfold k4_pay3
  exact shapeCast_self _ _

/-- The first store's payload: the running column sums plus the block's column sums. -/
theorem pay4_apply (x : Vec Ideal S8192x64 .f32) (acc : Vec Ideal S1x64 .f32) (z : Fin 1) (d : Fin 64) :
    k4_pay4 (F := Ideal) x acc (ix2 z d) = acc (ix2 z d) + ∑ r : Fin 8192, x (ix2 r d) := by
  unfold k4_pay4
  refine (addf_apply _ _ _).trans ?_
  refine congrArg₂ (· + ·) (congrFun (shapeCast_self _ _) _) ?_
  refine (shapeCast_a_1a_apply _ _ z d).trans ?_
  refine (colsum_apply _ _ _ _ d).trans ?_
  rw [pay3_eq]

/-- The second store's payload: the running column sums of squares plus the block's. -/
theorem pay5_apply (x : Vec Ideal S8192x64 .f32) (acc : Vec Ideal S1x64 .f32) (z : Fin 1) (d : Fin 64) :
    k4_pay5 (F := Ideal) x acc (ix2 z d) = acc (ix2 z d) + ∑ r : Fin 8192, x (ix2 r d) * x (ix2 r d) := by
  unfold k4_pay5
  refine (addf_apply _ _ _).trans ?_
  refine congrArg₂ (· + ·) (congrFun (shapeCast_self _ _) _) ?_
  refine (shapeCast_a_1a_apply _ _ z d).trans ?_
  refine (colsum_apply _ _ _ _ d).trans ?_
  rw [pay3_eq]
  rfl

/-- The reset stores the zero row. -/
theorem pay1_apply (j : S1x64.Idx) : k4_pay1 (F := Ideal) j = 0 := by
  unfold k4_pay1
  exact Ideal.ofBits_zero_f32

theorem pay2_apply (j : S1x64.Idx) : k4_pay2 (F := Ideal) j = 0 := by
  unfold k4_pay2
  exact Ideal.ofBits_zero_f32

/-! ## The outputs read at a column after either case -/

theorem step_A_1 (c : Dev nD) (i : grid4.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : cond4_0 i) (x : Vec Ideal S8192x64 .f32) (d : Fin 64) :
    out4_A_1 (F := Ideal) c i a1 h1 a2 h2 a3 h3 hc x (ix2 0 d) = 0 + ∑ r : Fin 8192, x (ix2 r d) :=
  by
  refine (congrFun (out_A_1 c i a1 h1 a2 h2 a3 h3 hc x) (ix2 0 d)).trans ?_
  refine (pay4_apply x (k4_pay1 (F := Ideal)) 0 d).trans ?_
  rw [pay1_apply]

theorem step_A_2 (c : Dev nD) (i : grid4.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : cond4_0 i) (x : Vec Ideal S8192x64 .f32) (d : Fin 64) :
    out4_A_2 (F := Ideal) c i a1 h1 a2 h2 a3 h3 hc x (ix2 0 d) = 0 + ∑ r : Fin 8192, x (ix2 r d) * x (ix2 r d) :=
  by
  refine (congrFun (out_A_2 c i a1 h1 a2 h2 a3 h3 hc x) (ix2 0 d)).trans ?_
  refine (pay5_apply x (k4_pay2 (F := Ideal)) 0 d).trans ?_
  rw [pay2_apply]

theorem step_B_1 (c : Dev nD) (i : grid4.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec Ideal S8192x64 .f32) (xo1 xo2 : Vec Ideal S1x64 .f32) (d : Fin 64) :
    out4_B_1 (F := Ideal) c i a1 h1 a2 h2 a3 h3 hc x xo1 xo2 (ix2 0 d) = xo1 (ix2 0 d) + ∑ r : Fin 8192, x (ix2 r d) :=
  (congrFun (out_B_1 c i a1 h1 a2 h2 a3 h3 hc x xo1 xo2) (ix2 0 d)).trans (pay4_apply x xo1 0 d)

theorem step_B_2 (c : Dev nD) (i : grid4.Coords) (a1 : Memref sig .tc .vmem S8192x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec Ideal S8192x64 .f32) (xo1 xo2 : Vec Ideal S1x64 .f32) (d : Fin 64) :
    out4_B_2 (F := Ideal) c i a1 h1 a2 h2 a3 h3 hc x xo1 xo2 (ix2 0 d)
      = xo2 (ix2 0 d) + ∑ r : Fin 8192, x (ix2 r d) * x (ix2 r d) :=
  (congrFun (out_B_2 c i a1 h1 a2 h2 a3 h3 hc x xo1 xo2) (ix2 0 d)).trans (pay5_apply x xo2 0 d)

variable (V : (c : Dev nD) → (b : Ref sig .tc) → Buf (Elt Ideal) ((c : Thread nD τ).loc b))

/-! ## A block's rows in the table -/

/-- The table the region reads, as a function of (row, column). -/
abbrev tbl (c : Dev nD) : Cert.Spec.SN.Idx → EReal := V c main_v41

/-- The block of the table the region sees at point t. -/
abbrev blk (c : Dev nD) (t : Fin cfg4.N) : S8192x64.Idx → EReal := iblk4 (F := Ideal) V c 0 t

/-- The input window's block at point t is block (t, 0) of the table. -/
theorem idx_in : ∀ t : Fin cfg4.N, win4_0.index t (0 : Fin 2) = t.val ∧ win4_0.index t (1 : Fin 2) = 0 :=
  (by decide +kernel : ∀ t : Fin grid4.N, _)

/-- Row r of the block at point t is row 8192·t + r of the table. -/
theorem iblk_apply (c : Dev nD) (t : Fin cfg4.N) (r : Fin 8192) (d : Fin 64) (hr : 8192 * t.val + r.val < 65536) :
    blk V c t (ix2 r d)
      = tbl V c (ix2 ⟨8192 * t.val + r.val, hr⟩ d) := by
  obtain ⟨e0, e1⟩ := idx_in t
  unfold blk tbl iblk4
  rw [View.read_apply]
  show V c main_v41 (((cfg4.win 0).blk t).view.emb (ix2 r d)) = V c main_v41 _
  refine congrArg (V c main_v41) ?_
  funext a
  apply Fin.ext
  match a with
  | ⟨0, _⟩ => show win4_0.index t (0 : Fin 2) * 8192 + 1 * r.val = 8192 * t.val + r.val; omega
  | ⟨1, _⟩ => show win4_0.index t (1 : Fin 2) * 64 + 1 * d.val = d.val; omega

/-- Column d summed over the rows of block m of the table (zero past the last block). -/
def blockSum (c : Dev nD) (d : Fin 64) (m : ℕ) : EReal :=
  if hm : m < 8 then ∑ r : Fin 8192, tbl V c (ix2 ⟨8192 * m + r.val, by omega⟩ d) else 0

/-- The squares of column d summed over the rows of block m of the table (zero past the last block). -/
def blockSumSq (c : Dev nD) (d : Fin 64) (m : ℕ) : EReal :=
  if hm : m < 8 then ∑ r : Fin 8192, tbl V c (ix2 ⟨8192 * m + r.val, by omega⟩ d)
    * tbl V c (ix2 ⟨8192 * m + r.val, by omega⟩ d) else 0

/-- The column sums of the block at point t are those of block t of the table. -/
theorem blk_sum (c : Dev nD) (d : Fin 64) (t : Fin cfg4.N) :
    ∑ r : Fin 8192, blk V c t (ix2 r d) = blockSum V c d t.val := by
  have hN : cfg4.N = 8 := N_4
  have ht : t.val < 8 := by have := t.isLt; omega
  unfold blockSum
  rw [dif_pos ht]
  exact Finset.sum_congr rfl fun r _ => iblk_apply V c t r d (by omega)

theorem blk_sumSq (c : Dev nD) (d : Fin 64) (t : Fin cfg4.N) :
    ∑ r : Fin 8192, blk V c t (ix2 r d)
      * blk V c t (ix2 r d) = blockSumSq V c d t.val := by
  have hN : cfg4.N = 8 := N_4
  have ht : t.val < 8 := by have := t.isLt; omega
  unfold blockSumSq
  rw [dif_pos ht]
  exact Finset.sum_congr rfl fun r _ => congrArg₂ (· * ·) (iblk_apply V c t r d (by omega)) (iblk_apply V c t r d (by omega))

/-! ## The running totals -/

/-- After point n the two outputs hold, at column d, the sums over the first n + 1 blocks of the column and of its
    squares: the first point starts from the zero row, every later point adds its block to what the point before left. -/
theorem outs_eq (c : Dev nD) (d : Fin 64) : ∀ (n : ℕ) (hn : n < cfg4.N),
    (outsAt4 (F := Ideal) V c n hn).1 (ix2 0 d) = ∑ m ∈ Finset.range (n + 1), blockSum V c d m
    ∧ (outsAt4 (F := Ideal) V c n hn).2 (ix2 0 d) = ∑ m ∈ Finset.range (n + 1), blockSumSq V c d m
  | 0, hn => by
    have h1 := blk_sum V c d ⟨0, hn⟩
    have h2 := blk_sumSq V c d ⟨0, hn⟩
    rw [outsAt4_A V c ⟨0, hn⟩ rfl]
    dsimp only
    rw [Finset.sum_range_one, Finset.sum_range_one]
    constructor
    · refine (step_A_1 c (grid4.coords ⟨0, hn⟩) (ms4_0 ⟨0, hn⟩) (hs4_0 ⟨0, hn⟩) (ms4_1 ⟨0, hn⟩) (hs4_1 ⟨0, hn⟩)
        (ms4_2 ⟨0, hn⟩) (hs4_2 ⟨0, hn⟩) _ (iblk4 V c 0 ⟨0, hn⟩) d).trans ?_
      rw [zero_add]; exact h1
    · refine (step_A_2 c (grid4.coords ⟨0, hn⟩) (ms4_0 ⟨0, hn⟩) (hs4_0 ⟨0, hn⟩) (ms4_1 ⟨0, hn⟩) (hs4_1 ⟨0, hn⟩)
        (ms4_2 ⟨0, hn⟩) (hs4_2 ⟨0, hn⟩) _ (iblk4 V c 0 ⟨0, hn⟩) d).trans ?_
      rw [zero_add]; exact h2
  | n + 1, hn => by
    have hN : cfg4.N = 8 := N_4
    have hB : ¬(⟨n + 1, hn⟩ : Fin cfg4.N).val % 8 = 0 := by dsimp only; omega
    obtain ⟨ih1, ih2⟩ := outs_eq c d n (Nat.lt_of_succ_lt hn)
    have h1 := blk_sum V c d ⟨n + 1, hn⟩
    have h2 := blk_sumSq V c d ⟨n + 1, hn⟩
    rw [outsAt4_B V c ⟨n + 1, hn⟩ hB]
    dsimp only
    rw [Finset.sum_range_succ _ (n + 1), Finset.sum_range_succ _ (n + 1)]
    constructor
    · refine (step_B_1 c (grid4.coords ⟨n + 1, hn⟩) (ms4_0 ⟨n + 1, hn⟩) (hs4_0 ⟨n + 1, hn⟩) (ms4_1 ⟨n + 1, hn⟩)
        (hs4_1 ⟨n + 1, hn⟩) (ms4_2 ⟨n + 1, hn⟩) (hs4_2 ⟨n + 1, hn⟩) _ (iblk4 V c 0 ⟨n + 1, hn⟩) _ _ d).trans ?_
      exact congrArg₂ (· + ·) ih1 h1
    · refine (step_B_2 c (grid4.coords ⟨n + 1, hn⟩) (ms4_0 ⟨n + 1, hn⟩) (hs4_0 ⟨n + 1, hn⟩) (ms4_1 ⟨n + 1, hn⟩)
        (hs4_1 ⟨n + 1, hn⟩) (ms4_2 ⟨n + 1, hn⟩) (hs4_2 ⟨n + 1, hn⟩) _ (iblk4 V c 0 ⟨n + 1, hn⟩) _ _ d).trans ?_
      exact congrArg₂ (· + ·) ih2 h2

/-- The eight blocks' sums add up to the sum over all 65536 rows. -/
theorem total (c : Dev nD) (d : Fin 64) :
    ∑ m ∈ Finset.range 8, blockSum V c d m = Cert.Spec.colSum (V c main_v41) (ix2 0 d) := by
  rw [Cert.Spec.colSum_apply, Finset.sum_range,
    Cert.LibSweepSum.sum_blocks 8 8192 65536 (by decide) (fun n => tbl V c (ix2 n d))]
  exact Finset.sum_congr rfl fun m _ => by unfold blockSum; rw [dif_pos m.isLt]

theorem totalSq (c : Dev nD) (d : Fin 64) :
    ∑ m ∈ Finset.range 8, blockSumSq V c d m = Cert.Spec.colSumSq (V c main_v41) (ix2 0 d) := by
  rw [Cert.Spec.colSumSq_apply, Finset.sum_range,
    Cert.LibSweepSum.sum_blocks 8 8192 65536 (by decide) (fun n => tbl V c (ix2 n d)
      * tbl V c (ix2 n d))]
  exact Finset.sum_congr rfl fun m _ => by unfold blockSumSq; rw [dif_pos m.isLt]

/-- After the last point the first output is the row of column sums of the table, -/
theorem last_sum (c : Dev nD) (h7 : 7 < cfg4.N) :
    (outsAt4 (F := Ideal) V c 7 h7).1 = Cert.Spec.colSum (V c main_v41) := by
  funext j
  obtain ⟨z, d, rfl⟩ : ∃ (z : Fin 1) (d : Fin 64), j = ix2 z d := ⟨j 0, j 1, eq_ix2 j⟩
  obtain rfl : z = 0 := Subsingleton.elim _ _
  exact ((outs_eq V c d 7 h7).1).trans (total V c d)

/-- and the second the row of column sums of squares. -/
theorem last_sq (c : Dev nD) (h7 : 7 < cfg4.N) :
    (outsAt4 (F := Ideal) V c 7 h7).2 = Cert.Spec.colSumSq (V c main_v41) := by
  funext j
  obtain ⟨z, d, rfl⟩ : ∃ (z : Fin 1) (d : Fin 64), j = ix2 z d := ⟨j 0, j 1, eq_ix2 j⟩
  obtain rfl : z = 0 := Subsingleton.elim _ _
  exact ((outs_eq V c d 7 h7).2).trans (totalSq V c d)

/-! ## The output arrays after the region -/

/-- The one write-back of the first output, after the last point, writes the column sums: its block is the whole row. -/
theorem flushed_sum (c : Dev nD) (t : Fin cfg4.N) (hf : (cfg4.win 1).flush t = true) :
    (dat4 (F := Ideal) V c).flushed 1 t
      = ((cfg4.win 1).blk t).view.read (Elt Ideal) (Cert.Spec.colSum (V c main_v41)) := by
  have hN : cfg4.N = 8 := N_4
  have h7 : t.val = 7 := by have := (flush4_1 t).mp hf; have := t.isLt; omega
  obtain rfl : t = t4_7 := Fin.ext h7
  show (cfg4.win 1).cut (grid4.coords t4_7) ((dat4 V c).after 1 t4_7) = _
  rw [after4_1]
  have e : (outsAt4 (F := Ideal) V c t4_7.val t4_7.isLt).1 = Cert.Spec.colSum (V c main_v41) := last_sum V c _
  rw [e]
  have hz' : (fun a => win4_1.index t4_7 a * main_v42_0.ty.shape.size a) = fun _ => 0 :=
    funext fun a => by fin_cases a <;> decide
  exact (Memref.read_access_unit_zero (Elt Ideal) main_v42_0 hz' (fun a => by rw [congrFun hz' a]; simp)
    (Cert.Spec.colSum (V c main_v41))).symm

theorem flushed_sq (c : Dev nD) (t : Fin cfg4.N) (hf : (cfg4.win 2).flush t = true) :
    (dat4 (F := Ideal) V c).flushed 2 t
      = ((cfg4.win 2).blk t).view.read (Elt Ideal) (Cert.Spec.colSumSq (V c main_v41)) := by
  have hN : cfg4.N = 8 := N_4
  have h7 : t.val = 7 := by have := (flush4_2 t).mp hf; have := t.isLt; omega
  obtain rfl : t = t4_7 := Fin.ext h7
  show (cfg4.win 2).cut (grid4.coords t4_7) ((dat4 V c).after 2 t4_7) = _
  rw [after4_2]
  have e : (outsAt4 (F := Ideal) V c t4_7.val t4_7.isLt).2 = Cert.Spec.colSumSq (V c main_v41) := last_sq V c _
  rw [e]
  have hz' : (fun a => win4_2.index t4_7 a * main_v42_1.ty.shape.size a) = fun _ => 0 :=
    funext fun a => by fin_cases a <;> decide
  exact (Memref.read_access_unit_zero (Elt Ideal) main_v42_1 hz' (fun a => by rw [congrFun hz' a]; simp)
    (Cert.Spec.colSumSq (V c main_v41))).symm

/-- The first output array after the region is the row of column sums of the table the region found. -/
theorem final4_sum (c : Dev nD) :
    ((dat4 (F := Ideal) V c).arrAt 1 cfg4.N) = Cert.Spec.colSum (V c main_v41) :=
  (dat4 V c).arrAt_eq_of_cover 1 (Cert.Spec.colSum (V c main_v41)) (flushed_sum V c) fun i =>
    ⟨t4_7, (flush4_1 t4_7).mpr rfl, by
      show i ∈ ((View.whole main_v42_0).slice (win4_1.rect t4_7)).set
      rw [View.set_slice_whole, Rect.mem_set_unit]
      intro a
      have h0 : (i 0 : Nat) < 1 := (i 0).isLt
      have h1 : (i 1 : Nat) < 64 := (i 1).isLt
      match a with
      | ⟨0, _⟩ =>
        show win4_1.index t4_7 0 * win4_1.size 0 ≤ (i 0 : Nat)
          ∧ (i 0 : Nat) < win4_1.index t4_7 0 * win4_1.size 0 + win4_1.xsize (grid4.coords t4_7) 0
        rw [show win4_1.index t4_7 0 * win4_1.size 0 = 0 from by decide +kernel,
          show win4_1.xsize (grid4.coords t4_7) 0 = 1 from by decide +kernel]; omega
      | ⟨1, _⟩ =>
        show win4_1.index t4_7 1 * win4_1.size 1 ≤ (i 1 : Nat)
          ∧ (i 1 : Nat) < win4_1.index t4_7 1 * win4_1.size 1 + win4_1.xsize (grid4.coords t4_7) 1
        rw [show win4_1.index t4_7 1 * win4_1.size 1 = 0 from by decide +kernel,
          show win4_1.xsize (grid4.coords t4_7) 1 = 64 from by decide +kernel]; omega⟩

/-- The second output array after the region is the row of column sums of squares of that table. -/
theorem final4_sq (c : Dev nD) :
    ((dat4 (F := Ideal) V c).arrAt 2 cfg4.N) = Cert.Spec.colSumSq (V c main_v41) :=
  (dat4 V c).arrAt_eq_of_cover 2 (Cert.Spec.colSumSq (V c main_v41)) (flushed_sq V c) fun i =>
    ⟨t4_7, (flush4_2 t4_7).mpr rfl, by
      show i ∈ ((View.whole main_v42_1).slice (win4_2.rect t4_7)).set
      rw [View.set_slice_whole, Rect.mem_set_unit]
      intro a
      have h0 : (i 0 : Nat) < 1 := (i 0).isLt
      have h1 : (i 1 : Nat) < 64 := (i 1).isLt
      match a with
      | ⟨0, _⟩ =>
        show win4_2.index t4_7 0 * win4_2.size 0 ≤ (i 0 : Nat)
          ∧ (i 0 : Nat) < win4_2.index t4_7 0 * win4_2.size 0 + win4_2.xsize (grid4.coords t4_7) 0
        rw [show win4_2.index t4_7 0 * win4_2.size 0 = 0 from by decide +kernel,
          show win4_2.xsize (grid4.coords t4_7) 0 = 1 from by decide +kernel]; omega
      | ⟨1, _⟩ =>
        show win4_2.index t4_7 1 * win4_2.size 1 ≤ (i 1 : Nat)
          ∧ (i 1 : Nat) < win4_2.index t4_7 1 * win4_2.size 1 + win4_2.xsize (grid4.coords t4_7) 1
        rw [show win4_2.index t4_7 1 * win4_2.size 1 = 0 from by decide +kernel,
          show win4_2.xsize (grid4.coords t4_7) 1 = 64 from by decide +kernel]; omega⟩

end Cert.KernelIdeal.Stats4

end
-- ==== Proof.Norm2.lean ====
/-
  The first normalisation region: eight grid points, each taking an 8192-row block of the 65536×64 table together with
  the 1×64 mean, variance, scale and shift rows, and storing max ((x − mean) · (γ · (var + ε)^(−1/2)) + β, 0) into the
  same block of the output.  Read at an index the stored payload is that expression of the block's entry and of the
  rows' entries in its column (`pay_apply`); the table's block at a point sits where the output's block sits and each
  row window's block is its whole array (`iblk_tab`, `iblk_mean` …); so what a point writes back is its block of
  `Cert.Spec.bnRelu` of the entry arrays (`flushed_eq`), the eight blocks cover the array (`cover`), and the array
  after the last point is that function (`final2`).
-/
import proofs.«131612_j67276367725113_1_alg».proof.Proof.PatchKernelIdealFrame
import proofs.«131612_j67276367725113_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at an index: normalise by the mean and variance rows, scale, shift, clamp at zero. -/
theorem pay_apply (v0 : Vec Ideal S8192x64 .f32) (v2 v4 v10 v16 : Vec Ideal S1x64 .f32) (r : Fin 8192) (d : Fin 64) :
    k2_pay1 v0 v2 v4 v10 v16 (ix2 r d)
      = max ((v0 (ix2 r d) - v10 (ix2 0 d)) * (v2 (ix2 0 d) * Ideal.rsqrt (v4 (ix2 0 d) + Cert.Spec.eps)) + v16 (ix2 0 d)) 0 := by
  unfold k2_pay1
  simp only [shapeCast_self]
  rw [maximumf_apply, addf_apply, mulf_apply, subf_apply, broadcastTo_1b_ab_apply, broadcastTo_1b_ab_apply,
    broadcastTo_1b_ab_apply, mulf_apply, broadcast_apply]
  exact congrArg₂ max rfl Ideal.ofBits_zero_f32

/-- The target function at an index whose column is `d`. -/
theorem spec_at (h : Cert.Spec.SN.Idx → EReal) (mean var gamma beta : Cert.Spec.SR.Idx → EReal) (i : Cert.Spec.SN.Idx) (d : Fin 64)
    (hd : i 1 = d) :
    Cert.Spec.bnRelu h mean var gamma beta i
      = max ((h i - mean (ix2 0 d)) * (gamma (ix2 0 d) * Ideal.rsqrt (var (ix2 0 d) + Cert.Spec.eps)) + beta (ix2 0 d)) 0 := by
  subst hd; rfl

theorem hz : (![0, 0] : Fin 2 → Nat) = fun _ => 0 := funext fun a => by fin_cases a <;> rfl

/-- The printed index maps, decided over the eight grid points: the table and the output move down one block of rows per
    point; the four rows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The table's block at point `t` read at `j` is the table where the output's block puts `j`. -/
theorem iblk_tab (c : Dev nD) (t : Fin cfg2.N) (j : S8192x64.Idx) :
    (iblk2 V c 0 t : Vec Ideal S8192x64 .f32) j = V c main_v18 (((cfg2.win 5).blk t).view.emb j) := by
  obtain ⟨e00, e01, -, -, -, -, -, -, -, -, e50, e51⟩ := idx_facts t
  show V c main_v18 (((cfg2.win 0).blk t).view.emb j) = V c main_v18 (((cfg2.win 5).blk t).view.emb j)
  refine congrArg (V c main_v18) (funext fun a => Fin.ext ?_)
  match a with
  | ⟨0, _⟩ => show win2_0.index t (0 : Fin 2) * 8192 + 1 * (j 0).val = win2_5.index t (0 : Fin 2) * 8192 + 1 * (j 0).val; omega
  | ⟨1, _⟩ => show win2_0.index t (1 : Fin 2) * 64 + 1 * (j 1).val = win2_5.index t (1 : Fin 2) * 64 + 1 * (j 1).val; omega

/-- Each row window's block is its whole array at every point. -/
theorem iblk_mean (c : Dev nD) (t : Fin cfg2.N) : (iblk2 V c 1 t : Vec Ideal S1x64 .f32) = V c main_v21 := by
  obtain ⟨-, -, e0, e1, -⟩ := idx_facts t
  funext y
  show V c main_v21 (((cfg2.win 1).blk t).view.emb y) = V c main_v21 y
  congr 1
  funext a; apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

theorem iblk_var (c : Dev nD) (t : Fin cfg2.N) : (iblk2 V c 2 t : Vec Ideal S1x64 .f32) = V c main_v25 := by
  obtain ⟨-, -, -, -, e0, e1, -⟩ := idx_facts t
  funext y
  show V c main_v25 (((cfg2.win 2).blk t).view.emb y) = V c main_v25 y
  congr 1
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

theorem iblk_gamma (c : Dev nD) (t : Fin cfg2.N) : (iblk2 V c 3 t : Vec Ideal S1x64 .f32) = V c main_v0 := by
  obtain ⟨-, -, -, -, -, -, e0, e1, -⟩ := idx_facts t
  funext y
  show V c main_v0 (((cfg2.win 3).blk t).view.emb y) = V c main_v0 y
  congr 1
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

theorem iblk_beta (c : Dev nD) (t : Fin cfg2.N) : (iblk2 V c 4 t : Vec Ideal S1x64 .f32) = V c main_v1 := by
  obtain ⟨-, -, -, -, -, -, -, -, e0, e1, -⟩ := idx_facts t
  funext y
  show V c main_v1 (((cfg2.win 4).blk t).view.emb y) = V c main_v1 y
  congr 1
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point `t` writes back is block `t` of the normalised, clamped table. -/
theorem flushed_eq (c : Dev nD) (t : Fin cfg2.N) :
    (dat2 V c).flushed 5 t = ((cfg2.win 5).blk t).view.read (Elt Ideal)
      (Cert.Spec.bnRelu (V c main_v18) (V c main_v21) (V c main_v25) (V c main_v0) (V c main_v1)) := by
  show (cfg2.win 5).cut (grid2.coords t) ((dat2 V c).after 5 t) = _
  rw [after2_5]
  unfold out2_5
  rw [View.canon_unit_zero hz]
  simp only [View.ld_unit_zero (S := S8192x64) hz, View.ld_unit_zero (S := S1x64) hz]
  obtain ⟨-, -, -, -, -, -, -, -, -, -, e50, e51⟩ := idx_facts t
  funext j
  obtain ⟨r, d, rfl⟩ : ∃ (r : Fin 8192) (d : Fin 64), j = ix2 r d := ⟨j 0, j 1, eq_ix2 j⟩
  refine (pay_apply (iblk2 V c 0 t) (iblk2 V c 3 t) (iblk2 V c 2 t) (iblk2 V c 1 t) (iblk2 V c 4 t) r d).trans ?_
  refine Eq.trans ?_ (spec_at (V c main_v18) (V c main_v21) (V c main_v25) (V c main_v0) (V c main_v1)
    (((cfg2.win 5).blk t).view.emb (ix2 r d)) d
    (Fin.ext (show win2_5.index t (1 : Fin 2) * 64 + 1 * d.val = d.val by omega))).symm
  rw [iblk_tab V c t (ix2 r d), iblk_mean V c t, iblk_var V c t, iblk_gamma V c t, iblk_beta V c t]

/-- An index of the array is in point `t`'s block iff each coordinate is in the block's range on its axis. -/
theorem mem_blk (t : Fin cfg2.N) (i : S65536x64.Idx) :
    i ∈ ((cfg2.win 5).blk t).view.set ↔ ∀ a : Fin 2, win2_5.index t a * S8192x64.size a ≤ (i a).val ∧ (i a).val < win2_5.index t a * S8192x64.size a + S8192x64.size a := by
  show i ∈ ((View.whole main_v26).slice (win2_5.rect t)).set ↔ _
  rw [View.set_slice_whole, Rect.mem_set_unit]
  exact Iff.rfl

/-- Row `n` is in the block of point `n / 8192`. -/
theorem cover (i : S65536x64.Idx) : ∃ t : Fin cfg2.N, (cfg2.win 5).flush t = true ∧ i ∈ ((cfg2.win 5).blk t).view.set := by
  have hi0 : (i 0).val < 65536 := (i 0).isLt
  have hi1 : (i 1).val < 64 := (i 1).isLt
  have hN : cfg2.N = 8 := N_2
  let t : Fin cfg2.N := ⟨(i 0).val / 8192, by rw [hN]; omega⟩
  obtain ⟨-, -, -, -, -, -, -, -, -, -, e50, e51⟩ := idx_facts t
  have ht : t.val = (i 0).val / 8192 := rfl
  refine ⟨t, flush2_5 t, ?_⟩
  rw [mem_blk]
  intro a
  match a with
  | ⟨0, _⟩ => show win2_5.index t (0 : Fin 2) * 8192 ≤ (i 0).val ∧ (i 0).val < win2_5.index t (0 : Fin 2) * 8192 + 8192; omega
  | ⟨1, _⟩ => show win2_5.index t (1 : Fin 2) * 64 ≤ (i 1).val ∧ (i 1).val < win2_5.index t (1 : Fin 2) * 64 + 64; omega

/-- After the eight points the output array is the normalised, scaled, shifted and clamped table. -/
theorem final2 (c : Dev nD) : ((dat2 (F := Ideal) V c).arrAt 5 cfg2.N)
    = Cert.Spec.bnRelu (V c main_v18) (V c main_v21) (V c main_v25) (V c main_v0) (V c main_v1) :=
  (dat2 V c).arrAt_eq_of_cover 5 _ (fun t _ => flushed_eq V c t) cover

end Cert.KernelIdeal.Norm2

end
-- ==== Proof.Norm5.lean ====
/-
  The second normalisation region: eight grid points, each taking an 8192-row block of the 65536×64 table and of the
  residual table together with the 1×64 mean, variance, scale and shift rows, and storing
  max ((x − mean) · (γ · (var + ε)^(−1/2)) + β + residual, 0) into the same block of the output.  Read at an index the
  stored payload is that expression of the blocks' entries and of the rows' entries in its column (`pay_apply`); the
  table's and the residual's blocks at a point sit where the output's block sits and each row window's block is its
  whole array (`iblk_tab`, `iblk_res`, `iblk_mean` …); so what a point writes back is its block of
  `Cert.Spec.bnReluRes` of the entry arrays (`flushed_eq`), the eight blocks cover the array (`cover`), and the array
  after the last point is that function (`final5`).
-/
import proofs.«131612_j67276367725113_1_alg».proof.Proof.PatchKernelIdealFrame
import proofs.«131612_j67276367725113_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at an index: normalise by the mean and variance rows, scale, shift, add the residual, clamp at zero. -/
theorem pay_apply (v0 : Vec Ideal S8192x64 .f32) (v2 v4 v10 v16 : Vec Ideal S1x64 .f32) (v20 : Vec Ideal S8192x64 .f32)
    (r : Fin 8192) (d : Fin 64) :
    k5_pay1 v0 v2 v4 v10 v16 v20 (ix2 r d)
      = max ((v0 (ix2 r d) - v10 (ix2 0 d)) * (v2 (ix2 0 d) * Ideal.rsqrt (v4 (ix2 0 d) + Cert.Spec.eps)) + v16 (ix2 0 d)
          + v20 (ix2 r d)) 0 := by
  unfold k5_pay1
  simp only [shapeCast_self]
  rw [maximumf_apply, addf_apply, addf_apply, mulf_apply, subf_apply, broadcastTo_1b_ab_apply, broadcastTo_1b_ab_apply,
    broadcastTo_1b_ab_apply, mulf_apply, broadcast_apply]
  exact congrArg₂ max rfl Ideal.ofBits_zero_f32

/-- The target function at an index whose column is `d`. -/
theorem spec_at (h : Cert.Spec.SN.Idx → EReal) (mean var gamma beta : Cert.Spec.SR.Idx → EReal) (idn : Cert.Spec.SN.Idx → EReal)
    (i : Cert.Spec.SN.Idx) (d : Fin 64) (hd : i 1 = d) :
    Cert.Spec.bnReluRes h mean var gamma beta idn i
      = max ((h i - mean (ix2 0 d)) * (gamma (ix2 0 d) * Ideal.rsqrt (var (ix2 0 d) + Cert.Spec.eps)) + beta (ix2 0 d)
          + idn i) 0 := by
  subst hd; rfl

theorem hz : (![0, 0] : Fin 2 → Nat) = fun _ => 0 := funext fun a => by fin_cases a <;> rfl

/-- The printed index maps, decided over the eight grid points: the table, the residual and the output move down one
    block of rows per point; the four rows stay at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- The table's block at point `t` read at `j` is the table where the output's block puts `j`. -/
theorem iblk_tab (c : Dev nD) (t : Fin cfg5.N) (j : S8192x64.Idx) :
    (iblk5 V c 0 t : Vec Ideal S8192x64 .f32) j = V c main_v41 (((cfg5.win 6).blk t).view.emb j) := by
  obtain ⟨e00, e01, -, -, -, -, -, -, -, -, -, -, e60, e61⟩ := idx_facts t
  show V c main_v41 (((cfg5.win 0).blk t).view.emb j) = V c main_v41 (((cfg5.win 6).blk t).view.emb j)
  refine congrArg (V c main_v41) (funext fun a => Fin.ext ?_)
  match a with
  | ⟨0, _⟩ => show win5_0.index t (0 : Fin 2) * 8192 + 1 * (j 0).val = win5_6.index t (0 : Fin 2) * 8192 + 1 * (j 0).val; omega
  | ⟨1, _⟩ => show win5_0.index t (1 : Fin 2) * 64 + 1 * (j 1).val = win5_6.index t (1 : Fin 2) * 64 + 1 * (j 1).val; omega

/-- The residual's block at point `t` read at `j` is the residual where the output's block puts `j`. -/
theorem iblk_res (c : Dev nD) (t : Fin cfg5.N) (j : S8192x64.Idx) :
    (iblk5 V c 5 t : Vec Ideal S8192x64 .f32) j = V c main_arg0 (((cfg5.win 6).blk t).view.emb j) := by
  obtain ⟨-, -, -, -, -, -, -, -, -, -, e50, e51, e60, e61⟩ := idx_facts t
  show V c main_arg0 (((cfg5.win 5).blk t).view.emb j) = V c main_arg0 (((cfg5.win 6).blk t).view.emb j)
  refine congrArg (V c main_arg0) (funext fun a => Fin.ext ?_)
  match a with
  | ⟨0, _⟩ => show win5_5.index t (0 : Fin 2) * 8192 + 1 * (j 0).val = win5_6.index t (0 : Fin 2) * 8192 + 1 * (j 0).val; omega
  | ⟨1, _⟩ => show win5_5.index t (1 : Fin 2) * 64 + 1 * (j 1).val = win5_6.index t (1 : Fin 2) * 64 + 1 * (j 1).val; omega

/-- Each row window's block is its whole array at every point. -/
theorem iblk_mean (c : Dev nD) (t : Fin cfg5.N) : (iblk5 V c 1 t : Vec Ideal S1x64 .f32) = V c main_v44 := by
  obtain ⟨-, -, e0, e1, -⟩ := idx_facts t
  funext y
  show V c main_v44 (((cfg5.win 1).blk t).view.emb y) = V c main_v44 y
  congr 1
  funext a; apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

theorem iblk_var (c : Dev nD) (t : Fin cfg5.N) : (iblk5 V c 2 t : Vec Ideal S1x64 .f32) = V c main_v48 := by
  obtain ⟨-, -, -, -, e0, e1, -⟩ := idx_facts t
  funext y
  show V c main_v48 (((cfg5.win 2).blk t).view.emb y) = V c main_v48 y
  congr 1
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

theorem iblk_gamma (c : Dev nD) (t : Fin cfg5.N) : (iblk5 V c 3 t : Vec Ideal S1x64 .f32) = V c main_v2 := by
  obtain ⟨-, -, -, -, -, -, e0, e1, -⟩ := idx_facts t
  funext y
  show V c main_v2 (((cfg5.win 3).blk t).view.emb y) = V c main_v2 y
  congr 1
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

theorem iblk_beta (c : Dev nD) (t : Fin cfg5.N) : (iblk5 V c 4 t : Vec Ideal S1x64 .f32) = V c main_v3 := by
  obtain ⟨-, -, -, -, -, -, -, -, e0, e1, -⟩ := idx_facts t
  funext y
  show V c main_v3 (((cfg5.win 4).blk t).view.emb y) = V c main_v3 y
  congr 1
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- What point `t` writes back is block `t` of the normalised table with the residual added, clamped. -/
theorem flushed_eq (c : Dev nD) (t : Fin cfg5.N) :
    (dat5 V c).flushed 6 t = ((cfg5.win 6).blk t).view.read (Elt Ideal)
      (Cert.Spec.bnReluRes (V c main_v41) (V c main_v44) (V c main_v48) (V c main_v2) (V c main_v3) (V c main_arg0)) := by
  show (cfg5.win 6).cut (grid5.coords t) ((dat5 V c).after 6 t) = _
  rw [after5_6]
  unfold out5_6
  rw [View.canon_unit_zero hz]
  simp only [View.ld_unit_zero (S := S8192x64) hz, View.ld_unit_zero (S := S1x64) hz]
  obtain ⟨-, -, -, -, -, -, -, -, -, -, -, -, e60, e61⟩ := idx_facts t
  funext j
  obtain ⟨r, d, rfl⟩ : ∃ (r : Fin 8192) (d : Fin 64), j = ix2 r d := ⟨j 0, j 1, eq_ix2 j⟩
  refine (pay_apply (iblk5 V c 0 t) (iblk5 V c 3 t) (iblk5 V c 2 t) (iblk5 V c 1 t) (iblk5 V c 4 t) (iblk5 V c 5 t) r d).trans ?_
  refine Eq.trans ?_ (spec_at (V c main_v41) (V c main_v44) (V c main_v48) (V c main_v2) (V c main_v3) (V c main_arg0)
    (((cfg5.win 6).blk t).view.emb (ix2 r d)) d
    (Fin.ext (show win5_6.index t (1 : Fin 2) * 64 + 1 * d.val = d.val by omega))).symm
  rw [iblk_tab V c t (ix2 r d), iblk_res V c t (ix2 r d), iblk_mean V c t, iblk_var V c t, iblk_gamma V c t, iblk_beta V c t]

/-- An index of the array is in point `t`'s block iff each coordinate is in the block's range on its axis. -/
theorem mem_blk (t : Fin cfg5.N) (i : S65536x64.Idx) :
    i ∈ ((cfg5.win 6).blk t).view.set ↔ ∀ a : Fin 2, win5_6.index t a * S8192x64.size a ≤ (i a).val ∧ (i a).val < win5_6.index t a * S8192x64.size a + S8192x64.size a := by
  show i ∈ ((View.whole main_v49).slice (win5_6.rect t)).set ↔ _
  rw [View.set_slice_whole, Rect.mem_set_unit]
  exact Iff.rfl

/-- Row `n` is in the block of point `n / 8192`. -/
theorem cover (i : S65536x64.Idx) : ∃ t : Fin cfg5.N, (cfg5.win 6).flush t = true ∧ i ∈ ((cfg5.win 6).blk t).view.set := by
  have hi0 : (i 0).val < 65536 := (i 0).isLt
  have hi1 : (i 1).val < 64 := (i 1).isLt
  have hN : cfg5.N = 8 := N_5
  let t : Fin cfg5.N := ⟨(i 0).val / 8192, by rw [hN]; omega⟩
  obtain ⟨-, -, -, -, -, -, -, -, -, -, -, -, e60, e61⟩ := idx_facts t
  have ht : t.val = (i 0).val / 8192 := rfl
  refine ⟨t, flush5_6 t, ?_⟩
  rw [mem_blk]
  intro a
  match a with
  | ⟨0, _⟩ => show win5_6.index t (0 : Fin 2) * 8192 ≤ (i 0).val ∧ (i 0).val < win5_6.index t (0 : Fin 2) * 8192 + 8192; omega
  | ⟨1, _⟩ => show win5_6.index t (1 : Fin 2) * 64 ≤ (i 1).val ∧ (i 1).val < win5_6.index t (1 : Fin 2) * 64 + 64; omega

/-- After the eight points the output array is the normalised, scaled and shifted table with the residual added, clamped. -/
theorem final5 (c : Dev nD) : ((dat5 (F := Ideal) V c).arrAt 6 cfg5.N)
    = Cert.Spec.bnReluRes (V c main_v41) (V c main_v44) (V c main_v48) (V c main_v2) (V c main_v3) (V c main_arg0) :=
  (dat5 V c).arrAt_eq_of_cover 6 _ (fun t _ => flushed_eq V c t) cover

end Cert.KernelIdeal.Norm5

end
-- ==== Proof.ChainB.lean ====
/-
  The idealised kernel program's result as one function of its nine arguments.

  Reading the program segment by segment: the first stretch of host operations gathers rows of x and reshapes the
  scales and shifts into rows; the first region multiplies the gathered rows by the first weights; the next stretch
  scatter-adds the products into the first convolution h₁; the second region leaves the column sums of h₁ and of its
  squares; the next stretch turns them into the mean and the variance (mean of squares minus squared mean); the third
  region normalises, scales, shifts and clamps h₁.  The second half does the same to that table with the second weights
  and adds x before the last clamp.  Each region's output array as a whole-array function of its input arrays is proved
  region by region in the modules imported below; the gather and the scatter-add are kept as the functions `gth` and `sca`, never opened.
-/
import proofs.«131612_j67276367725113_1_alg».proof.Proof.ChainA
import proofs.«131612_j67276367725113_1_alg».proof.Proof.Shared
import proofs.«131612_j67276367725113_1_alg».proof.Proof.Matmul0
import proofs.«131612_j67276367725113_1_alg».proof.Proof.Matmul3
import proofs.«131612_j67276367725113_1_alg».proof.Proof.Stats1
import proofs.«131612_j67276367725113_1_alg».proof.Proof.Stats4
import proofs.«131612_j67276367725113_1_alg».proof.Proof.Norm2
import proofs.«131612_j67276367725113_1_alg».proof.Proof.Norm5
import Idealize.ShloMosaic.PureOps.Ideal
import Idealize.ShloMosaic.Lib.StableHlo.Run

set_option maxRecDepth 16384

noncomputable section

namespace Cert.Chain

open Idealize.ShloMosaic Idealize.ShloMosaic.TcCoe Idealize.SL.Sem Idealize.ShloMosaic.StableHlo
open Cert.Spec

section Kernel

open Cert.KernelIdeal Cert.KernelIdeal.Gen

/-- A 64-vector as a 1×64 row. -/
def rowOf (v : (⟨S64, .f32⟩ : BufTy).Contents (Elt Ideal)) : (⟨S1x64, .f32⟩ : BufTy).Contents (Elt Ideal) :=
  shapeCast S1x64 v shapeCasts_S64_S1x64

/-- A row of column sums divided by the number of rows. -/
def meanRow (s : (⟨S1x64, .f32⟩ : BufTy).Contents (Elt Ideal)) : (⟨S1x64, .f32⟩ : BufTy).Contents (Elt Ideal) :=
  Host.divf s (broadcastInDim S1x64 ![] bcast_S_S1x64 (constant (F := Ideal) S_ .f32 0x47800000#32))

/-- The mean of the squares minus the square of the mean, row-wise. -/
def varRow (s q : (⟨S1x64, .f32⟩ : BufTy).Contents (Elt Ideal)) : (⟨S1x64, .f32⟩ : BufTy).Contents (Elt Ideal) :=
  subf (F := Ideal) (φ := .f32) (meanRow q) (mulf (F := Ideal) (φ := .f32) (meanRow s) (meanRow s))

variable (m : (ℓ : Loc nD τ sig) → Buf (Elt Ideal) ℓ) (ρ : Dev nD → PrngReg)

/-! ### What the stretches of host operations write -/

theorem w1_v11 (c : Dev nD) : W1 m ρ c (Proc.devRef .tc main_v11)
    = gth (m ((c : Thread nD τ).loc main_arg0)) (m ((c : Thread nD τ).loc main_arg7)) := by
  show StableHlo.after hostOps0 (W0 m ρ c) (Proc.devRef .tc main_v11) = _
  after_results
  rfl

theorem w1_v12 (c : Dev nD) : W1 m ρ c (Proc.devRef .tc main_v12) = m ((c : Thread nD τ).loc main_arg1) := by
  show StableHlo.after hostOps0 (W0 m ρ c) (Proc.devRef .tc main_v12) = _
  after_results
  rfl

theorem w1_v0 (c : Dev nD) : W1 m ρ c (Proc.devRef .tc main_v0) = rowOf (m ((c : Thread nD τ).loc main_arg2)) := by
  show StableHlo.after hostOps0 (W0 m ρ c) (Proc.devRef .tc main_v0) = _
  after_results
  rfl

theorem w1_v1 (c : Dev nD) : W1 m ρ c (Proc.devRef .tc main_v1) = rowOf (m ((c : Thread nD τ).loc main_arg3)) := by
  show StableHlo.after hostOps0 (W0 m ρ c) (Proc.devRef .tc main_v1) = _
  after_results
  rfl

theorem w1_v2 (c : Dev nD) : W1 m ρ c (Proc.devRef .tc main_v2) = rowOf (m ((c : Thread nD τ).loc main_arg5)) := by
  show StableHlo.after hostOps0 (W0 m ρ c) (Proc.devRef .tc main_v2) = _
  after_results
  rfl

theorem w1_v3 (c : Dev nD) : W1 m ρ c (Proc.devRef .tc main_v3) = rowOf (m ((c : Thread nD τ).loc main_arg6)) := by
  show StableHlo.after hostOps0 (W0 m ρ c) (Proc.devRef .tc main_v3) = _
  after_results
  rfl

theorem w3_v18 (c : Dev nD) : W3 m ρ c (Proc.devRef .tc main_v18)
    = sca (W2 m ρ c (Proc.devRef .tc main_v13)) (W2 m ρ c (Proc.devRef .tc main_arg8)) := by
  show StableHlo.after hostOps1 (W2 m ρ c) (Proc.devRef .tc main_v18) = _
  after_results
  rfl

theorem w5_v21 (c : Dev nD) : W5 m ρ c (Proc.devRef .tc main_v21) = meanRow (W4 m ρ c (Proc.devRef .tc main_v19_0)) := by
  show StableHlo.after hostOps2 (W4 m ρ c) (Proc.devRef .tc main_v21) = _
  after_results
  rfl

theorem w5_v25 (c : Dev nD) : W5 m ρ c (Proc.devRef .tc main_v25)
    = varRow (W4 m ρ c (Proc.devRef .tc main_v19_0)) (W4 m ρ c (Proc.devRef .tc main_v19_1)) := by
  show StableHlo.after hostOps2 (W4 m ρ c) (Proc.devRef .tc main_v25) = _
  after_results
  rfl

theorem w7_v34 (c : Dev nD) : W7 m ρ c (Proc.devRef .tc main_v34)
    = gth (W6 m ρ c (Proc.devRef .tc main_v26)) (W6 m ρ c (Proc.devRef .tc main_arg7)) := by
  show StableHlo.after hostOps3 (W6 m ρ c) (Proc.devRef .tc main_v34) = _
  after_results
  rfl

theorem w7_v35 (c : Dev nD) : W7 m ρ c (Proc.devRef .tc main_v35) = W6 m ρ c (Proc.devRef .tc main_arg4) := by
  show StableHlo.after hostOps3 (W6 m ρ c) (Proc.devRef .tc main_v35) = _
  after_results
  rfl

theorem w9_v41 (c : Dev nD) : W9 m ρ c (Proc.devRef .tc main_v41)
    = sca (W8 m ρ c (Proc.devRef .tc main_v36)) (W8 m ρ c (Proc.devRef .tc main_arg8)) := by
  show StableHlo.after hostOps4 (W8 m ρ c) (Proc.devRef .tc main_v41) = _
  after_results
  rfl

theorem w11_v44 (c : Dev nD) : W11 m ρ c (Proc.devRef .tc main_v44) = meanRow (W10 m ρ c (Proc.devRef .tc main_v42_0)) := by
  show StableHlo.after hostOps5 (W10 m ρ c) (Proc.devRef .tc main_v44) = _
  after_results
  rfl

theorem w11_v48 (c : Dev nD) : W11 m ρ c (Proc.devRef .tc main_v48)
    = varRow (W10 m ρ c (Proc.devRef .tc main_v42_0)) (W10 m ρ c (Proc.devRef .tc main_v42_1)) := by
  show StableHlo.after hostOps5 (W10 m ρ c) (Proc.devRef .tc main_v48) = _
  after_results
  rfl

/-! ### The program's result -/

/-- Batch normalisation the kernel's way: the mean and the variance from the column sums and the column sums of
    squares, the scale and the shift as rows. -/
def kbn (h : (⟨S65536x64, .f32⟩ : BufTy).Contents (Elt Ideal)) (g b : (⟨S64, .f32⟩ : BufTy).Contents (Elt Ideal)) :
    (⟨S65536x64, .f32⟩ : BufTy).Contents (Elt Ideal) :=
  bnRelu h (meanRow (colSum h)) (varRow (colSum h) (colSumSq h)) (rowOf g) (rowOf b)

/-- The same with the residual table added before the clamp. -/
def kbnRes (h : (⟨S65536x64, .f32⟩ : BufTy).Contents (Elt Ideal)) (g b : (⟨S64, .f32⟩ : BufTy).Contents (Elt Ideal))
    (idn : (⟨S65536x64, .f32⟩ : BufTy).Contents (Elt Ideal)) : (⟨S65536x64, .f32⟩ : BufTy).Contents (Elt Ideal) :=
  bnReluRes h (meanRow (colSum h)) (varRow (colSum h) (colSumSq h)) (rowOf g) (rowOf b) idn

/-- The kernel program's result in these words. -/
def kerVal (x0 : (⟨S65536x64, .f32⟩ : BufTy).Contents (Elt Ideal)) (x1 : (⟨S27x64x64, .f32⟩ : BufTy).Contents (Elt Ideal))
    (x2 x3 : (⟨S64, .f32⟩ : BufTy).Contents (Elt Ideal)) (x4 : (⟨S27x64x64, .f32⟩ : BufTy).Contents (Elt Ideal))
    (x5 x6 : (⟨S64, .f32⟩ : BufTy).Contents (Elt Ideal)) (x7 x8 : (⟨S27x65536, .i32⟩ : BufTy).Contents (Elt Ideal)) :
    (⟨S65536x64, .f32⟩ : BufTy).Contents (Elt Ideal) :=
  kbnRes (conv (kbn (conv x0 x1 x7 x8) x2 x3) x4 x7 x8) x5 x6 x0

/-- At the launch boundary an argument's buffer holds the launch memory. -/
theorem w0_eq (c : Dev nD) (b : Ref sig .tc) : W0 m ρ c (Proc.devRef .tc b) = m ((c : Thread nD τ).loc b) := rfl

/-- The first convolution, as the second region finds it. -/
theorem h1_eq (c : Dev nD) : W3 m ρ c (Proc.devRef .tc main_v18)
    = conv (m ((c : Thread nD τ).loc main_arg0)) (m ((c : Thread nD τ).loc main_arg1))
        (m ((c : Thread nD τ).loc main_arg7)) (m ((c : Thread nD τ).loc main_arg8)) := by
  have e : W2 m ρ c (Proc.devRef .tc main_v13)
      = mm (gth (m ((c : Thread nD τ).loc main_arg0)) (m ((c : Thread nD τ).loc main_arg7))) (m ((c : Thread nD τ).loc main_arg1)) := by
    refine (W2_arr m ρ c 2).trans ((Cert.KernelIdeal.Matmul0.final0 (V1 m ρ) c).trans ?_)
    show mm (W1 m ρ c (Proc.devRef .tc main_v11)) (W1 m ρ c (Proc.devRef .tc main_v12)) = _
    rw [w1_v11, w1_v12]
  rw [w3_v18, e, Cert.KernelIdeal.Carry.arg8_at2, w0_eq]
  rfl

/-- The column sums of the first convolution, as the third stretch finds them. -/
theorem s1_eq (c : Dev nD) : W4 m ρ c (Proc.devRef .tc main_v19_0) = colSum (conv (m ((c : Thread nD τ).loc main_arg0)) (m ((c : Thread nD τ).loc main_arg1)) (m ((c : Thread nD τ).loc main_arg7)) (m ((c : Thread nD τ).loc main_arg8))) := by
  refine (W4_arr m ρ c 1).trans ((Cert.KernelIdeal.Stats1.final1_sum (V3 m ρ) c).trans ?_)
  show colSum (W3 m ρ c (Proc.devRef .tc main_v18)) = _
  rw [h1_eq]

/-- The column sums of its squares. -/
theorem q1_eq (c : Dev nD) : W4 m ρ c (Proc.devRef .tc main_v19_1) = colSumSq (conv (m ((c : Thread nD τ).loc main_arg0)) (m ((c : Thread nD τ).loc main_arg1)) (m ((c : Thread nD τ).loc main_arg7)) (m ((c : Thread nD τ).loc main_arg8))) := by
  refine (W4_arr m ρ c 2).trans ((Cert.KernelIdeal.Stats1.final1_sq (V3 m ρ) c).trans ?_)
  show colSumSq (W3 m ρ c (Proc.devRef .tc main_v18)) = _
  rw [h1_eq]

/-- The first layer's output: the first convolution normalised, scaled, shifted and clamped. -/
theorem o1_eq (c : Dev nD) : W6 m ρ c (Proc.devRef .tc main_v26) = kbn (conv (m ((c : Thread nD τ).loc main_arg0)) (m ((c : Thread nD τ).loc main_arg1)) (m ((c : Thread nD τ).loc main_arg7)) (m ((c : Thread nD τ).loc main_arg8))) (m ((c : Thread nD τ).loc main_arg2)) (m ((c : Thread nD τ).loc main_arg3)) := by
  refine (W6_arr m ρ c 5).trans ((Cert.KernelIdeal.Norm2.final2 (V5 m ρ) c).trans ?_)
  show bnRelu (W5 m ρ c (Proc.devRef .tc main_v18)) (W5 m ρ c (Proc.devRef .tc main_v21)) (W5 m ρ c (Proc.devRef .tc main_v25))
    (W5 m ρ c (Proc.devRef .tc main_v0)) (W5 m ρ c (Proc.devRef .tc main_v1)) = _
  rw [Cert.KernelIdeal.Carry.v18_at5, w5_v21, w5_v25, Cert.KernelIdeal.Carry.v0_at5, Cert.KernelIdeal.Carry.v1_at5,
    h1_eq, s1_eq, q1_eq, w1_v0, w1_v1]
  rfl

/-- The second convolution, as the fifth region finds it. -/
theorem h2_eq (c : Dev nD) : W9 m ρ c (Proc.devRef .tc main_v41) = conv (kbn (conv (m ((c : Thread nD τ).loc main_arg0)) (m ((c : Thread nD τ).loc main_arg1)) (m ((c : Thread nD τ).loc main_arg7)) (m ((c : Thread nD τ).loc main_arg8))) (m ((c : Thread nD τ).loc main_arg2)) (m ((c : Thread nD τ).loc main_arg3))) (m ((c : Thread nD τ).loc main_arg4)) (m ((c : Thread nD τ).loc main_arg7)) (m ((c : Thread nD τ).loc main_arg8)) := by
  have e : W8 m ρ c (Proc.devRef .tc main_v36) = mm (gth (kbn (conv (m ((c : Thread nD τ).loc main_arg0)) (m ((c : Thread nD τ).loc main_arg1)) (m ((c : Thread nD τ).loc main_arg7)) (m ((c : Thread nD τ).loc main_arg8))) (m ((c : Thread nD τ).loc main_arg2)) (m ((c : Thread nD τ).loc main_arg3))) (m ((c : Thread nD τ).loc main_arg7))) (m ((c : Thread nD τ).loc main_arg4)) := by
    refine (W8_arr m ρ c 2).trans ((Cert.KernelIdeal.Matmul3.final3 (V7 m ρ) c).trans ?_)
    show mm (W7 m ρ c (Proc.devRef .tc main_v34)) (W7 m ρ c (Proc.devRef .tc main_v35)) = _
    rw [w7_v34, w7_v35, o1_eq, Cert.KernelIdeal.Carry.arg7_at6, Cert.KernelIdeal.Carry.arg4_at6, w0_eq, w0_eq]
  rw [w9_v41, e, Cert.KernelIdeal.Carry.arg8_at8, w0_eq]
  rfl

/-- The column sums of the second convolution. -/
theorem s2_eq (c : Dev nD) : W10 m ρ c (Proc.devRef .tc main_v42_0) = colSum (conv (kbn (conv (m ((c : Thread nD τ).loc main_arg0)) (m ((c : Thread nD τ).loc main_arg1)) (m ((c : Thread nD τ).loc main_arg7)) (m ((c : Thread nD τ).loc main_arg8))) (m ((c : Thread nD τ).loc main_arg2)) (m ((c : Thread nD τ).loc main_arg3))) (m ((c : Thread nD τ).loc main_arg4)) (m ((c : Thread nD τ).loc main_arg7)) (m ((c : Thread nD τ).loc main_arg8))) := by
  refine (W10_arr m ρ c 1).trans ((Cert.KernelIdeal.Stats4.final4_sum (V9 m ρ) c).trans ?_)
  show colSum (W9 m ρ c (Proc.devRef .tc main_v41)) = _
  rw [h2_eq]

/-- The column sums of its squares. -/
theorem q2_eq (c : Dev nD) : W10 m ρ c (Proc.devRef .tc main_v42_1) = colSumSq (conv (kbn (conv (m ((c : Thread nD τ).loc main_arg0)) (m ((c : Thread nD τ).loc main_arg1)) (m ((c : Thread nD τ).loc main_arg7)) (m ((c : Thread nD τ).loc main_arg8))) (m ((c : Thread nD τ).loc main_arg2)) (m ((c : Thread nD τ).loc main_arg3))) (m ((c : Thread nD τ).loc main_arg4)) (m ((c : Thread nD τ).loc main_arg7)) (m ((c : Thread nD τ).loc main_arg8))) := by
  refine (W10_arr m ρ c 2).trans ((Cert.KernelIdeal.Stats4.final4_sq (V9 m ρ) c).trans ?_)
  show colSumSq (W9 m ρ c (Proc.devRef .tc main_v41)) = _
  rw [h2_eq]

/-- THE KERNEL PROGRAM'S RESULT: what the last region's write-backs leave in the result buffer is `kerVal` of the nine
    arguments as launched. -/
theorem kernel_is_kerVal (c : Dev nD) : W12 m ρ c (Proc.devRef .tc main_v49)
    = kerVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 6).trans ((Cert.KernelIdeal.Norm5.final5 (V11 m ρ) c).trans ?_)
  show bnReluRes (W11 m ρ c (Proc.devRef .tc main_v41)) (W11 m ρ c (Proc.devRef .tc main_v44)) (W11 m ρ c (Proc.devRef .tc main_v48))
    (W11 m ρ c (Proc.devRef .tc main_v2)) (W11 m ρ c (Proc.devRef .tc main_v3)) (W11 m ρ c (Proc.devRef .tc main_arg0)) = _
  rw [Cert.KernelIdeal.Carry.v41_at11, w11_v44, w11_v48, Cert.KernelIdeal.Carry.v2_at11, Cert.KernelIdeal.Carry.v3_at11,
    Cert.KernelIdeal.Carry.arg0_at11, h2_eq, s2_eq, q2_eq, w1_v2, w1_v3, w0_eq]
  rfl

end Kernel

end Cert.Chain

end
-- ==== Proof.Join.lean ====
/-
  The two programs compute one function.

  With every float argument real-valued, the first convolution is real-valued, so its column variance computed as the
  mean of squares minus the squared mean is the mean of squared deviations: the first layers agree.  That common
  first-layer output is again real-valued (the variance is a non-negative real and ε is positive, so the inverse square
  root is a real number), hence so is the second convolution, and the second layers agree by the same identity.
-/
import proofs.«131612_j67276367725113_1_alg».proof.Proof.ChainB
import proofs.«131612_j67276367725113_1_alg».proof.Proof.Algebra
import Idealize.ShloMosaic.Lib.ValueLayout

set_option maxRecDepth 16384

noncomputable section

namespace Cert.Chain

open Idealize.ShloMosaic Idealize.ShloMosaic.ValueIdx
open Cert.Spec Cert.SpecRef Cert.RealSums Cert.Algebra

section
open Cert.KernelIdeal

/-- The mean row at column d: that column's sum divided by the number of rows. -/
theorem meanRow_apply (s : (⟨S1x64, .f32⟩ : BufTy).Contents (Elt Ideal)) (d : Fin 64) :
    meanRow s (ix2 0 d) = Ideal.div (s (ix2 0 d)) nPts := rfl

/-- The variance row at column d: the mean of the squares minus the square of the mean. -/
theorem varRow_apply (s q : (⟨S1x64, .f32⟩ : BufTy).Contents (Elt Ideal)) (d : Fin 64) :
    varRow s q (ix2 0 d) = Ideal.div (q (ix2 0 d)) nPts - meanRow s (ix2 0 d) * meanRow s (ix2 0 d) := rfl

/-- A vector written as a row reads back the vector. -/
theorem rowOf_apply (v : (⟨S64, .f32⟩ : BufTy).Contents (Elt Ideal)) (d : Fin 64) : rowOf v (ix2 0 d) = v (ix1 d) :=
  shapeCast_a_1a_apply v _ 0 d

end

open Cert.ReferenceIdeal in
/-- THE TWO RESULTS ARE ONE FUNCTION of real-valued float arguments. -/
theorem ker_eq_ref (x0 : (⟨S65536x64, .f32⟩ : BufTy).Contents (Elt Ideal)) (x1 : (⟨S27x64x64, .f32⟩ : BufTy).Contents (Elt Ideal))
    (x2 x3 : (⟨S64, .f32⟩ : BufTy).Contents (Elt Ideal)) (x4 : (⟨S27x64x64, .f32⟩ : BufTy).Contents (Elt Ideal))
    (x5 x6 : (⟨S64, .f32⟩ : BufTy).Contents (Elt Ideal)) (x7 x8 : (⟨S27x65536, .i32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) :
    kerVal x0 x1 x2 x3 x4 x5 x6 x7 x8 = refVal x0 x1 x2 x3 x4 x5 x6 x7 x8 := by
  have hc1 : ∀ i, IsReal (conv x0 x1 x7 x8 i) := conv_real x0 x1 x7 x8 h0 h1
  have j1 : kbn (conv x0 x1 x7 x8) x2 x3 = bnReluR (conv x0 x1 x7 x8) x2 x3 :=
    bnRelu_join (conv x0 x1 x7 x8) x2 x3 _ _ _ _ hc1 (fun d => meanRow_apply _ d) (fun d => varRow_apply _ _ d)
      (fun d => rowOf_apply x2 d) (fun d => rowOf_apply x3 d)
  have ho1 : ∀ i, IsReal (bnReluR (conv x0 x1 x7 x8) x2 x3 i) := bnReluR_real _ x2 x3 hc1 h2 h3
  have hc2 : ∀ i, IsReal (conv (bnReluR (conv x0 x1 x7 x8) x2 x3) x4 x7 x8 i) := conv_real _ x4 x7 x8 ho1 h4
  unfold kerVal refVal
  rw [j1]
  exact bnReluRes_join (conv (bnReluR (conv x0 x1 x7 x8) x2 x3) x4 x7 x8) x5 x6 _ _ _ _ hc2
    (fun d => meanRow_apply _ d) (fun d => varRow_apply _ _ d) (fun d => rowOf_apply x5 d) (fun d => rowOf_apply x6 d) x0

end Cert.Chain

end
-- ==== Proof.FinitePre.lean ====
/-
  The precondition says of each of the seven float arguments that every entry's absolute value lies strictly below
  +∞.  On the extended reals that leaves exactly the real numbers: |⊤| = |⊥| = ⊤ is not below ⊤.  So under the
  precondition every entry of every float argument is a real number.
-/
import proofs.«131612_j67276367725113_1_alg».proof.Defs
import proofs.«131612_j67276367725113_1_alg».proof.Proof.Gen.Pre_finite_inputs
import proofs.«131612_j67276367725113_1_alg».proof.Proof.LibRealSums
import Idealize.ShloMosaic.Lib.ReduceAll
import Idealize.ShloMosaic.Lib.ValueIdx
import Idealize.ShloMosaic.PureOps.Ideal
import Idealize.ShloMosaic.PureOps.Ideal.Laws

noncomputable section

namespace Cert.FinitePre

open Idealize.ShloMosaic Idealize.ShloMosaic.ValueIdx Cert.RealSums Cert.Pre_finite_inputs

/-- The scalar shape has one index. -/
instance : Subsingleton S_.Idx := ⟨fun a b => funext fun d => d.elim0⟩

/-- The single-precision word 0x7F800000 denotes +∞. -/
theorem top_word : Ideal.ofBits .f32 0x7F800000#32 = ⊤ := by simp [Ideal.ofBits, Ideal.ieee]

/-- A truth value's one-bit word is 1 exactly when the truth value is true. -/
theorem ofBool_eq_one {b : Bool} : BitVec.ofBool b = 1#1 ↔ b = true := by cases b <;> decide

/-- An extended real whose absolute value max x (−x) lies strictly below +∞ is a real number. -/
theorem isReal_of_abs_lt_top (x : EReal) (h : max x (-x) < ⊤) : IsReal x := by
  induction x using EReal.rec with
  | bot => simp at h
  | coe r => exact ⟨r, rfl⟩
  | top => simp at h

/-- One conjunct of the precondition, over any shape: if the conjunction over all entries of |x| < +∞ is true,
    every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) (i : s.Idx) : IsReal (x i) := by
  have h1 := Host.reduce_andi_all _ _ hr hu j e i
  have h2 : Ideal.cmp .olt (max (x i) (-(x i))) (Ideal.ofBits .f32 0x7F800000#32) = 1#1 := h1
  rw [top_word] at h2
  have h3 : BitVec.ofBool (decide (max (x i) (-(x i)) < ⊤)) = 1#1 := h2
  exact isReal_of_abs_lt_top _ (of_decide_eq_true (ofBool_eq_one.1 h3))

/-- Under the precondition every entry of each of the seven float arguments is a real number. -/
theorem real_of_pre [Facts] (x0 : FVec Ideal S65536x64 .f32) (x1 : FVec Ideal S27x64x64 .f32) (x2 x3 : FVec Ideal S64 .f32)
    (x4 : FVec Ideal S27x64x64 .f32) (x5 x6 : FVec Ideal S64 .f32) (x7 x8 : IVec S27x65536 32)
    (h : fn (F := Ideal) x0 x1 x2 x3 x4 x5 x6 x7 x8 = (fun _ => 1#1)) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) := by
  have h0 := congrFun h ix0
  dsimp only [fn, fn_part1, Idealize.ShloMosaic.andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ _ e0, real_of_all x1 _ _ _ _ e1, real_of_all x2 _ _ _ _ e2, real_of_all x3 _ _ _ _ e3,
    real_of_all x4 _ _ _ _ e4, real_of_all x5 _ _ _ _ e5, real_of_all x6 _ _ _ _ e6⟩

end Cert.FinitePre

end
-- ==== Proof.lean ====
/-
  A two-layer sparse-convolution residual block against its plain formula.

  Both programs compute, on a 65536×64 table x: a sparse convolution (gather rows of the table by 27×65536 row
  numbers, multiply the gathered rows of each of the 27 offsets by that offset's 64×64 weight, add the products into
  output rows named by a second list of row numbers), a batch normalisation over the 65536 rows followed by a clamp at
  zero, a second sparse convolution with second weights, a second batch normalisation, the addition of x, and a last
  clamp.  The kernel program does the products, the column statistics and the normalisations in six tiled kernels and
  computes each column's variance as the mean of the squares minus the square of the mean; the reference takes the mean
  of the squared deviations from the mean.  On the extended reals these two variances agree when the column's entries
  are real numbers, and they are: every float argument is finite by the precondition, a gathered entry is an entry of
  the table, a product entry is a finite sum of products, a scatter-added entry is zero plus a finite sum of product
  entries; and the first layer's output is again real because a variance of reals is a non-negative real and the
  stabiliser ε is positive.  The gather and the scatter-add are the same host operations in both programs and are
  never opened beyond that.

  The three frames: the two kernel programs' by their frame certificates, the reference's by its run.  The idealised
  program is the kernel's own text read on the extended reals (no rewrite to account for).
-/
import proofs.«131612_j67276367725113_1_alg».proof.Defs
import proofs.«131612_j67276367725113_1_alg».proof.Proof.PatchKernelFrame
import proofs.«131612_j67276367725113_1_alg».proof.Proof.PatchKernelIdealFrame
import proofs.«131612_j67276367725113_1_alg».proof.Proof.Gen.ReferenceIdeal
import proofs.«131612_j67276367725113_1_alg».proof.Proof.Gen.ReferenceIdeal.Run
import proofs.«131612_j67276367725113_1_alg».proof.Proof.Gen.Pre_finite_inputs
import proofs.«131612_j67276367725113_1_alg».proof.Proof.KRun
import proofs.«131612_j67276367725113_1_alg».proof.Proof.ChainB
import proofs.«131612_j67276367725113_1_alg».proof.Proof.Join
import proofs.«131612_j67276367725113_1_alg».proof.Proof.FinitePre

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the result buffer at one function of the arguments: the kernel's by reading its run
    segment by segment, the reference's by its run; the two functions agree because the precondition makes every float
    argument real-valued. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Chain.kerVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run (Cert.KernelIdeal.defs (F := Ideal)) _ _).mono
      (fun r h c => ⟨(h c).1.trans (Cert.Chain.kernel_is_kerVal m ρ c), (h c).2⟩)
      (Cert.KernelIdeal.RunVal.run (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨e0, e1, e2, e3, e4, e5, e6, e7, e8⟩ := hagree c
    obtain ⟨r0, r1, r2, r3, r4, r5, r6⟩ := Cert.FinitePre.real_of_pre _ _ _ _ _ _ _ _ _ (hpre c)
    rw [Cert.ReferenceIdeal.Read.val_main_v74_eq, e0, e1, e2, e3, e4, e5, e6, e7, e8, Cert.Chain.ref_is_refVal]
    exact (Cert.Chain.ker_eq_ref _ _ _ _ _ _ _ _ _ r0 r1 r2 r3 r4 r5 r6).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
